-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12800x256 : Shape := ⟨2, ![12800, 256]⟩
abbrev S51200x1568 : Shape := ⟨2, ![51200, 1568]⟩
abbrev S51200x224 : Shape := ⟨2, ![51200, 224]⟩
abbrev S2x51200 : Shape := ⟨2, ![2, 51200]⟩
abbrev S12800 : Shape := ⟨1, ![12800]⟩
abbrev S256x256 : Shape := ⟨2, ![256, 256]⟩
abbrev S256 : Shape := ⟨1, ![256]⟩
abbrev S256x1568 : Shape := ⟨2, ![256, 1568]⟩
abbrev S256x224 : Shape := ⟨2, ![256, 224]⟩
abbrev S256x512 : Shape := ⟨2, ![256, 512]⟩
abbrev S3x256x256 : Shape := ⟨3, ![3, 256, 256]⟩
abbrev S3x256 : Shape := ⟨2, ![3, 256]⟩
abbrev S_ : Shape := ⟨0, ![]⟩

class Facts : Prop where
  bcast_S_S12800x256 : S_.BroadcastsInDim S12800x256 (![] : Fin 0 → Fin S12800x256.rank)
  reducesTo_S12800x256_S_d0_1 : S12800x256.ReducesTo [0, 1] S_
  h_S_ : 0 < S_.numel
  bcast_S_S51200x1568 : S_.BroadcastsInDim S51200x1568 (![] : Fin 0 → Fin S51200x1568.rank)
  reducesTo_S51200x1568_S_d0_1 : S51200x1568.ReducesTo [0, 1] S_
  bcast_S_S51200x224 : S_.BroadcastsInDim S51200x224 (![] : Fin 0 → Fin S51200x224.rank)
  reducesTo_S51200x224_S_d0_1 : S51200x224.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1568 : S_.BroadcastsInDim S256x1568 (![] : Fin 0 → Fin S256x1568.rank)
  reducesTo_S256x1568_S_d0_1 : S256x1568.ReducesTo [0, 1] S_
  bcast_S_S256x224 : S_.BroadcastsInDim S256x224 (![] : Fin 0 → Fin S256x224.rank)
  reducesTo_S256x224_S_d0_1 : S256x224.ReducesTo [0, 1] S_
  bcast_S_S256x512 : S_.BroadcastsInDim S256x512 (![] : Fin 0 → Fin S256x512.rank)
  reducesTo_S256x512_S_d0_1 : S256x512.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part8 {F : FTy → Type} [FloatOps F] (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  main_v138

def fn_part7 {F : FTy → Type} [FloatOps F] (main_arg27 : FVec F S256 .f32) (main_arg28 : FVec F S256x256 .f32) (main_arg29 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x256 .f32 := Host.absf main_arg28
  let main_cst_50 : FVec F S_ .f32 := constant S_ .f32 0x7F800000#32
  let main_v130 : FVec F S256x256 .f32 := broadcastInDim S256x256 ![] bcast_S_S256x256 main_cst_50
  let main_v131 : IVec S256x256 1 := cmpf .olt main_v129 main_v130
  let main_c_51 : IVec S_ 1 := constantI S_ 1 1#1
  let main_v132 : IVec S_ 1 := (fun x v => Host.reduce IntOp.andi x v reducesTo_S256x256_S_d0_1 h_S_) main_v131 main_c_51
  let main_v133 : IVec S_ 1 := andi main_v128 main_v132
  let main_v134 : FVec F S256 .f32 := Host.absf main_arg29
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_v133 main_v136

def fn_part6 {F : FTy → Type} [FloatOps F] (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S3x256x256 .f32 := Host.absf main_arg23
  let main_cst_40 : FVec F S_ .f32 := constant S_ .f32 0x7F800000#32
  let main_v105 : FVec F S3x256x256 .f32 := broadcastInDim S3x256x256 ![] bcast_S_S3x256x256 main_cst_40
  let main_v106 : IVec S3x256x256 1 := cmpf .olt main_v104 main_v105
  let main_c_41 : IVec S_ 1 := constantI S_ 1 1#1
  let main_v107 : IVec S_ 1 := (fun x v => Host.reduce IntOp.andi x v reducesTo_S3x256x256_S_d0_1_2 h_S_) main_v106 main_c_41
  let main_v108 : IVec S_ 1 := andi main_v103 main_v107
  let main_v109 : FVec F S3x256 .f32 := Host.absf main_arg24
  let main_cst_42 : FVec F S_ .f32 := constant S_ .f32 0x7F800000#32
  let main_v110 : FVec F S3x256 .f32 := broadcastInDim S3x256 ![] bcast_S_S3x256 main_cst_42
  let main_v111 : IVec S3x256 1 := cmpf .olt main_v109 main_v110
  let main_c_43 : IVec S_ 1 := constantI S_ 1 1#1
  let main_v112 : IVec S_ 1 := (fun x v => Host.reduce IntOp.andi x v reducesTo_S3x256_S_d0_1 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg26
  fn_part7 (F := F) main_arg27 main_arg28 main_arg29 main_v118 main_v119

def fn_part5 {F : FTy → Type} [FloatOps F] (main_arg20 : FVec F S256 .f32) (main_arg21 : FVec F S256x512 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x512 .f32 := Host.absf main_arg21
  let main_cst_36 : FVec F S_ .f32 := constant S_ .f32 0x7F800000#32
  let main_v95 : FVec F S256x512 .f32 := broadcastInDim S256x512 ![] bcast_S_S256x512 main_cst_36
  let main_v96 : IVec S256x512 1 := cmpf .olt main_v94 main_v95
  let main_c_37 : IVec S_ 1 := constantI S_ 1 1#1
  let main_v97 : IVec S_ 1 := (fun x v => Host.reduce IntOp.andi x v reducesTo_S256x512_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S256x256 .f32) (main_arg17 : FVec F S256x256 .f32) (main_arg18 : FVec F S256 .f32) (main_arg19 : FVec F S256x256 .f32) (main_arg20 : FVec F S256 .f32) (main_arg21 : FVec F S256x512 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S256x512 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S256x224 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S256x512 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v33 : IVec S_ 1) : IVec S_ 1 :=
  let main_v34 : FVec F S256x224 .f32 := Host.absf main_arg9
  let main_cst_12 : FVec F S_ .f32 := constant S_ .f32 0x7F800000#32
  let main_v35 : FVec F S256x224 .f32 := broadcastInDim S256x224 ![] bcast_S_S256x224 main_cst_12
  let main_v36 : IVec S256x224 1 := cmpf .olt main_v34 main_v35
  let main_c_13 : IVec S_ 1 := constantI S_ 1 1#1
  let main_v37 : IVec S_ 1 := (fun x v => Host.reduce IntOp.andi x v reducesTo_S256x224_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S256 .f32) (main_arg7 : FVec F S256x1568 .f32) (main_arg8 : FVec F S256x256 .f32) (main_arg9 : FVec F S256x224 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S256x512 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1568 .f32 := Host.absf main_arg7
  let main_cst_8 : FVec F S_ .f32 := constant S_ .f32 0x7F800000#32
  let main_v25 : FVec F S256x1568 .f32 := broadcastInDim S256x1568 ![] bcast_S_S256x1568 main_cst_8
  let main_v26 : IVec S256x1568 1 := cmpf .olt main_v24 main_v25
  let main_c_9 : IVec S_ 1 := constantI S_ 1 1#1
  let main_v27 : IVec S_ 1 := (fun x v => Host.reduce IntOp.andi x v reducesTo_S256x1568_S_d0_1 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S12800x256 .f32) (main_arg1 : FVec F S51200x1568 .f32) (main_arg2 : FVec F S51200x224 .f32) (main_arg3 : IVec S2x51200 32) (main_arg4 : IVec S12800 32) (main_arg5 : FVec F S256x256 .f32) (main_arg6 : FVec F S256 .f32) (main_arg7 : FVec F S256x1568 .f32) (main_arg8 : FVec F S256x256 .f32) (main_arg9 : FVec F S256x224 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256x256 .f32) (main_arg18 : FVec F S256 .f32) (main_arg19 : FVec F S256x256 .f32) (main_arg20 : FVec F S256 .f32) (main_arg21 : FVec F S256x512 .f32) (main_arg22 : FVec F S256 .f32) (main_arg23 : FVec F S3x256x256 .f32) (main_arg24 : FVec F S3x256 .f32) (main_arg25 : FVec F S256 .f32) (main_arg26 : FVec F S256 .f32) (main_arg27 : FVec F S256 .f32) (main_arg28 : FVec F S256x256 .f32) (main_arg29 : FVec F S256 .f32) : IVec S_ 1 :=
  let main_v0 : FVec F S12800x256 .f32 := Host.absf main_arg0
  let main_cst : FVec F S_ .f32 := constant S_ .f32 0x7F800000#32
  let main_v1 : FVec F S12800x256 .f32 := broadcastInDim S12800x256 ![] bcast_S_S12800x256 main_cst
  let main_v2 : IVec S12800x256 1 := cmpf .olt main_v0 main_v1
  let main_c : IVec S_ 1 := constantI S_ 1 1#1
  let main_v3 : IVec S_ 1 := (fun x v => Host.reduce IntOp.andi x v reducesTo_S12800x256_S_d0_1 h_S_) main_v2 main_c
  let main_v4 : FVec F S51200x1568 .f32 := Host.absf main_arg1
  let main_cst_0 : FVec F S_ .f32 := constant S_ .f32 0x7F800000#32
  let main_v5 : FVec F S51200x1568 .f32 := broadcastInDim S51200x1568 ![] bcast_S_S51200x1568 main_cst_0
  let main_v6 : IVec S51200x1568 1 := cmpf .olt main_v4 main_v5
  let main_c_1 : IVec S_ 1 := constantI S_ 1 1#1
  let main_v7 : IVec S_ 1 := (fun x v => Host.reduce IntOp.andi x v reducesTo_S51200x1568_S_d0_1 h_S_) main_v6 main_c_1
  let main_v8 : IVec S_ 1 := andi main_v3 main_v7
  let main_v9 : FVec F S51200x224 .f32 := Host.absf main_arg2
  let main_cst_2 : FVec F S_ .f32 := constant S_ .f32 0x7F800000#32
  let main_v10 : FVec F S51200x224 .f32 := broadcastInDim S51200x224 ![] bcast_S_S51200x224 main_cst_2
  let main_v11 : IVec S51200x224 1 := cmpf .olt main_v9 main_v10
  let main_c_3 : IVec S_ 1 := constantI S_ 1 1#1
  let main_v12 : IVec S_ 1 := (fun x v => Host.reduce IntOp.andi x v reducesTo_S51200x224_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S12800x256 : Shape := ⟨2, ![12800, 256]⟩
abbrev S51200x1568 : Shape := ⟨2, ![51200, 1568]⟩
abbrev S51200x224 : Shape := ⟨2, ![51200, 224]⟩
abbrev S2x51200 : Shape := ⟨2, ![2, 51200]⟩
abbrev S12800 : Shape := ⟨1, ![12800]⟩
abbrev S256x256 : Shape := ⟨2, ![256, 256]⟩
abbrev S256 : Shape := ⟨1, ![256]⟩
abbrev S256x1568 : Shape := ⟨2, ![256, 1568]⟩
abbrev S256x224 : Shape := ⟨2, ![256, 224]⟩
abbrev S256x512 : Shape := ⟨2, ![256, 512]⟩
abbrev S3x256x256 : Shape := ⟨3, ![3, 256, 256]⟩
abbrev S3x256 : Shape := ⟨2, ![3, 256]⟩
abbrev S1x51200 : Shape := ⟨2, ![1, 51200]⟩
abbrev S51200 : Shape := ⟨1, ![51200]⟩
abbrev S1x256 : Shape := ⟨2, ![1, 256]⟩
abbrev S_ : Shape := ⟨0, ![]⟩
abbrev S51200x1 : Shape := ⟨2, ![51200, 1]⟩
abbrev S51200x256 : Shape := ⟨2, ![51200, 256]⟩
abbrev S1568x256 : Shape := ⟨2, ![1568, 256]⟩
abbrev S224x256 : Shape := ⟨2, ![224, 256]⟩
abbrev S51200x512 : Shape := ⟨2, ![51200, 512]⟩
abbrev S1024x1568 : Shape := ⟨2, ![1024, 1568]⟩
abbrev S1024x224 : Shape := ⟨2, ![1024, 224]⟩
abbrev S1024x256 : Shape := ⟨2, ![1024, 256]⟩
abbrev S1024x512 : Shape := ⟨2, ![1024, 512]⟩
abbrev S12800x512 : Shape := ⟨2, ![12800, 512]⟩
abbrev S512x256 : Shape := ⟨2, ![512, 256]⟩
abbrev S1x256x256 : Shape := ⟨3, ![1, 256, 256]⟩
abbrev S64 : Shape := ⟨1, ![64]⟩
abbrev S12800x1 : Shape := ⟨2, ![12800, 1]⟩
abbrev S64x1 : Shape := ⟨2, ![64, 1]⟩
abbrev S64x256 : Shape := ⟨2, ![64, 256]⟩

abbrev nBuf : Space → Nat
  | .hbm => 243
  | .vmem => 12
  | .smem => 0
  | _ => 0

abbrev hbmTy0_0 (i : Nat) : BufTy := match i % 128 with
  | 0 => ⟨S12800x256, .f32⟩
  | 1 => ⟨S51200x1568, .f32⟩
  | 2 => ⟨S51200x224, .f32⟩
  | 3 => ⟨S2x51200, .i32⟩
  | 4 => ⟨S12800, .i32⟩
  | 5 => ⟨S256x256, .f32⟩
  | 6 => ⟨S256, .f32⟩
  | 7 => ⟨S256x1568, .f32⟩
  | 8 => ⟨S256x256, .f32⟩
  | 9 => ⟨S256x224, .f32⟩
  | 10 => ⟨S256x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S256, .f32⟩
  | 21 => ⟨S256x512, .f32⟩
  | 22 => ⟨S256, .f32⟩
  | 23 => ⟨S3x256x256, .f32⟩
  | 24 => ⟨S3x256, .f32⟩
  | 25 => ⟨S256, .f32⟩
  | 26 => ⟨S256, .f32⟩
  | 27 => ⟨S256, .f32⟩
  | 28 => ⟨S256x256, .f32⟩
  | 29 => ⟨S256, .f32⟩
  | 30 => ⟨S1x51200, .i32⟩
  | 31 => ⟨S51200, .i32⟩
  | 32 => ⟨S1x51200, .i32⟩
  | 33 => ⟨S51200, .i32⟩
  | 34 => ⟨S256x256, .f32⟩
  | 35 => ⟨S12800x256, .f32⟩
  | 36 => ⟨S1x256, .f32⟩
  | 37 => ⟨S12800x256, .f32⟩
  | 38 => ⟨S12800x256, .f32⟩
  | 39 => ⟨S12800x256, .f32⟩
  | 40 => ⟨S12800x256, .f32⟩
  | 41 => ⟨S_, .f32⟩
  | 42 => ⟨S12800x256, .f32⟩
  | 43 => ⟨S12800x256, .f32⟩
  | 44 => ⟨S_, .f32⟩
  | 45 => ⟨S12800x256, .f32⟩
  | 46 => ⟨S12800x256, .f32⟩
  | 47 => ⟨S12800x256, .f32⟩
  | 48 => ⟨S_, .i32⟩
  | 49 => ⟨S51200, .i32⟩
  | 50 => ⟨S51200, .i1⟩
  | 51 => ⟨S_, .i32⟩
  | 52 => ⟨S51200, .i32⟩
  | 53 => ⟨S51200, .i32⟩
  | 54 => ⟨S51200, .i32⟩
  | 55 => ⟨S51200x1, .i32⟩
  | 56 => ⟨S51200x256, .f32⟩
  | 57 => ⟨S1568x256, .f32⟩
  | 58 => ⟨S1568x256, .bf16⟩
  | 59 => ⟨S256x256, .f32⟩
  | 60 => ⟨S256x256, .bf16⟩
  | 61 => ⟨S224x256, .f32⟩
  | 62 => ⟨S224x256, .bf16⟩
  | 63 => ⟨S256x256, .f32⟩
  | 64 => ⟨S256x256, .bf16⟩
  | 65 => ⟨S51200x512, .bf16⟩
  | 66 => ⟨S51200x512, .f32⟩
  | 67 => ⟨S_, .f32⟩
  | 68 => ⟨S12800x512, .f32⟩
  | 69 => ⟨S51200x1, .i32⟩
  | 70 => ⟨S12800x512, .f32⟩
  | 71 => ⟨S12800x256, .f32⟩
  | 72 => ⟨S12800x256, .f32⟩
  | 73 => ⟨S256x256, .f32⟩
  | 74 => ⟨S12800x256, .f32⟩
  | 75 => ⟨S1x256, .f32⟩
  | 76 => ⟨S12800x256, .f32⟩
  | 77 => ⟨S12800x256, .f32⟩
  | 78 => ⟨S256x256, .f32⟩
  | 79 => ⟨S12800x256, .f32⟩
  | 80 => ⟨S12800x256, .f32⟩
  | 81 => ⟨S256x256, .f32⟩
  | 82 => ⟨S12800x256, .f32⟩
  | 83 => ⟨S1x256, .f32⟩
  | 84 => ⟨S12800x256, .f32⟩
  | 85 => ⟨S12800x256, .f32⟩
  | 86 => ⟨S12800x256, .f32⟩
  | 87 => ⟨S12800x256, .f32⟩
  | 88 => ⟨S_, .f32⟩
  | 89 => ⟨S12800x256, .f32⟩
  | 90 => ⟨S12800x256, .f32⟩
  | 91 => ⟨S_, .f32⟩
  | 92 => ⟨S12800x256, .f32⟩
  | 93 => ⟨S12800x256, .f32⟩
  | 94 => ⟨S12800x256, .f32⟩
  | 95 => ⟨S256x256, .f32⟩
  | 96 => ⟨S12800x256, .f32⟩
  | 97 => ⟨S1x256, .f32⟩
  | 98 => ⟨S12800x256, .f32⟩
  | 99 => ⟨S12800x256, .f32⟩
  | 100 => ⟨S256x256, .f32⟩
  | 101 => ⟨S12800x256, .f32⟩
  | 102 => ⟨S12800x256, .f32⟩
  | 103 => ⟨S256x256, .f32⟩
  | 104 => ⟨S12800x256, .f32⟩
  | 105 => ⟨S1x256, .f32⟩
  | 106 => ⟨S12800x256, .f32⟩
  | 107 => ⟨S12800x256, .f32⟩
  | 108 => ⟨S12800x256, .f32⟩
  | 109 => ⟨S12800x256, .f32⟩
  | 110 => ⟨S_, .f32⟩
  | 111 => ⟨S12800x256, .f32⟩
  | 112 => ⟨S12800x256, .f32⟩
  | 113 => ⟨S_, .f32⟩
  | 114 => ⟨S12800x256, .f32⟩
  | 115 => ⟨S12800x256, .f32⟩
  | 116 => ⟨S12800x256, .f32⟩
  | 117 => ⟨S12800x512, .f32⟩
  | 118 => ⟨S512x256, .f32⟩
  | 119 => ⟨S12800x256, .f32⟩
  | 120 => ⟨S1x256, .f32⟩
  | 121 => ⟨S12800x256, .f32⟩
  | 122 => ⟨S12800x256, .f32⟩
  | 123 => ⟨S12800x256, .f32⟩
  | 124 => ⟨S1x256x256, .f32⟩
  | 125 => ⟨S256x256, .f32⟩
  | 126 => ⟨S256x256, .f32⟩
  | 127 => ⟨S12800x256, .f32⟩
  | _ => ⟨S12800x256, .f32⟩

abbrev hbmTy0_1 (i : Nat) : BufTy := match i % 128 with
  | 0 => ⟨S1x256, .f32⟩
  | 1 => ⟨S256, .f32⟩
  | 2 => ⟨S1x256, .f32⟩
  | 3 => ⟨S12800x256, .f32⟩
  | 4 => ⟨S12800x256, .f32⟩
  | 5 => ⟨S12800x256, .f32⟩
  | 6 => ⟨S12800x256, .f32⟩
  | 7 => ⟨S_, .f32⟩
  | 8 => ⟨S12800x256, .f32⟩
  | 9 => ⟨S12800x256, .f32⟩
  | 10 => ⟨S_, .f32⟩
  | 11 => ⟨S12800x256, .f32⟩
  | 12 => ⟨S12800x256, .f32⟩
  | 13 => ⟨S12800x256, .f32⟩
  | 14 => ⟨S12800x256, .f32⟩
  | 15 => ⟨S1x256x256, .f32⟩
  | 16 => ⟨S256x256, .f32⟩
  | 17 => ⟨S256x256, .f32⟩
  | 18 => ⟨S12800x256, .f32⟩
  | 19 => ⟨S1x256, .f32⟩
  | 20 => ⟨S256, .f32⟩
  | 21 => ⟨S1x256, .f32⟩
  | 22 => ⟨S12800x256, .f32⟩
  | 23 => ⟨S12800x256, .f32⟩
  | 24 => ⟨S12800x256, .f32⟩
  | 25 => ⟨S12800x256, .f32⟩
  | 26 => ⟨S_, .f32⟩
  | 27 => ⟨S12800x256, .f32⟩
  | 28 => ⟨S12800x256, .f32⟩
  | 29 => ⟨S_, .f32⟩
  | 30 => ⟨S12800x256, .f32⟩
  | 31 => ⟨S12800x256, .f32⟩
  | 32 => ⟨S12800x256, .f32⟩
  | 33 => ⟨S12800x256, .f32⟩
  | 34 => ⟨S1x256x256, .f32⟩
  | 35 => ⟨S256x256, .f32⟩
  | 36 => ⟨S256x256, .f32⟩
  | 37 => ⟨S12800x256, .f32⟩
  | 38 => ⟨S1x256, .f32⟩
  | 39 => ⟨S256, .f32⟩
  | 40 => ⟨S1x256, .f32⟩
  | 41 => ⟨S12800x256, .f32⟩
  | 42 => ⟨S12800x256, .f32⟩
  | 43 => ⟨S12800x256, .f32⟩
  | 44 => ⟨S12800x256, .f32⟩
  | 45 => ⟨S_, .f32⟩
  | 46 => ⟨S12800x256, .f32⟩
  | 47 => ⟨S12800x256, .f32⟩
  | 48 => ⟨S_, .f32⟩
  | 49 => ⟨S12800x256, .f32⟩
  | 50 => ⟨S12800x256, .f32⟩
  | 51 => ⟨S12800x256, .f32⟩
  | 52 => ⟨S12800x256, .f32⟩
  | 53 => ⟨S_, .f32⟩
  | 54 => ⟨S12800, .f32⟩
  | 55 => ⟨S_, .f32⟩
  | 56 => ⟨S64, .f32⟩
  | 57 => ⟨S12800x1, .i32⟩
  | 58 => ⟨S64, .f32⟩
  | 59 => ⟨S_, .f32⟩
  | 60 => ⟨S_, .f32⟩
  | 61 => ⟨S64, .f32⟩
  | 62 => ⟨S64, .f32⟩
  | 63 => ⟨S64x1, .f32⟩
  | 64 => ⟨S_, .f32⟩
  | 65 => ⟨S64x256, .f32⟩
  | 66 => ⟨S12800x1, .i32⟩
  | 67 => ⟨S64x256, .f32⟩
  | 68 => ⟨S64x256, .f32⟩
  | 69 => ⟨S64x256, .f32⟩
  | 70 => ⟨S_, .i32⟩
  | 71 => ⟨S12800, .i32⟩
  | 72 => ⟨S12800, .i1⟩
  | 73 => ⟨S_, .i32⟩
  | 74 => ⟨S12800, .i32⟩
  | 75 => ⟨S12800, .i32⟩
  | 76 => ⟨S12800, .i32⟩
  | 77 => ⟨S12800x1, .i32⟩
  | 78 => ⟨S12800x256, .f32⟩
  | 79 => ⟨S1x256, .f32⟩
  | 80 => ⟨S12800x256, .f32⟩
  | 81 => ⟨S12800x256, .f32⟩
  | 82 => ⟨S12800x256, .f32⟩
  | 83 => ⟨S12800x256, .f32⟩
  | 84 => ⟨S_, .f32⟩
  | 85 => ⟨S64x256, .f32⟩
  | 86 => ⟨S12800x1, .i32⟩
  | 87 => ⟨S64x256, .f32⟩
  | 88 => ⟨S64x256, .f32⟩
  | 89 => ⟨S64x256, .f32⟩
  | 90 => ⟨S_, .f32⟩
  | 91 => ⟨S64x256, .f32⟩
  | 92 => ⟨S64x256, .f32⟩
  | 93 => ⟨S64x256, .f32⟩
  | 94 => ⟨S_, .i32⟩
  | 95 => ⟨S12800, .i32⟩
  | 96 => ⟨S12800, .i1⟩
  | 97 => ⟨S_, .i32⟩
  | 98 => ⟨S12800, .i32⟩
  | 99 => ⟨S12800, .i32⟩
  | 100 => ⟨S12800, .i32⟩
  | 101 => ⟨S12800x1, .i32⟩
  | 102 => ⟨S12800x256, .f32⟩
  | 103 => ⟨S1x256, .f32⟩
  | 104 => ⟨S12800x256, .f32⟩
  | 105 => ⟨S12800x256, .f32⟩
  | 106 => ⟨S12800x256, .f32⟩
  | 107 => ⟨S1x256, .f32⟩
  | 108 => ⟨S12800x256, .f32⟩
  | 109 => ⟨S12800x256, .f32⟩
  | 110 => ⟨S256x256, .f32⟩
  | 111 => ⟨S12800x256, .f32⟩
  | 112 => ⟨S1x256, .f32⟩
  | 113 => ⟨S12800x256, .f32⟩
  | 114 => ⟨S12800x256, .f32⟩
  | _ => ⟨S12800x256, .f32⟩

abbrev hbmTy (i : Nat) : BufTy := match i / 128 with
  | 0 => hbmTy0_0 i
  | 1 => hbmTy0_1 i
  | _ => ⟨S12800x256, .f32⟩

abbrev bufTy : (tb : Table) → Fin (tcTables nBuf tb) → BufTy
  | .hbm, ⟨i, _⟩ => hbmTy i
  | .local _ .vmem, ⟨0, _⟩ => ⟨S1024x1568, .f32⟩
  | .local _ .vmem, ⟨1, _⟩ => ⟨S1024x1568, .f32⟩
  | .local _ .vmem, ⟨2, _⟩ => ⟨S1024x224, .f32⟩
  | .local _ .vmem, ⟨3, _⟩ => ⟨S1024x224, .f32⟩
  | .local _ .vmem, ⟨4, _⟩ => ⟨S1024x256, .f32⟩
  | .local _ .vmem, ⟨5, _⟩ => ⟨S1024x256, .f32⟩
  | .local _ .vmem, ⟨6, _⟩ => ⟨S1568x256, .bf16⟩
  | .local _ .vmem, ⟨7, _⟩ => ⟨S256x256, .bf16⟩
  | .local _ .vmem, ⟨8, _⟩ => ⟨S224x256, .bf16⟩
  | .local _ .vmem, ⟨9, _⟩ => ⟨S256x256, .bf16⟩
  | .local _ .vmem, ⟨10, _⟩ => ⟨S1024x512, .bf16⟩
  | .local _ .vmem, ⟨11, _⟩ => ⟨S1024x512, .bf16⟩
  | _, _ => ⟨S12800x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c : Ref sig .tc := ⟨.hbm, 48, rfl⟩
abbrev main_v16 : Ref sig .tc := ⟨.hbm, 49, rfl⟩
abbrev main_v17 : Ref sig .tc := ⟨.hbm, 50, rfl⟩
abbrev main_c_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_3 : Ref sig .tc := ⟨.hbm, 88, rfl⟩
abbrev main_v53 : Ref sig .tc := ⟨.hbm, 89, rfl⟩
abbrev main_v54 : Ref sig .tc := ⟨.hbm, 90, rfl⟩
abbrev main_cst_4 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_5 : Ref sig .tc := ⟨.hbm, 110, rfl⟩
abbrev main_v73 : Ref sig .tc := ⟨.hbm, 111, rfl⟩
abbrev main_v74 : Ref sig .tc := ⟨.hbm, 112, rfl⟩
abbrev main_cst_6 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_7 : Ref sig .tc := ⟨.hbm, 135, rfl⟩
abbrev main_v96 : Ref sig .tc := ⟨.hbm, 136, rfl⟩
abbrev main_v97 : Ref sig .tc := ⟨.hbm, 137, rfl⟩
abbrev main_cst_8 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_9 : Ref sig .tc := ⟨.hbm, 154, rfl⟩
abbrev main_v113 : Ref sig .tc := ⟨.hbm, 155, rfl⟩
abbrev main_v114 : Ref sig .tc := ⟨.hbm, 156, rfl⟩
abbrev main_cst_10 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_11 : Ref sig .tc := ⟨.hbm, 173, rfl⟩
abbrev main_v130 : Ref sig .tc := ⟨.hbm, 174, rfl⟩
abbrev main_v131 : Ref sig .tc := ⟨.hbm, 175, rfl⟩
abbrev main_cst_12 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_13 : Ref sig .tc := ⟨.hbm, 181, rfl⟩
abbrev main_v136 : Ref sig .tc := ⟨.hbm, 182, rfl⟩
abbrev main_cst_14 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_15 : Ref sig .tc := ⟨.hbm, 187, rfl⟩
abbrev main_call0_v0 : Ref sig .tc := ⟨.hbm, 188, rfl⟩
abbrev main_call0_v1 : Ref sig .tc := ⟨.hbm, 189, rfl⟩
abbrev main_v140 : Ref sig .tc := ⟨.hbm, 190, rfl⟩
abbrev main_v141 : Ref sig .tc := ⟨.hbm, 191, rfl⟩
abbrev main_cst_16 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_c_17 : Ref sig .tc := ⟨.hbm, 198, rfl⟩
abbrev main_v147 : Ref sig .tc := ⟨.hbm, 199, rfl⟩
abbrev main_v148 : Ref sig .tc := ⟨.hbm, 200, rfl⟩
abbrev main_c_18 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_19 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_20 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_21 : Ref sig .tc := ⟨.hbm, 222, rfl⟩
abbrev main_v167 : Ref sig .tc := ⟨.hbm, 223, rfl⟩
abbrev main_v168 : Ref sig .tc := ⟨.hbm, 224, rfl⟩
abbrev main_c_22 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1568 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1568x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x51200_S1x51200_0_0 : S2x51200.Slices ![0, 0] S1x51200
  shapeCasts_S1x51200_S51200 : S1x51200.ShapeCasts S51200
  slices_S2x51200_S1x51200_1_0 : S2x51200.Slices ![1, 0] S1x51200
  transposes_S256x256_S256x256_1_0 : S256x256.Transposes [1, 0] S256x256
  bcast_S256_S1x256_1 : S256.BroadcastsInDim S1x256 (![1] : Fin 1 → Fin S1x256.rank)
  bcast_S1x256_S12800x256_0_1 : S1x256.BroadcastsInDim S12800x256 (![0, 1] : Fin 2 → Fin S12800x256.rank)
  bcast_S_S12800x256 : S_.BroadcastsInDim S12800x256 (![] : Fin 0 → Fin S12800x256.rank)
  bcast_S_S51200 : S_.BroadcastsInDim S51200 (![] : Fin 0 → Fin S51200.rank)
  bcast_S51200_S51200x1_0 : S51200.BroadcastsInDim S51200x1 (![0] : Fin 1 → Fin S51200x1.rank)
  transposes_S256x1568_S1568x256_1_0 : S256x1568.Transposes [1, 0] S1568x256
  bitsLt_bf16_f32 : FTy.bits .bf16 < FTy.bits .f32
  transposes_S256x224_S224x256_1_0 : S256x224.Transposes [1, 0] S224x256
  inb_S1024x1568_S1024x1568_0_0 : ∀ a, (![0, 0] : Fin 2 → Nat) a + S1024x1568.size a ≤ S1024x1568.size a
  h_S1024x1568 : 0 < S1024x1568.numel
  inb_S1568x256_S1568x256_0_0 : ∀ a, (![0, 0] : Fin 2 → Nat) a + S1568x256.size a ≤ S1568x256.size a
  h_S1568x256 : 0 < S1568x256.numel
  shapeCasts_S1568x256_S1568x256 : S1568x256.ShapeCasts S1568x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x224_S1024x224_0_0 : ∀ a, (![0, 0] : Fin 2 → Nat) a + S1024x224.size a ≤ S1024x224.size a
  h_S1024x224 : 0 < S1024x224.numel
  inb_S224x256_S224x256_0_0 : ∀ a, (![0, 0] : Fin 2 → Nat) a + S224x256.size a ≤ S224x256.size a
  h_S224x256 : 0 < S224x256.numel
  shapeCasts_S224x256_S224x256 : S224x256.ShapeCasts S224x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x256_0_0 : ∀ a, (![0, 0] : Fin 2 → Nat) a + S1024x256.size a ≤ S1024x512.size a
  packedbf16_S1024x512_S1024x256_0_0 : (Rect.unit (s := S1024x512) ![0, 0] S1024x256.size inb_S1024x512_S1024x256_0_0).PackedRows (EltTy.packing .bf16)
  inb_S1024x512_S1024x256_0_256 : ∀ a, (![0, 256] : Fin 2 → Nat) a + S1024x256.size a ≤ S1024x512.size a
  packedbf16_S1024x512_S1024x256_0_256 : (Rect.unit (s := S1024x512) ![0, 256] S1024x256.size inb_S1024x512_S1024x256_0_256).PackedRows (EltTy.packing .bf16)
  bcast_S_S12800x512 : S_.BroadcastsInDim S12800x512 (![] : Fin 0 → Fin S12800x512.rank)
  slices_S12800x512_S12800x256_0_0 : S12800x512.Slices ![0, 0] S12800x256
  slices_S12800x512_S12800x256_0_256 : S12800x512.Slices ![0, 256] S12800x256
  concatenates_S12800x256_S12800x256_S12800x512_d1 : Shape.Concatenates [S12800x256, S12800x256] S12800x512 1
  transposes_S256x512_S512x256_1_0 : S256x512.Transposes [1, 0] S512x256
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S12800 : S_.BroadcastsInDim S12800 (![] : Fin 0 → Fin S12800.rank)
  bcast_S_S64 : S_.BroadcastsInDim S64 (![] : Fin 0 → Fin S64.rank)
  bcast_S12800_S12800x1_0 : S12800.BroadcastsInDim S12800x1 (![0] : Fin 1 → Fin S12800x1.rank)
  bcast_S64_S64x1_0 : S64.BroadcastsInDim S64x1 (![0] : Fin 1 → Fin S64x1.rank)
  bcast_S_S64x256 : S_.BroadcastsInDim S64x256 (![] : Fin 0 → Fin S64x256.rank)
  bcast_S64x1_S64x256_0_1 : S64x1.BroadcastsInDim S64x256 (![0, 1] : Fin 2 → Fin S64x256.rank)
  dot_S12800x256_S256x256_S12800x256_1_0_0_1_n_n_wf : DotDims.WF S12800x256 S256x256 S12800x256 [1] [0] [0] [1] [] []
  gather_S12800x256_S51200x1_S51200x256_1_0_n_n_0_1_1256_wf : GatherDims.WF S12800x256 S51200x1 S51200x256 [1] [0] [] [0] [] 1 ![1, 256]
  dot_S1024x1568_S1568x256_S1024x256_1_0_0_1_n_n_wf : DotDims.WF S1024x1568 S1568x256 S1024x256 [1] [0] [0] [1] [] []
  dot_S1024x256_S256x256_S1024x256_1_0_0_1_n_n_wf : DotDims.WF S1024x256 S256x256 S1024x256 [1] [0] [0] [1] [] []
  dot_S1024x224_S224x256_S1024x256_1_0_0_1_n_n_wf : DotDims.WF S1024x224 S224x256 S1024x256 [1] [0] [0] [1] [] []
  scatter_S12800x512_S51200x1_S51200x512_1_0_0_1_wf : ScatterDims.WF S12800x512 S51200x1 S51200x512 [1] [0] [0] 1
  dot_S12800x512_S512x256_S12800x256_1_0_0_1_n_n_wf : DotDims.WF S12800x512 S512x256 S12800x256 [1] [0] [0] [1] [] []
  scatter_S64_S12800x1_S12800_n_0_0_1_wf : ScatterDims.WF S64 S12800x1 S12800 [] [0] [0] 1
  scatter_S64x256_S12800x1_S12800x256_1_0_0_1_wf : ScatterDims.WF S64x256 S12800x1 S12800x256 [1] [0] [0] 1
  gather_S64x256_S12800x1_S12800x256_1_0_n_n_0_1_1256_wf : GatherDims.WF S64x256 S12800x1 S12800x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1568.size a ≤ S51200x1568.size a
  hwx0_0 : ∀ i : grid0.Coords, EltTy.bits .f32 = 32 ∨ (Rect.block (s := S51200x1568) S1024x1568.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x224.size a ≤ S51200x224.size a
  hwx0_1 : ∀ i : grid0.Coords, EltTy.bits .f32 = 32 ∨ (Rect.block (s := S51200x224) S1024x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S51200x256.size a
  hwx0_2 : ∀ i : grid0.Coords, EltTy.bits .f32 = 32 ∨ (Rect.block (s := S51200x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1568x256.size a ≤ S1568x256.size a
  hwx0_3 : ∀ i : grid0.Coords, EltTy.bits .bf16 = 32 ∨ (Rect.block (s := S1568x256) S1568x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S224x256.size a ≤ S224x256.size a
  hwx0_5 : ∀ i : grid0.Coords, EltTy.bits .bf16 = 32 ∨ (Rect.block (s := S224x256) S224x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S51200x512.size a
  hwx0_7 : ∀ i : grid0.Coords, EltTy.bits .bf16 = 32 ∨ (Rect.block (s := S51200x512) S1024x512.size (cc0_transform_7 i) (hinb0_7 i)).WholeWords (EltTy.packing .bf16)

variable [Facts₀]

def dot_S12800x256_S256x256_S12800x256_1_0_0_1_n_n : DotDims S12800x256 S256x256 S12800x256 where
  lhsContracting := [1]
  rhsContracting := [0]
  lhsNonContracting := [0]
  rhsNonContracting := [1]
  lhsBatch := []
  rhsBatch := []
  wf := dot_S12800x256_S256x256_S12800x256_1_0_0_1_n_n_wf
def gather_S12800x256_S51200x1_S51200x256_1_0_n_n_0_1_1256 : GatherDims S12800x256 S51200x1 S51200x256 where
  offsetDims := [1]
  collapsedSliceDims := [0]
  operandBatchingDims := []
  startIndicesBatchingDims := []
  startIndexMap := [0]
  indexVectorDim := 1
  sliceSizes := ![1, 256]
  wf := gather_S12800x256_S51200x1_S51200x256_1_0_n_n_0_1_1256_wf
def dot_S1024x1568_S1568x256_S1024x256_1_0_0_1_n_n : DotDims S1024x1568 S1568x256 S1024x256 where
  lhsContracting := [1]
  rhsContracting := [0]
  lhsNonContracting := [0]
  rhsNonContracting := [1]
  lhsBatch := []
  rhsBatch := []
  wf := dot_S1024x1568_S1568x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x224_S224x256_S1024x256_1_0_0_1_n_n : DotDims S1024x224 S224x256 S1024x256 where
  lhsContracting := [1]
  rhsContracting := [0]
  lhsNonContracting := [0]
  rhsNonContracting := [1]
  lhsBatch := []
  rhsBatch := []
  wf := dot_S1024x224_S224x256_S1024x256_1_0_0_1_n_n_wf
def scatter_S12800x512_S51200x1_S51200x512_1_0_0_1 : ScatterDims S12800x512 S51200x1 S51200x512 where
  updateWindowDims := [1]
  insertedWindowDims := [0]
  scatterDimsToOperandDims := [0]
  indexVectorDim := 1
  wf := scatter_S12800x512_S51200x1_S51200x512_1_0_0_1_wf
def dot_S12800x512_S512x256_S12800x256_1_0_0_1_n_n : DotDims S12800x512 S512x256 S12800x256 where
  lhsContracting := [1]
  rhsContracting := [0]
  lhsNonContracting := [0]
  rhsNonContracting := [1]
  lhsBatch := []
  rhsBatch := []
  wf := dot_S12800x512_S512x256_S12800x256_1_0_0_1_n_n_wf
def scatter_S64_S12800x1_S12800_n_0_0_1 : ScatterDims S64 S12800x1 S12800 where
  updateWindowDims := []
  insertedWindowDims := [0]
  scatterDimsToOperandDims := [0]
  indexVectorDim := 1
  wf := scatter_S64_S12800x1_S12800_n_0_0_1_wf
def scatter_S64x256_S12800x1_S12800x256_1_0_0_1 : ScatterDims S64x256 S12800x1 S12800x256 where
  updateWindowDims := [1]
  insertedWindowDims := [0]
  scatterDimsToOperandDims := [0]
  indexVectorDim := 1
  wf := scatter_S64x256_S12800x1_S12800x256_1_0_0_1_wf
def gather_S64x256_S12800x1_S12800x256_1_0_n_n_0_1_1256 : GatherDims S64x256 S12800x1 S12800x256 where
  offsetDims := [1]
  collapsedSliceDims := [0]
  operandBatchingDims := []
  startIndicesBatchingDims := []
  startIndexMap := [0]
  indexVectorDim := 1
  sliceSizes := ![1, 256]
  wf := gather_S64x256_S12800x1_S12800x256_1_0_n_n_0_1_1256_wf

abbrev win0_0 : Pipeline.Window sig grid0 :=
  Pipeline.Window.ofSpec (Memref.whole main_arg1) S1024x1568.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1568x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S224x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S12800x256 : Shape := ⟨2, ![12800, 256]⟩
abbrev S51200x1568 : Shape := ⟨2, ![51200, 1568]⟩
abbrev S51200x224 : Shape := ⟨2, ![51200, 224]⟩
abbrev S2x51200 : Shape := ⟨2, ![2, 51200]⟩
abbrev S12800 : Shape := ⟨1, ![12800]⟩
abbrev S256x256 : Shape := ⟨2, ![256, 256]⟩
abbrev S256 : Shape := ⟨1, ![256]⟩
abbrev S256x1568 : Shape := ⟨2, ![256, 1568]⟩
abbrev S256x224 : Shape := ⟨2, ![256, 224]⟩
abbrev S256x512 : Shape := ⟨2, ![256, 512]⟩
abbrev S3x256x256 : Shape := ⟨3, ![3, 256, 256]⟩
abbrev S3x256 : Shape := ⟨2, ![3, 256]⟩
abbrev S1x51200 : Shape := ⟨2, ![1, 51200]⟩
abbrev S51200 : Shape := ⟨1, ![51200]⟩
abbrev S1x256 : Shape := ⟨2, ![1, 256]⟩
abbrev S_ : Shape := ⟨0, ![]⟩
abbrev S1568x256 : Shape := ⟨2, ![1568, 256]⟩
abbrev S51200x256 : Shape := ⟨2, ![51200, 256]⟩
abbrev S51200x1 : Shape := ⟨2, ![51200, 1]⟩
abbrev S224x256 : Shape := ⟨2, ![224, 256]⟩
abbrev S12800x512 : Shape := ⟨2, ![12800, 512]⟩
abbrev S512x256 : Shape := ⟨2, ![512, 256]⟩
abbrev S1x256x256 : Shape := ⟨3, ![1, 256, 256]⟩
abbrev S64 : Shape := ⟨1, ![64]⟩
abbrev S12800x1 : Shape := ⟨2, ![12800, 1]⟩
abbrev S64x1 : Shape := ⟨2, ![64, 1]⟩
abbrev S64x256 : Shape := ⟨2, ![64, 256]⟩

abbrev nBuf : Space → Nat
  | .hbm => 254
  | .vmem => 0
  | .smem => 0
  | _ => 0

abbrev hbmTy0_0 (i : Nat) : BufTy := match i % 128 with
  | 0 => ⟨S12800x256, .f32⟩
  | 1 => ⟨S51200x1568, .f32⟩
  | 2 => ⟨S51200x224, .f32⟩
  | 3 => ⟨S2x51200, .i32⟩
  | 4 => ⟨S12800, .i32⟩
  | 5 => ⟨S256x256, .f32⟩
  | 6 => ⟨S256, .f32⟩
  | 7 => ⟨S256x1568, .f32⟩
  | 8 => ⟨S256x256, .f32⟩
  | 9 => ⟨S256x224, .f32⟩
  | 10 => ⟨S256x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256x256, .f32⟩
  | 18 => ⟨S256, .f32⟩
  | 19 => ⟨S256x256, .f32⟩
  | 20 => ⟨S256, .f32⟩
  | 21 => ⟨S256x512, .f32⟩
  | 22 => ⟨S256, .f32⟩
  | 23 => ⟨S3x256x256, .f32⟩
  | 24 => ⟨S3x256, .f32⟩
  | 25 => ⟨S256, .f32⟩
  | 26 => ⟨S256, .f32⟩
  | 27 => ⟨S256, .f32⟩
  | 28 => ⟨S256x256, .f32⟩
  | 29 => ⟨S256, .f32⟩
  | 30 => ⟨S1x51200, .i32⟩
  | 31 => ⟨S51200, .i32⟩
  | 32 => ⟨S1x51200, .i32⟩
  | 33 => ⟨S51200, .i32⟩
  | 34 => ⟨S256x256, .f32⟩
  | 35 => ⟨S12800x256, .f32⟩
  | 36 => ⟨S1x256, .f32⟩
  | 37 => ⟨S12800x256, .f32⟩
  | 38 => ⟨S12800x256, .f32⟩
  | 39 => ⟨S12800x256, .f32⟩
  | 40 => ⟨S12800x256, .f32⟩
  | 41 => ⟨S_, .f32⟩
  | 42 => ⟨S12800x256, .f32⟩
  | 43 => ⟨S12800x256, .f32⟩
  | 44 => ⟨S_, .f32⟩
  | 45 => ⟨S12800x256, .f32⟩
  | 46 => ⟨S12800x256, .f32⟩
  | 47 => ⟨S12800x256, .f32⟩
  | 48 => ⟨S1568x256, .f32⟩
  | 49 => ⟨S51200x256, .f32⟩
  | 50 => ⟨S256x256, .f32⟩
  | 51 => ⟨S51200x256, .f32⟩
  | 52 => ⟨S_, .i32⟩
  | 53 => ⟨S51200, .i32⟩
  | 54 => ⟨S51200, .i1⟩
  | 55 => ⟨S_, .i32⟩
  | 56 => ⟨S51200, .i32⟩
  | 57 => ⟨S51200, .i32⟩
  | 58 => ⟨S51200, .i32⟩
  | 59 => ⟨S51200x1, .i32⟩
  | 60 => ⟨S51200x256, .f32⟩
  | 61 => ⟨S51200x256, .f32⟩
  | 62 => ⟨S_, .f32⟩
  | 63 => ⟨S12800x256, .f32⟩
  | 64 => ⟨S51200x1, .i32⟩
  | 65 => ⟨S12800x256, .f32⟩
  | 66 => ⟨S256x256, .f32⟩
  | 67 => ⟨S12800x256, .f32⟩
  | 68 => ⟨S1x256, .f32⟩
  | 69 => ⟨S12800x256, .f32⟩
  | 70 => ⟨S12800x256, .f32⟩
  | 71 => ⟨S256x256, .f32⟩
  | 72 => ⟨S12800x256, .f32⟩
  | 73 => ⟨S12800x256, .f32⟩
  | 74 => ⟨S256x256, .f32⟩
  | 75 => ⟨S12800x256, .f32⟩
  | 76 => ⟨S1x256, .f32⟩
  | 77 => ⟨S12800x256, .f32⟩
  | 78 => ⟨S12800x256, .f32⟩
  | 79 => ⟨S12800x256, .f32⟩
  | 80 => ⟨S12800x256, .f32⟩
  | 81 => ⟨S_, .f32⟩
  | 82 => ⟨S12800x256, .f32⟩
  | 83 => ⟨S12800x256, .f32⟩
  | 84 => ⟨S_, .f32⟩
  | 85 => ⟨S12800x256, .f32⟩
  | 86 => ⟨S12800x256, .f32⟩
  | 87 => ⟨S12800x256, .f32⟩
  | 88 => ⟨S224x256, .f32⟩
  | 89 => ⟨S51200x256, .f32⟩
  | 90 => ⟨S256x256, .f32⟩
  | 91 => ⟨S51200x256, .f32⟩
  | 92 => ⟨S_, .i32⟩
  | 93 => ⟨S51200, .i32⟩
  | 94 => ⟨S51200, .i1⟩
  | 95 => ⟨S_, .i32⟩
  | 96 => ⟨S51200, .i32⟩
  | 97 => ⟨S51200, .i32⟩
  | 98 => ⟨S51200, .i32⟩
  | 99 => ⟨S51200x1, .i32⟩
  | 100 => ⟨S51200x256, .f32⟩
  | 101 => ⟨S51200x256, .f32⟩
  | 102 => ⟨S_, .f32⟩
  | 103 => ⟨S12800x256, .f32⟩
  | 104 => ⟨S51200x1, .i32⟩
  | 105 => ⟨S12800x256, .f32⟩
  | 106 => ⟨S256x256, .f32⟩
  | 107 => ⟨S12800x256, .f32⟩
  | 108 => ⟨S1x256, .f32⟩
  | 109 => ⟨S12800x256, .f32⟩
  | 110 => ⟨S12800x256, .f32⟩
  | 111 => ⟨S256x256, .f32⟩
  | 112 => ⟨S12800x256, .f32⟩
  | 113 => ⟨S12800x256, .f32⟩
  | 114 => ⟨S256x256, .f32⟩
  | 115 => ⟨S12800x256, .f32⟩
  | 116 => ⟨S1x256, .f32⟩
  | 117 => ⟨S12800x256, .f32⟩
  | 118 => ⟨S12800x256, .f32⟩
  | 119 => ⟨S12800x256, .f32⟩
  | 120 => ⟨S12800x256, .f32⟩
  | 121 => ⟨S_, .f32⟩
  | 122 => ⟨S12800x256, .f32⟩
  | 123 => ⟨S12800x256, .f32⟩
  | 124 => ⟨S_, .f32⟩
  | 125 => ⟨S12800x256, .f32⟩
  | 126 => ⟨S12800x256, .f32⟩
  | 127 => ⟨S12800x256, .f32⟩
  | _ => ⟨S12800x256, .f32⟩

abbrev hbmTy0_1 (i : Nat) : BufTy := match i % 128 with
  | 0 => ⟨S12800x512, .f32⟩
  | 1 => ⟨S512x256, .f32⟩
  | 2 => ⟨S12800x256, .f32⟩
  | 3 => ⟨S1x256, .f32⟩
  | 4 => ⟨S12800x256, .f32⟩
  | 5 => ⟨S12800x256, .f32⟩
  | 6 => ⟨S12800x256, .f32⟩
  | 7 => ⟨S1x256x256, .f32⟩
  | 8 => ⟨S256x256, .f32⟩
  | 9 => ⟨S256x256, .f32⟩
  | 10 => ⟨S12800x256, .f32⟩
  | 11 => ⟨S1x256, .f32⟩
  | 12 => ⟨S256, .f32⟩
  | 13 => ⟨S1x256, .f32⟩
  | 14 => ⟨S12800x256, .f32⟩
  | 15 => ⟨S12800x256, .f32⟩
  | 16 => ⟨S12800x256, .f32⟩
  | 17 => ⟨S12800x256, .f32⟩
  | 18 => ⟨S_, .f32⟩
  | 19 => ⟨S12800x256, .f32⟩
  | 20 => ⟨S12800x256, .f32⟩
  | 21 => ⟨S_, .f32⟩
  | 22 => ⟨S12800x256, .f32⟩
  | 23 => ⟨S12800x256, .f32⟩
  | 24 => ⟨S12800x256, .f32⟩
  | 25 => ⟨S12800x256, .f32⟩
  | 26 => ⟨S1x256x256, .f32⟩
  | 27 => ⟨S256x256, .f32⟩
  | 28 => ⟨S256x256, .f32⟩
  | 29 => ⟨S12800x256, .f32⟩
  | 30 => ⟨S1x256, .f32⟩
  | 31 => ⟨S256, .f32⟩
  | 32 => ⟨S1x256, .f32⟩
  | 33 => ⟨S12800x256, .f32⟩
  | 34 => ⟨S12800x256, .f32⟩
  | 35 => ⟨S12800x256, .f32⟩
  | 36 => ⟨S12800x256, .f32⟩
  | 37 => ⟨S_, .f32⟩
  | 38 => ⟨S12800x256, .f32⟩
  | 39 => ⟨S12800x256, .f32⟩
  | 40 => ⟨S_, .f32⟩
  | 41 => ⟨S12800x256, .f32⟩
  | 42 => ⟨S12800x256, .f32⟩
  | 43 => ⟨S12800x256, .f32⟩
  | 44 => ⟨S12800x256, .f32⟩
  | 45 => ⟨S1x256x256, .f32⟩
  | 46 => ⟨S256x256, .f32⟩
  | 47 => ⟨S256x256, .f32⟩
  | 48 => ⟨S12800x256, .f32⟩
  | 49 => ⟨S1x256, .f32⟩
  | 50 => ⟨S256, .f32⟩
  | 51 => ⟨S1x256, .f32⟩
  | 52 => ⟨S12800x256, .f32⟩
  | 53 => ⟨S12800x256, .f32⟩
  | 54 => ⟨S12800x256, .f32⟩
  | 55 => ⟨S12800x256, .f32⟩
  | 56 => ⟨S_, .f32⟩
  | 57 => ⟨S12800x256, .f32⟩
  | 58 => ⟨S12800x256, .f32⟩
  | 59 => ⟨S_, .f32⟩
  | 60 => ⟨S12800x256, .f32⟩
  | 61 => ⟨S12800x256, .f32⟩
  | 62 => ⟨S12800x256, .f32⟩
  | 63 => ⟨S12800x256, .f32⟩
  | 64 => ⟨S_, .f32⟩
  | 65 => ⟨S12800, .f32⟩
  | 66 => ⟨S_, .f32⟩
  | 67 => ⟨S64, .f32⟩
  | 68 => ⟨S12800x1, .i32⟩
  | 69 => ⟨S64, .f32⟩
  | 70 => ⟨S_, .f32⟩
  | 71 => ⟨S_, .f32⟩
  | 72 => ⟨S64, .f32⟩
  | 73 => ⟨S64, .f32⟩
  | 74 => ⟨S64x1, .f32⟩
  | 75 => ⟨S_, .f32⟩
  | 76 => ⟨S64x256, .f32⟩
  | 77 => ⟨S12800x1, .i32⟩
  | 78 => ⟨S64x256, .f32⟩
  | 79 => ⟨S64x256, .f32⟩
  | 80 => ⟨S64x256, .f32⟩
  | 81 => ⟨S_, .i32⟩
  | 82 => ⟨S12800, .i32⟩
  | 83 => ⟨S12800, .i1⟩
  | 84 => ⟨S_, .i32⟩
  | 85 => ⟨S12800, .i32⟩
  | 86 => ⟨S12800, .i32⟩
  | 87 => ⟨S12800, .i32⟩
  | 88 => ⟨S12800x1, .i32⟩
  | 89 => ⟨S12800x256, .f32⟩
  | 90 => ⟨S1x256, .f32⟩
  | 91 => ⟨S12800x256, .f32⟩
  | 92 => ⟨S12800x256, .f32⟩
  | 93 => ⟨S12800x256, .f32⟩
  | 94 => ⟨S12800x256, .f32⟩
  | 95 => ⟨S_, .f32⟩
  | 96 => ⟨S64x256, .f32⟩
  | 97 => ⟨S12800x1, .i32⟩
  | 98 => ⟨S64x256, .f32⟩
  | 99 => ⟨S64x256, .f32⟩
  | 100 => ⟨S64x256, .f32⟩
  | 101 => ⟨S_, .f32⟩
  | 102 => ⟨S64x256, .f32⟩
  | 103 => ⟨S64x256, .f32⟩
  | 104 => ⟨S64x256, .f32⟩
  | 105 => ⟨S_, .i32⟩
  | 106 => ⟨S12800, .i32⟩
  | 107 => ⟨S12800, .i1⟩
  | 108 => ⟨S_, .i32⟩
  | 109 => ⟨S12800, .i32⟩
  | 110 => ⟨S12800, .i32⟩
  | 111 => ⟨S12800, .i32⟩
  | 112 => ⟨S12800x1, .i32⟩
  | 113 => ⟨S12800x256, .f32⟩
  | 114 => ⟨S1x256, .f32⟩
  | 115 => ⟨S12800x256, .f32⟩
  | 116 => ⟨S12800x256, .f32⟩
  | 117 => ⟨S12800x256, .f32⟩
  | 118 => ⟨S1x256, .f32⟩
  | 119 => ⟨S12800x256, .f32⟩
  | 120 => ⟨S12800x256, .f32⟩
  | 121 => ⟨S256x256, .f32⟩
  | 122 => ⟨S12800x256, .f32⟩
  | 123 => ⟨S1x256, .f32⟩
  | 124 => ⟨S12800x256, .f32⟩
  | 125 => ⟨S12800x256, .f32⟩
  | _ => ⟨S12800x256, .f32⟩

abbrev hbmTy (i : Nat) : BufTy := match i / 128 with
  | 0 => hbmTy0_0 i
  | 1 => hbmTy0_1 i
  | _ => ⟨S12800x256, .f32⟩

abbrev bufTy : (tb : Table) → Fin (tcTables nBuf tb) → BufTy
  | .hbm, ⟨i, _⟩ => hbmTy i
  | _, _ => ⟨S12800x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c : Ref sig .tc := ⟨.hbm, 52, rfl⟩
abbrev main_v20 : Ref sig .tc := ⟨.hbm, 53, rfl⟩
abbrev main_v21 : Ref sig .tc := ⟨.hbm, 54, rfl⟩
abbrev main_c_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_2 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_3 : Ref sig .tc := ⟨.hbm, 81, rfl⟩
abbrev main_v46 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_5 : Ref sig .tc := ⟨.hbm, 92, rfl⟩
abbrev main_v55 : Ref sig .tc := ⟨.hbm, 93, rfl⟩
abbrev main_v56 : Ref sig .tc := ⟨.hbm, 94, rfl⟩
abbrev main_c_6 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_7 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_8 : Ref sig .tc := ⟨.hbm, 121, rfl⟩
abbrev main_v81 : Ref sig .tc := ⟨.hbm, 122, rfl⟩
abbrev main_v82 : Ref sig .tc := ⟨.hbm, 123, rfl⟩
abbrev main_cst_9 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_10 : Ref sig .tc := ⟨.hbm, 146, rfl⟩
abbrev main_v104 : Ref sig .tc := ⟨.hbm, 147, rfl⟩
abbrev main_v105 : Ref sig .tc := ⟨.hbm, 148, rfl⟩
abbrev main_cst_11 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_12 : Ref sig .tc := ⟨.hbm, 165, rfl⟩
abbrev main_v121 : Ref sig .tc := ⟨.hbm, 166, rfl⟩
abbrev main_v122 : Ref sig .tc := ⟨.hbm, 167, rfl⟩
abbrev main_cst_13 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_14 : Ref sig .tc := ⟨.hbm, 184, rfl⟩
abbrev main_v138 : Ref sig .tc := ⟨.hbm, 185, rfl⟩
abbrev main_v139 : Ref sig .tc := ⟨.hbm, 186, rfl⟩
abbrev main_cst_15 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_16 : Ref sig .tc := ⟨.hbm, 192, rfl⟩
abbrev main_v144 : Ref sig .tc := ⟨.hbm, 193, rfl⟩
abbrev main_cst_17 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_18 : Ref sig .tc := ⟨.hbm, 198, rfl⟩
abbrev main_call0_v0 : Ref sig .tc := ⟨.hbm, 199, rfl⟩
abbrev main_call0_v1 : Ref sig .tc := ⟨.hbm, 200, rfl⟩
abbrev main_v148 : Ref sig .tc := ⟨.hbm, 201, rfl⟩
abbrev main_v149 : Ref sig .tc := ⟨.hbm, 202, rfl⟩
abbrev main_cst_19 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_c_20 : Ref sig .tc := ⟨.hbm, 209, rfl⟩
abbrev main_v155 : Ref sig .tc := ⟨.hbm, 210, rfl⟩
abbrev main_v156 : Ref sig .tc := ⟨.hbm, 211, rfl⟩
abbrev main_c_21 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_cst_22 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_23 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_24 : Ref sig .tc := ⟨.hbm, 233, rfl⟩
abbrev main_v175 : Ref sig .tc := ⟨.hbm, 234, rfl⟩
abbrev main_v176 : Ref sig .tc := ⟨.hbm, 235, rfl⟩
abbrev main_c_25 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩

abbrev nD : Nat := 1
abbrev τ : Topo := Topo.v7x

variable {F : FTy → Type} [FloatOps F]

class Facts₀ : Prop where
  slices_S2x51200_S1x51200_0_0 : S2x51200.Slices ![0, 0] S1x51200
  shapeCasts_S1x51200_S51200 : S1x51200.ShapeCasts S51200
  slices_S2x51200_S1x51200_1_0 : S2x51200.Slices ![1, 0] S1x51200
  transposes_S256x256_S256x256_1_0 : S256x256.Transposes [1, 0] S256x256
  bcast_S256_S1x256_1 : S256.BroadcastsInDim S1x256 (![1] : Fin 1 → Fin S1x256.rank)
  bcast_S1x256_S12800x256_0_1 : S1x256.BroadcastsInDim S12800x256 (![0, 1] : Fin 2 → Fin S12800x256.rank)
  bcast_S_S12800x256 : S_.BroadcastsInDim S12800x256 (![] : Fin 0 → Fin S12800x256.rank)
  transposes_S256x1568_S1568x256_1_0 : S256x1568.Transposes [1, 0] S1568x256
  bcast_S_S51200 : S_.BroadcastsInDim S51200 (![] : Fin 0 → Fin S51200.rank)
  bcast_S51200_S51200x1_0 : S51200.BroadcastsInDim S51200x1 (![0] : Fin 1 → Fin S51200x1.rank)
  transposes_S256x224_S224x256_1_0 : S256x224.Transposes [1, 0] S224x256
  concatenates_S12800x256_S12800x256_S12800x512_d1 : Shape.Concatenates [S12800x256, S12800x256] S12800x512 1
  transposes_S256x512_S512x256_1_0 : S256x512.Transposes [1, 0] S512x256
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S12800 : S_.BroadcastsInDim S12800 (![] : Fin 0 → Fin S12800.rank)
  bcast_S_S64 : S_.BroadcastsInDim S64 (![] : Fin 0 → Fin S64.rank)
  bcast_S12800_S12800x1_0 : S12800.BroadcastsInDim S12800x1 (![0] : Fin 1 → Fin S12800x1.rank)
  bcast_S64_S64x1_0 : S64.BroadcastsInDim S64x1 (![0] : Fin 1 → Fin S64x1.rank)
  bcast_S_S64x256 : S_.BroadcastsInDim S64x256 (![] : Fin 0 → Fin S64x256.rank)
  bcast_S64x1_S64x256_0_1 : S64x1.BroadcastsInDim S64x256 (![0, 1] : Fin 2 → Fin S64x256.rank)
  dot_S12800x256_S256x256_S12800x256_1_0_0_1_n_n_wf : DotDims.WF S12800x256 S256x256 S12800x256 [1] [0] [0] [1] [] []
  dot_S51200x1568_S1568x256_S51200x256_1_0_0_1_n_n_wf : DotDims.WF S51200x1568 S1568x256 S51200x256 [1] [0] [0] [1] [] []
  dot_S51200x256_S256x256_S51200x256_1_0_0_1_n_n_wf : DotDims.WF S51200x256 S256x256 S51200x256 [1] [0] [0] [1] [] []
  gather_S12800x256_S51200x1_S51200x256_1_0_n_n_0_1_1256_wf : GatherDims.WF S12800x256 S51200x1 S51200x256 [1] [0] [] [0] [] 1 ![1, 256]
  scatter_S12800x256_S51200x1_S51200x256_1_0_0_1_wf : ScatterDims.WF S12800x256 S51200x1 S51200x256 [1] [0] [0] 1
  dot_S51200x224_S224x256_S51200x256_1_0_0_1_n_n_wf : DotDims.WF S51200x224 S224x256 S51200x256 [1] [0] [0] [1] [] []
  dot_S12800x512_S512x256_S12800x256_1_0_0_1_n_n_wf : DotDims.WF S12800x512 S512x256 S12800x256 [1] [0] [0] [1] [] []
  scatter_S64_S12800x1_S12800_n_0_0_1_wf : ScatterDims.WF S64 S12800x1 S12800 [] [0] [0] 1
  scatter_S64x256_S12800x1_S12800x256_1_0_0_1_wf : ScatterDims.WF S64x256 S12800x1 S12800x256 [1] [0] [0] 1
  gather_S64x256_S12800x1_S12800x256_1_0_n_n_0_1_1256_wf : GatherDims.WF S64x256 S12800x1 S12800x256 [1] [0] [] [0] [] 1 ![1, 256]

variable [Facts₀]

def dot_S12800x256_S256x256_S12800x256_1_0_0_1_n_n : DotDims S12800x256 S256x256 S12800x256 where
  lhsContracting := [1]
  rhsContracting := [0]
  lhsNonContracting := [0]
  rhsNonContracting := [1]
  lhsBatch := []
  rhsBatch := []
  wf := dot_S12800x256_S256x256_S12800x256_1_0_0_1_n_n_wf
def dot_S51200x1568_S1568x256_S51200x256_1_0_0_1_n_n : DotDims S51200x1568 S1568x256 S51200x256 where
  lhsContracting := [1]
  rhsContracting := [0]
  lhsNonContracting := [0]
  rhsNonContracting := [1]
  lhsBatch := []
  rhsBatch := []
  wf := dot_S51200x1568_S1568x256_S51200x256_1_0_0_1_n_n_wf
def dot_S51200x256_S256x256_S51200x256_1_0_0_1_n_n : DotDims S51200x256 S256x256 S51200x256 where
  lhsContracting := [1]
  rhsContracting := [0]
  lhsNonContracting := [0]
  rhsNonContracting := [1]
  lhsBatch := []
  rhsBatch := []
  wf := dot_S51200x256_S256x256_S51200x256_1_0_0_1_n_n_wf
def gather_S12800x256_S51200x1_S51200x256_1_0_n_n_0_1_1256 : GatherDims S12800x256 S51200x1 S51200x256 where
  offsetDims := [1]
  collapsedSliceDims := [0]
  operandBatchingDims := []
  startIndicesBatchingDims := []
  startIndexMap := [0]
  indexVectorDim := 1
  sliceSizes := ![1, 256]
  wf := gather_S12800x256_S51200x1_S51200x256_1_0_n_n_0_1_1256_wf
def scatter_S12800x256_S51200x1_S51200x256_1_0_0_1 : ScatterDims S12800x256 S51200x1 S51200x256 where
  updateWindowDims := [1]
  insertedWindowDims := [0]
  scatterDimsToOperandDims := [0]
  indexVectorDim := 1
  wf := scatter_S12800x256_S51200x1_S51200x256_1_0_0_1_wf
def dot_S51200x224_S224x256_S51200x256_1_0_0_1_n_n : DotDims S51200x224 S224x256 S51200x256 where
  lhsContracting := [1]
  rhsContracting := [0]
  lhsNonContracting := [0]
  rhsNonContracting := [1]
  lhsBatch := []
  rhsBatch := []
  wf := dot_S51200x224_S224x256_S51200x256_1_0_0_1_n_n_wf
def dot_S12800x512_S512x256_S12800x256_1_0_0_1_n_n : DotDims S12800x512 S512x256 S12800x256 where
  lhsContracting := [1]
  rhsContracting := [0]
  lhsNonContracting := [0]
  rhsNonContracting := [1]
  lhsBatch := []
  rhsBatch := []
  wf := dot_S12800x512_S512x256_S12800x256_1_0_0_1_n_n_wf
def scatter_S64_S12800x1_S12800_n_0_0_1 : ScatterDims S64 S12800x1 S12800 where
  updateWindowDims := []
  insertedWindowDims := [0]
  scatterDimsToOperandDims := [0]
  indexVectorDim := 1
  wf := scatter_S64_S12800x1_S12800_n_0_0_1_wf
def scatter_S64x256_S12800x1_S12800x256_1_0_0_1 : ScatterDims S64x256 S12800x1 S12800x256 where
  updateWindowDims := [1]
  insertedWindowDims := [0]
  scatterDimsToOperandDims := [0]
  indexVectorDim := 1
  wf := scatter_S64x256_S12800x1_S12800x256_1_0_0_1_wf
def gather_S64x256_S12800x1_S12800x256_1_0_n_n_0_1_1256 : GatherDims S64x256 S12800x1 S12800x256 where
  offsetDims := [1]
  collapsedSliceDims := [0]
  operandBatchingDims := []
  startIndicesBatchingDims := []
  startIndexMap := [0]
  indexVectorDim := 1
  sliceSizes := ![1, 256]
  wf := gather_S64x256_S12800x1_S12800x256_1_0_n_n_0_1_1256_wf

class Facts : Prop extends Facts₀ where

variable [Facts]
-- ==== Proof.RefValue.lean ====
/-
  The reference program's operations compute its last stage.

  The reference is a line of 224 operations; stage by stage, the value each operation writes is a function of the
  arguments (the generated reading names it). Run from any contents that hold the arguments, the line ends with the
  last stage's value in the result buffer, and no operation writes an argument.

  As a tree over the arguments the result repeats the shared intermediate values hundreds of times (the entry
  projection is read five times, each residual layer reads its input three times, the normalisation reads the rows
  several more), so the line is cut at the values that are read more than once and each cut value is carried by its
  stage's name: a piece is a dozen operations whose composed term, over those names, is the next stage by unfolding.
-/
import proofs.«104348_j82652350644686_2_alg».proof.Proof.ReadP
import Idealize.ShloMosaic.Lib.StableHlo.Run

set_option maxRecDepth 8192

noncomputable section

namespace Cert.EdgeMix.RefVal

open Idealize.ShloMosaic Idealize.ShloMosaic.StableHlo Idealize.ShloMosaic.TcCoe
open Cert.ReferenceIdeal Cert.ReferenceIdeal.Value Cert.ReferenceIdeal.Read

variable {F : FTy → Type} [FloatOps F]

/-! ## Cutting a line of operations -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The stretch of a line from position i, k operations long. -/
abbrev slice {α : Type} (l : List α) (i k : Nat) : List α := (l.drop i).take k

theorem mem_of_mem_slice {α : Type} {l : List α} {i k : Nat} {a : α} (h : a ∈ slice l i k) : a ∈ l :=
  List.mem_of_mem_drop (List.mem_of_mem_take h)

/-! ## No operation writes an argument -/

/-- The thirty arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29]

/-- An operation whose one result buffer is no argument writes no argument. -/
theorem not_written {y : Ref sig .tc} (hy : y ∉ argRefs) :
    ∀ r ∈ argRefs, Proc.devRef (τ := τ) .tc r ∉ ({Proc.devRef .tc y} : Finset (DevRef τ sig)) :=
  fun r hr h => hy (Proc.devRef_injective _ (Finset.mem_singleton.mp h) ▸ hr)

set_option maxHeartbeats 8000000 in
theorem ops_leaf : (ops : List (HloOp τ sig (Elt F))).Forall fun op =>
    ∀ r ∈ argRefs, Proc.devRef (τ := τ) .tc r ∉ op.writes := by
  simp only [ops, TRef.unary, TRef.binary, List.Forall, nullary_writes, unary_writes, binary_writes, ternary_writes, reshape_writes]
  repeat' apply And.intro
  all_goals exact not_written (by decide)

/-- A line drawn from the reference's leaves each argument as it was. -/
theorem keep_of_sub {l : List (HloOp τ sig (Elt F))} (hsub : ∀ op ∈ l, op ∈ (ops (F := F)))
    (V : Valuation τ sig (Elt F)) {r : Ref sig .tc} (hr : r ∈ argRefs) :
    after l V (Proc.devRef .tc r) = V (Proc.devRef .tc r) :=
  after_of_forall_not_mem l V fun op hop => (List.forall_iff_forall_mem.mp ops_leaf) op (hsub op hop) r hr

theorem keepR (i k : Nat) (V : Valuation τ sig (Elt F)) {r : Ref sig .tc} (hr : r ∈ argRefs) :
    after (slice (ops (F := F)) i k) V (Proc.devRef .tc r) = V (Proc.devRef .tc r) :=
  keep_of_sub (fun _ h => mem_of_mem_slice h) V hr

/-- The whole line leaves each argument as it was. -/
theorem ref_args (V : Valuation τ sig (Elt F)) {r : Ref sig .tc} (hr : r ∈ argRefs) :
    after (ops (F := F)) V (Proc.devRef .tc r) = V (Proc.devRef .tc r) :=
  keep_of_sub (fun _ h => h) V hr

/-- The line, cut at the values that are used more than once. -/
theorem stretch_eq : (ops (F := F))
    = slice ops 0 4 ++ (slice ops 4 14 ++ (slice ops 18 18
      ++ (slice ops 36 13 ++ (slice ops 49 9 ++ (slice ops 58 18
      ++ (slice ops 76 13 ++ (slice ops 89 9 ++ (slice ops 98 7 ++ (slice ops 105 9
      ++ (slice ops 114 10 ++ (slice ops 124 9 ++ (slice ops 133 10 ++ (slice ops 143 9
      ++ (slice ops 152 10 ++ (slice ops 162 11 ++ (slice ops 173 6 ++ (slice ops 179 13
      ++ (slice ops 192 11 ++ (slice ops 203 21))))))))))))))))))) := rfl

/-! ## The pieces

Each piece is a short run of operations that reads the values computed before it through their stage names and
computes the next value used more than once: its composed term is that stage, by unfolding. -/

section Pieces

variable {x0 : (⟨S12800x256, .f32⟩ : BufTy).Contents (Elt F)}
  {x1 : (⟨S51200x1568, .f32⟩ : BufTy).Contents (Elt F)}
  {x2 : (⟨S51200x224, .f32⟩ : BufTy).Contents (Elt F)}
  {x3 : (⟨S2x51200, .i32⟩ : BufTy).Contents (Elt F)}
  {x4 : (⟨S12800, .i32⟩ : BufTy).Contents (Elt F)}
  {x5 : (⟨S256x256, .f32⟩ : BufTy).Contents (Elt F)}
  {x6 : (⟨S256, .f32⟩ : BufTy).Contents (Elt F)}
  {x7 : (⟨S256x1568, .f32⟩ : BufTy).Contents (Elt F)}
  {x8 : (⟨S256x256, .f32⟩ : BufTy).Contents (Elt F)}
  {x9 : (⟨S256x224, .f32⟩ : BufTy).Contents (Elt F)}
  {x10 : (⟨S256x256, .f32⟩ : BufTy).Contents (Elt F)}
  {x11 : (⟨S256x256, .f32⟩ : BufTy).Contents (Elt F)}
  {x12 : (⟨S256, .f32⟩ : BufTy).Contents (Elt F)}
  {x13 : (⟨S256x256, .f32⟩ : BufTy).Contents (Elt F)}
  {x14 : (⟨S256x256, .f32⟩ : BufTy).Contents (Elt F)}
  {x15 : (⟨S256, .f32⟩ : BufTy).Contents (Elt F)}
  {x16 : (⟨S256x256, .f32⟩ : BufTy).Contents (Elt F)}
  {x17 : (⟨S256x256, .f32⟩ : BufTy).Contents (Elt F)}
  {x18 : (⟨S256, .f32⟩ : BufTy).Contents (Elt F)}
  {x19 : (⟨S256x256, .f32⟩ : BufTy).Contents (Elt F)}
  {x20 : (⟨S256, .f32⟩ : BufTy).Contents (Elt F)}
  {x21 : (⟨S256x512, .f32⟩ : BufTy).Contents (Elt F)}
  {x22 : (⟨S256, .f32⟩ : BufTy).Contents (Elt F)}
  {x23 : (⟨S3x256x256, .f32⟩ : BufTy).Contents (Elt F)}
  {x24 : (⟨S3x256, .f32⟩ : BufTy).Contents (Elt F)}
  {x25 : (⟨S256, .f32⟩ : BufTy).Contents (Elt F)}
  {x26 : (⟨S256, .f32⟩ : BufTy).Contents (Elt F)}
  {x27 : (⟨S256, .f32⟩ : BufTy).Contents (Elt F)}
  {x28 : (⟨S256x256, .f32⟩ : BufTy).Contents (Elt F)}
  {x29 : (⟨S256, .f32⟩ : BufTy).Contents (Elt F)}

/-- The edge list's two rows: the source and the target node of each edge. -/
theorem piece0_v1 (V : Valuation τ sig (Elt F))
    (h3 : V (Proc.devRef .tc main_arg3) = x3) :
    after (slice (ops (F := F)) 0 4) V (Proc.devRef .tc main_v1)
      = val_main_v1 (F := F) x3 := by
  simp only [slice, ops, TRef.unary, TRef.binary, List.drop_succ_cons, List.drop_zero, List.take_succ_cons, List.take_zero]
  after_results_simp
  rw [h3]
  rfl

/-- The edge list's two rows: the source and the target node of each edge. -/
theorem piece0_v3 (V : Valuation τ sig (Elt F))
    (h3 : V (Proc.devRef .tc main_arg3) = x3) :
    after (slice (ops (F := F)) 0 4) V (Proc.devRef .tc main_v3)
      = val_main_v3 (F := F) x3 := by
  simp only [slice, ops, TRef.unary, TRef.binary, List.drop_succ_cons, List.drop_zero, List.take_succ_cons, List.take_zero]
  after_results_simp
  rw [h3]
  rfl

/-- The entry projection: the node features through the first linear map, then the activation u ↦ u · (1 / (1 + exp (-u))). -/
theorem piece1 (V : Valuation τ sig (Elt F))
    (h5 : V (Proc.devRef .tc main_arg5) = x5) (h0 : V (Proc.devRef .tc main_arg0) = x0)
    (h6 : V (Proc.devRef .tc main_arg6) = x6) :
    after (slice (ops (F := F)) 4 14) V (Proc.devRef .tc main_v15)
      = val_main_v15 (F := F) x0 x5 x6 := by
  simp only [slice, ops, TRef.unary, TRef.binary, List.drop_succ_cons, List.drop_zero, List.take_succ_cons, List.take_zero]
  after_results_simp
  rw [h5, h0, h6]
  rfl

/-- The first aggregate: the first edge features through their two linear maps, times the source node's row, added up by target node. -/
theorem piece2 (V : Valuation τ sig (Elt F))
    (h7 : V (Proc.devRef .tc main_arg7) = x7) (h1 : V (Proc.devRef .tc main_arg1) = x1)
    (h8 : V (Proc.devRef .tc main_arg8) = x8) (hv1 : V (Proc.devRef .tc main_v1) = val_main_v1 (F := F) x3)
    (hv15 : V (Proc.devRef .tc main_v15) = val_main_v15 (F := F) x0 x5 x6) (hv3 : V (Proc.devRef .tc main_v3) = val_main_v3 (F := F) x3) :
    after (slice (ops (F := F)) 18 18) V (Proc.devRef .tc main_v30)
      = val_main_v30 (F := F) x0 x1 x3 x5 x6 x7 x8 := by
  simp only [slice, ops, TRef.unary, TRef.binary, List.drop_succ_cons, List.drop_zero, List.take_succ_cons, List.take_zero]
  after_results_simp
  rw [h7, h1, h8, hv1, hv15, hv3]
  rfl

/-- The first branch before its activation: the aggregate through the convolution's two linear maps, then the branch's own linear map. -/
theorem piece3 (V : Valuation τ sig (Elt F))
    (h11 : V (Proc.devRef .tc main_arg11) = x11) (hv30 : V (Proc.devRef .tc main_v30) = val_main_v30 (F := F) x0 x1 x3 x5 x6 x7 x8)
    (h12 : V (Proc.devRef .tc main_arg12) = x12) (h13 : V (Proc.devRef .tc main_arg13) = x13)
    (hv15 : V (Proc.devRef .tc main_v15) = val_main_v15 (F := F) x0 x5 x6) (h17 : V (Proc.devRef .tc main_arg17) = x17)
    (h18 : V (Proc.devRef .tc main_arg18) = x18) :
    after (slice (ops (F := F)) 36 13) V (Proc.devRef .tc main_v43)
      = val_main_v43 (F := F) x0 x1 x3 x5 x6 x7 x8 x11 x12 x13 x17 x18 := by
  simp only [slice, ops, TRef.unary, TRef.binary, List.drop_succ_cons, List.drop_zero, List.take_succ_cons, List.take_zero]
  after_results_simp
  rw [h11, hv30, h12, h13, hv15, h17, h18]
  rfl

/-- The first branch's activation. -/
theorem piece4 (V : Valuation τ sig (Elt F))
    (hv43 : V (Proc.devRef .tc main_v43) = val_main_v43 (F := F) x0 x1 x3 x5 x6 x7 x8 x11 x12 x13 x17 x18) :
    after (slice (ops (F := F)) 49 9) V (Proc.devRef .tc main_v50)
      = val_main_v50 (F := F) x0 x1 x3 x5 x6 x7 x8 x11 x12 x13 x17 x18 := by
  simp only [slice, ops, TRef.unary, TRef.binary, List.drop_succ_cons, List.drop_zero, List.take_succ_cons, List.take_zero]
  after_results_simp
  rw [hv43]
  rfl

/-- The second aggregate. -/
theorem piece5 (V : Valuation τ sig (Elt F))
    (h9 : V (Proc.devRef .tc main_arg9) = x9) (h2 : V (Proc.devRef .tc main_arg2) = x2)
    (h10 : V (Proc.devRef .tc main_arg10) = x10) (hv1 : V (Proc.devRef .tc main_v1) = val_main_v1 (F := F) x3)
    (hv15 : V (Proc.devRef .tc main_v15) = val_main_v15 (F := F) x0 x5 x6) (hv3 : V (Proc.devRef .tc main_v3) = val_main_v3 (F := F) x3) :
    after (slice (ops (F := F)) 58 18) V (Proc.devRef .tc main_v65)
      = val_main_v65 (F := F) x0 x2 x3 x5 x6 x9 x10 := by
  simp only [slice, ops, TRef.unary, TRef.binary, List.drop_succ_cons, List.drop_zero, List.take_succ_cons, List.take_zero]
  after_results_simp
  rw [h9, h2, h10, hv1, hv15, hv3]
  rfl

/-- The second branch before its activation. -/
theorem piece6 (V : Valuation τ sig (Elt F))
    (h14 : V (Proc.devRef .tc main_arg14) = x14) (hv65 : V (Proc.devRef .tc main_v65) = val_main_v65 (F := F) x0 x2 x3 x5 x6 x9 x10)
    (h15 : V (Proc.devRef .tc main_arg15) = x15) (h16 : V (Proc.devRef .tc main_arg16) = x16)
    (hv15 : V (Proc.devRef .tc main_v15) = val_main_v15 (F := F) x0 x5 x6) (h19 : V (Proc.devRef .tc main_arg19) = x19)
    (h20 : V (Proc.devRef .tc main_arg20) = x20) :
    after (slice (ops (F := F)) 76 13) V (Proc.devRef .tc main_v78)
      = val_main_v78 (F := F) x0 x2 x3 x5 x6 x9 x10 x14 x15 x16 x19 x20 := by
  simp only [slice, ops, TRef.unary, TRef.binary, List.drop_succ_cons, List.drop_zero, List.take_succ_cons, List.take_zero]
  after_results_simp
  rw [h14, hv65, h15, h16, hv15, h19, h20]
  rfl

/-- The second branch's activation. -/
theorem piece7 (V : Valuation τ sig (Elt F))
    (hv78 : V (Proc.devRef .tc main_v78) = val_main_v78 (F := F) x0 x2 x3 x5 x6 x9 x10 x14 x15 x16 x19 x20) :
    after (slice (ops (F := F)) 89 9) V (Proc.devRef .tc main_v85)
      = val_main_v85 (F := F) x0 x2 x3 x5 x6 x9 x10 x14 x15 x16 x19 x20 := by
  simp only [slice, ops, TRef.unary, TRef.binary, List.drop_succ_cons, List.drop_zero, List.take_succ_cons, List.take_zero]
  after_results_simp
  rw [hv78]
  rfl

/-- The two branches joined side by side, through the joint linear map, plus the entry projection. -/
theorem piece8 (V : Valuation τ sig (Elt F))
    (hv50 : V (Proc.devRef .tc main_v50) = val_main_v50 (F := F) x0 x1 x3 x5 x6 x7 x8 x11 x12 x13 x17 x18) (hv85 : V (Proc.devRef .tc main_v85) = val_main_v85 (F := F) x0 x2 x3 x5 x6 x9 x10 x14 x15 x16 x19 x20)
    (h21 : V (Proc.devRef .tc main_arg21) = x21) (h22 : V (Proc.devRef .tc main_arg22) = x22)
    (hv15 : V (Proc.devRef .tc main_v15) = val_main_v15 (F := F) x0 x5 x6) :
    after (slice (ops (F := F)) 98 7) V (Proc.devRef .tc main_v92)
      = val_main_v92 (F := F) x0 x1 x2 x3 x5 x6 x7 x8 x9 x10 x11 x12 x13 x14 x15 x16 x17 x18 x19 x20 x21 x22 := by
  simp only [slice, ops, TRef.unary, TRef.binary, List.drop_succ_cons, List.drop_zero, List.take_succ_cons, List.take_zero]
  after_results_simp
  rw [hv50, hv85, h21, h22, hv15]
  rfl

/-- Residual layer one before its activation. -/
theorem piece9 (V : Valuation τ sig (Elt F))
    (h23 : V (Proc.devRef .tc main_arg23) = x23) (hv92 : V (Proc.devRef .tc main_v92) = val_main_v92 (F := F) x0 x1 x2 x3 x5 x6 x7 x8 x9 x10 x11 x12 x13 x14 x15 x16 x17 x18 x19 x20 x21 x22)
    (h24 : V (Proc.devRef .tc main_arg24) = x24) :
    after (slice (ops (F := F)) 105 9) V (Proc.devRef .tc main_v101)
      = val_main_v101 (F := F) x0 x1 x2 x3 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [h23, hv92, h24]
  rfl

/-- Residual layer one: the activation of that value, plus the layer's input. -/
theorem piece10 (V : Valuation τ sig (Elt F))
    (hv101 : V (Proc.devRef .tc main_v101) = val_main_v101 (F := F) x0 x1 x2 x3 x5 x6 x7 x8 x9 x10 x11 x12 x13 x14 x15 x16 x17 x18 x19 x20 x21 x22 x23 x24) (hv92 : V (Proc.devRef .tc main_v92) = val_main_v92 (F := F) x0 x1 x2 x3 x5 x6 x7 x8 x9 x10 x11 x12 x13 x14 x15 x16 x17 x18 x19 x20 x21 x22) :
    after (slice (ops (F := F)) 114 10) V (Proc.devRef .tc main_v109)
      = val_main_v109 (F := F) x0 x1 x2 x3 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [hv101, hv92]
  rfl

/-- Residual layer two before its activation. -/
theorem piece11 (V : Valuation τ sig (Elt F))
    (h23 : V (Proc.devRef .tc main_arg23) = x23) (hv109 : V (Proc.devRef .tc main_v109) = val_main_v109 (F := F) x0 x1 x2 x3 x5 x6 x7 x8 x9 x10 x11 x12 x13 x14 x15 x16 x17 x18 x19 x20 x21 x22 x23 x24)
    (h24 : V (Proc.devRef .tc main_arg24) = x24) :
    after (slice (ops (F := F)) 124 9) V (Proc.devRef .tc main_v118)
      = val_main_v118 (F := F) x0 x1 x2 x3 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [h23, hv109, h24]
  rfl

/-- Residual layer two: the activation, plus the layer's input. -/
theorem piece12 (V : Valuation τ sig (Elt F))
    (hv118 : V (Proc.devRef .tc main_v118) = val_main_v118 (F := F) x0 x1 x2 x3 x5 x6 x7 x8 x9 x10 x11 x12 x13 x14 x15 x16 x17 x18 x19 x20 x21 x22 x23 x24) (hv109 : V (Proc.devRef .tc main_v109) = val_main_v109 (F := F) x0 x1 x2 x3 x5 x6 x7 x8 x9 x10 x11 x12 x13 x14 x15 x16 x17 x18 x19 x20 x21 x22 x23 x24) :
    after (slice (ops (F := F)) 133 10) V (Proc.devRef .tc main_v126)
      = val_main_v126 (F := F) x0 x1 x2 x3 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [hv118, hv109]
  rfl

/-- Residual layer three before its activation. -/
theorem piece13 (V : Valuation τ sig (Elt F))
    (h23 : V (Proc.devRef .tc main_arg23) = x23) (hv126 : V (Proc.devRef .tc main_v126) = val_main_v126 (F := F) x0 x1 x2 x3 x5 x6 x7 x8 x9 x10 x11 x12 x13 x14 x15 x16 x17 x18 x19 x20 x21 x22 x23 x24)
    (h24 : V (Proc.devRef .tc main_arg24) = x24) :
    after (slice (ops (F := F)) 143 9) V (Proc.devRef .tc main_v135)
      = val_main_v135 (F := F) x0 x1 x2 x3 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [h23, hv126, h24]
  rfl

/-- Residual layer three: the activation, plus the layer's input. -/
theorem piece14 (V : Valuation τ sig (Elt F))
    (hv135 : V (Proc.devRef .tc main_v135) = val_main_v135 (F := F) x0 x1 x2 x3 x5 x6 x7 x8 x9 x10 x11 x12 x13 x14 x15 x16 x17 x18 x19 x20 x21 x22 x23 x24) (hv126 : V (Proc.devRef .tc main_v126) = val_main_v126 (F := F) x0 x1 x2 x3 x5 x6 x7 x8 x9 x10 x11 x12 x13 x14 x15 x16 x17 x18 x19 x20 x21 x22 x23 x24) :
    after (slice (ops (F := F)) 152 10) V (Proc.devRef .tc main_v143)
      = val_main_v143 (F := F) x0 x1 x2 x3 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [hv135, hv126]
  rfl

/-- The number of nodes of each graph, clamped below by one, as a column. -/
theorem piece15 (V : Valuation τ sig (Elt F))
    (h4 : V (Proc.devRef .tc main_arg4) = x4) :
    after (slice (ops (F := F)) 162 11) V (Proc.devRef .tc main_v149)
      = val_main_v149 (F := F) x4 := by
  simp only [slice, ops, TRef.unary, TRef.binary, List.drop_succ_cons, List.drop_zero, List.take_succ_cons, List.take_zero]
  after_results_simp
  rw [h4]
  rfl

/-- The mean of each graph: the rows added up by graph, over the count. -/
theorem piece16 (V : Valuation τ sig (Elt F))
    (h4 : V (Proc.devRef .tc main_arg4) = x4) (hv143 : V (Proc.devRef .tc main_v143) = val_main_v143 (F := F) x0 x1 x2 x3 x5 x6 x7 x8 x9 x10 x11 x12 x13 x14 x15 x16 x17 x18 x19 x20 x21 x22 x23 x24)
    (hv149 : V (Proc.devRef .tc main_v149) = val_main_v149 (F := F) x4) :
    after (slice (ops (F := F)) 173 6) V (Proc.devRef .tc main_v154)
      = val_main_v154 (F := F) x0 x1 x2 x3 x4 x5 x6 x7 x8 x9 x10 x11 x12 x13 x14 x15 x16 x17 x18 x19 x20 x21 x22 x23 x24 := by
  simp only [slice, ops, TRef.unary, TRef.binary, List.drop_succ_cons, List.drop_zero, List.take_succ_cons, List.take_zero]
  after_results_simp
  rw [h4, hv143, hv149]
  rfl

/-- The rows centred: each row minus the scaled mean of its graph. -/
theorem piece17 (V : Valuation τ sig (Elt F))
    (h4 : V (Proc.devRef .tc main_arg4) = x4) (hv154 : V (Proc.devRef .tc main_v154) = val_main_v154 (F := F) x0 x1 x2 x3 x4 x5 x6 x7 x8 x9 x10 x11 x12 x13 x14 x15 x16 x17 x18 x19 x20 x21 x22 x23 x24)
    (h27 : V (Proc.devRef .tc main_arg27) = x27) (hv143 : V (Proc.devRef .tc main_v143) = val_main_v143 (F := F) x0 x1 x2 x3 x5 x6 x7 x8 x9 x10 x11 x12 x13 x14 x15 x16 x17 x18 x19 x20 x21 x22 x23 x24) :
    after (slice (ops (F := F)) 179 13) V (Proc.devRef .tc main_v165)
      = val_main_v165 (F := F) x0 x1 x2 x3 x4 x5 x6 x7 x8 x9 x10 x11 x12 x13 x14 x15 x16 x17 x18 x19 x20 x21 x22 x23 x24 x27 := by
  simp only [slice, ops, TRef.unary, TRef.binary, List.drop_succ_cons, List.drop_zero, List.take_succ_cons, List.take_zero]
  after_results_simp
  rw [h4, hv154, h27, hv143]
  rfl

/-- The inverse deviation of each graph. -/
theorem piece18 (V : Valuation τ sig (Elt F))
    (hv165 : V (Proc.devRef .tc main_v165) = val_main_v165 (F := F) x0 x1 x2 x3 x4 x5 x6 x7 x8 x9 x10 x11 x12 x13 x14 x15 x16 x17 x18 x19 x20 x21 x22 x23 x24 x27) (h4 : V (Proc.devRef .tc main_arg4) = x4)
    (hv149 : V (Proc.devRef .tc main_v149) = val_main_v149 (F := F) x4) :
    after (slice (ops (F := F)) 192 11) V (Proc.devRef .tc main_v174)
      = val_main_v174 (F := F) x0 x1 x2 x3 x4 x5 x6 x7 x8 x9 x10 x11 x12 x13 x14 x15 x16 x17 x18 x19 x20 x21 x22 x23 x24 x27 := by
  simp only [slice, ops, TRef.unary, TRef.binary, List.drop_succ_cons, List.drop_zero, List.take_succ_cons, List.take_zero]
  after_results_simp
  rw [hv165, h4, hv149]
  rfl

/-- The normalised rows, scaled and shifted, through the final linear map. -/
theorem piece19 (V : Valuation τ sig (Elt F))
    (h4 : V (Proc.devRef .tc main_arg4) = x4) (hv174 : V (Proc.devRef .tc main_v174) = val_main_v174 (F := F) x0 x1 x2 x3 x4 x5 x6 x7 x8 x9 x10 x11 x12 x13 x14 x15 x16 x17 x18 x19 x20 x21 x22 x23 x24 x27)
    (h25 : V (Proc.devRef .tc main_arg25) = x25) (hv165 : V (Proc.devRef .tc main_v165) = val_main_v165 (F := F) x0 x1 x2 x3 x4 x5 x6 x7 x8 x9 x10 x11 x12 x13 x14 x15 x16 x17 x18 x19 x20 x21 x22 x23 x24 x27)
    (h26 : V (Proc.devRef .tc main_arg26) = x26) (h28 : V (Proc.devRef .tc main_arg28) = x28)
    (h29 : V (Proc.devRef .tc main_arg29) = x29) :
    after (slice (ops (F := F)) 203 21) V (Proc.devRef .tc main_v193)
      = val_main_v193 (F := F) x0 x1 x2 x3 x4 x5 x6 x7 x8 x9 x10 x11 x12 x13 x14 x15 x16 x17 x18 x19 x20 x21 x22 x23 x24 x25 x26 x27 x28 x29 := by
  simp only [slice, ops, TRef.unary, TRef.binary, List.drop_succ_cons, List.drop_zero, List.take_succ_cons, List.take_zero]
  after_results_simp
  rw [h4, hv174, h25, hv165, h26, h28, h29]
  rfl

end Pieces

/-! ## A value passes the pieces that do not write its buffer -/

theorem pass1_v1 (V : Valuation τ sig (Elt F)) :
    after (slice (ops (F := F)) 4 14) V (Proc.devRef .tc main_v1) = V (Proc.devRef .tc main_v1) := by
  simp only [slice, ops, TRef.unary, TRef.binary, List.drop_succ_cons, List.drop_zero, List.take_succ_cons, List.take_zero]
  after_results_simp

theorem pass2_v1 (V : Valuation τ sig (Elt F)) :
    after (slice (ops (F := F)) 18 18) V (Proc.devRef .tc main_v1) = V (Proc.devRef .tc main_v1) := by
  simp only [slice, ops, TRef.unary, TRef.binary, List.drop_succ_cons, List.drop_zero, List.take_succ_cons, List.take_zero]
  after_results_simp

theorem pass3_v1 (V : Valuation τ sig (Elt F)) :
    after (slice (ops (F := F)) 36 13) V (Proc.devRef .tc main_v1) = V (Proc.devRef .tc main_v1) := by
  simp only [slice, ops, TRef.unary, TRef.binary, List.drop_succ_cons, List.drop_zero, List.take_succ_cons, List.take_zero]
  after_results_simp

theorem pass4_v1 (V : Valuation τ sig (Elt F)) :
    after (slice (ops (F := F)) 49 9) V (Proc.devRef .tc main_v1) = V (Proc.devRef .tc main_v1) := by
  simp only [slice, ops, TRef.unary, TRef.binary, List.drop_succ_cons, List.drop_zero, List.take_succ_cons, List.take_zero]
  after_results_simp

theorem pass1_v3 (V : Valuation τ sig (Elt F)) :
    after (slice (ops (F := F)) 4 14) V (Proc.devRef .tc main_v3) = V (Proc.devRef .tc main_v3) := by
  simp only [slice, ops, TRef.unary, TRef.binary, List.drop_succ_cons, List.drop_zero, List.take_succ_cons, List.take_zero]
  after_results_simp

theorem pass2_v3 (V : Valuation τ sig (Elt F)) :
    after (slice (ops (F := F)) 18 18) V (Proc.devRef .tc main_v3) = V (Proc.devRef .tc main_v3) := by
  simp only [slice, ops, TRef.unary, TRef.binary, List.drop_succ_cons, List.drop_zero, List.take_succ_cons, List.take_zero]
  after_results_simp

theorem pass3_v3 (V : Valuation τ sig (Elt F)) :
    after (slice (ops (F := F)) 36 13) V (Proc.devRef .tc main_v3) = V (Proc.devRef .tc main_v3) := by
  simp only [slice, ops, TRef.unary, TRef.binary, List.drop_succ_cons, List.drop_zero, List.take_succ_cons, List.take_zero]
  after_results_simp

theorem pass4_v3 (V : Valuation τ sig (Elt F)) :
    after (slice (ops (F := F)) 49 9) V (Proc.devRef .tc main_v3) = V (Proc.devRef .tc main_v3) := by
  simp only [slice, ops, TRef.unary, TRef.binary, List.drop_succ_cons, List.drop_zero, List.take_succ_cons, List.take_zero]
  after_results_simp

theorem pass2_v15 (V : Valuation τ sig (Elt F)) :
    after (slice (ops (F := F)) 18 18) V (Proc.devRef .tc main_v15) = V (Proc.devRef .tc main_v15) := by
  simp only [slice, ops, TRef.unary, TRef.binary, List.drop_succ_cons, List.drop_zero, List.take_succ_cons, List.take_zero]
  after_results_simp

theorem pass3_v15 (V : Valuation τ sig (Elt F)) :
    after (slice (ops (F := F)) 36 13) V (Proc.devRef .tc main_v15) = V (Proc.devRef .tc main_v15) := by
  simp only [slice, ops, TRef.unary, TRef.binary, List.drop_succ_cons, List.drop_zero, List.take_succ_cons, List.take_zero]
  after_results_simp

theorem pass4_v15 (V : Valuation τ sig (Elt F)) :
    after (slice (ops (F := F)) 49 9) V (Proc.devRef .tc main_v15) = V (Proc.devRef .tc main_v15) := by
  simp only [slice, ops, TRef.unary, TRef.binary, List.drop_succ_cons, List.drop_zero, List.take_succ_cons, List.take_zero]
  after_results_simp

theorem pass5_v15 (V : Valuation τ sig (Elt F)) :
    after (slice (ops (F := F)) 58 18) V (Proc.devRef .tc main_v15) = V (Proc.devRef .tc main_v15) := by
  simp only [slice, ops, TRef.unary, TRef.binary, List.drop_succ_cons, List.drop_zero, List.take_succ_cons, List.take_zero]
  after_results_simp

theorem pass6_v15 (V : Valuation τ sig (Elt F)) :
    after (slice (ops (F := F)) 76 13) V (Proc.devRef .tc main_v15) = V (Proc.devRef .tc main_v15) := by
  simp only [slice, ops, TRef.unary, TRef.binary, List.drop_succ_cons, List.drop_zero, List.take_succ_cons, List.take_zero]
  after_results_simp

theorem pass7_v15 (V : Valuation τ sig (Elt F)) :
    after (slice (ops (F := F)) 89 9) V (Proc.devRef .tc main_v15) = V (Proc.devRef .tc main_v15) := by
  simp only [slice, ops, TRef.unary, TRef.binary, List.drop_succ_cons, List.drop_zero, List.take_succ_cons, List.take_zero]
  after_results_simp

theorem pass5_v50 (V : Valuation τ sig (Elt F)) :
    after (slice (ops (F := F)) 58 18) V (Proc.devRef .tc main_v50) = V (Proc.devRef .tc main_v50) := by
  simp only [slice, ops, TRef.unary, TRef.binary, List.drop_succ_cons, List.drop_zero, List.take_succ_cons, List.take_zero]
  after_results_simp

theorem pass6_v50 (V : Valuation τ sig (Elt F)) :
    after (slice (ops (F := F)) 76 13) V (Proc.devRef .tc main_v50) = V (Proc.devRef .tc main_v50) := by
  simp only [slice, ops, TRef.unary, TRef.binary, List.drop_succ_cons, List.drop_zero, List.take_succ_cons, List.take_zero]
  after_results_simp

theorem pass7_v50 (V : Valuation τ sig (Elt F)) :
    after (slice (ops (F := F)) 89 9) V (Proc.devRef .tc main_v50) = V (Proc.devRef .tc main_v50) := by
  simp only [slice, ops, TRef.unary, TRef.binary, List.drop_succ_cons, List.drop_zero, List.take_succ_cons, List.take_zero]
  after_results_simp

theorem pass9_v92 (V : Valuation τ sig (Elt F)) :
    after (slice (ops (F := F)) 105 9) V (Proc.devRef .tc main_v92) = V (Proc.devRef .tc main_v92) := by
  simp only [slice, ops, TRef.unary, TRef.binary, List.drop_succ_cons, List.drop_zero, List.take_succ_cons, List.take_zero]
  after_results_simp

theorem pass11_v109 (V : Valuation τ sig (Elt F)) :
    after (slice (ops (F := F)) 124 9) V (Proc.devRef .tc main_v109) = V (Proc.devRef .tc main_v109) := by
  simp only [slice, ops, TRef.unary, TRef.binary, List.drop_succ_cons, List.drop_zero, List.take_succ_cons, List.take_zero]
  after_results_simp

theorem pass13_v126 (V : Valuation τ sig (Elt F)) :
    after (slice (ops (F := F)) 143 9) V (Proc.devRef .tc main_v126) = V (Proc.devRef .tc main_v126) := by
  simp only [slice, ops, TRef.unary, TRef.binary, List.drop_succ_cons, List.drop_zero, List.take_succ_cons, List.take_zero]
  after_results_simp

theorem pass15_v143 (V : Valuation τ sig (Elt F)) :
    after (slice (ops (F := F)) 162 11) V (Proc.devRef .tc main_v143) = V (Proc.devRef .tc main_v143) := by
  simp only [slice, ops, TRef.unary, TRef.binary, List.drop_succ_cons, List.drop_zero, List.take_succ_cons, List.take_zero]
  after_results_simp

theorem pass16_v143 (V : Valuation τ sig (Elt F)) :
    after (slice (ops (F := F)) 173 6) V (Proc.devRef .tc main_v143) = V (Proc.devRef .tc main_v143) := by
  simp only [slice, ops, TRef.unary, TRef.binary, List.drop_succ_cons, List.drop_zero, List.take_succ_cons, List.take_zero]
  after_results_simp

theorem pass16_v149 (V : Valuation τ sig (Elt F)) :
    after (slice (ops (F := F)) 173 6) V (Proc.devRef .tc main_v149) = V (Proc.devRef .tc main_v149) := by
  simp only [slice, ops, TRef.unary, TRef.binary, List.drop_succ_cons, List.drop_zero, List.take_succ_cons, List.take_zero]
  after_results_simp

theorem pass17_v149 (V : Valuation τ sig (Elt F)) :
    after (slice (ops (F := F)) 179 13) V (Proc.devRef .tc main_v149) = V (Proc.devRef .tc main_v149) := by
  simp only [slice, ops, TRef.unary, TRef.binary, List.drop_succ_cons, List.drop_zero, List.take_succ_cons, List.take_zero]
  after_results_simp

theorem pass18_v165 (V : Valuation τ sig (Elt F)) :
    after (slice (ops (F := F)) 192 11) V (Proc.devRef .tc main_v165) = V (Proc.devRef .tc main_v165) := by
  simp only [slice, ops, TRef.unary, TRef.binary, List.drop_succ_cons, List.drop_zero, List.take_succ_cons, List.take_zero]
  after_results_simp

/-! ## The whole line -/

/-- The reference's operations, run from any contents that hold the arguments, end with the last stage's value in
    the result buffer. -/
theorem ref_value (V : Valuation τ sig (Elt F))
    (x0 : (⟨S12800x256, .f32⟩ : BufTy).Contents (Elt F)) (x1 : (⟨S51200x1568, .f32⟩ : BufTy).Contents (Elt F))
    (x2 : (⟨S51200x224, .f32⟩ : BufTy).Contents (Elt F)) (x3 : (⟨S2x51200, .i32⟩ : BufTy).Contents (Elt F))
    (x4 : (⟨S12800, .i32⟩ : BufTy).Contents (Elt F)) (x5 : (⟨S256x256, .f32⟩ : BufTy).Contents (Elt F))
    (x6 : (⟨S256, .f32⟩ : BufTy).Contents (Elt F)) (x7 : (⟨S256x1568, .f32⟩ : BufTy).Contents (Elt F))
    (x8 : (⟨S256x256, .f32⟩ : BufTy).Contents (Elt F)) (x9 : (⟨S256x224, .f32⟩ : BufTy).Contents (Elt F))
    (x10 : (⟨S256x256, .f32⟩ : BufTy).Contents (Elt F)) (x11 : (⟨S256x256, .f32⟩ : BufTy).Contents (Elt F))
    (x12 : (⟨S256, .f32⟩ : BufTy).Contents (Elt F)) (x13 : (⟨S256x256, .f32⟩ : BufTy).Contents (Elt F))
    (x14 : (⟨S256x256, .f32⟩ : BufTy).Contents (Elt F)) (x15 : (⟨S256, .f32⟩ : BufTy).Contents (Elt F))
    (x16 : (⟨S256x256, .f32⟩ : BufTy).Contents (Elt F)) (x17 : (⟨S256x256, .f32⟩ : BufTy).Contents (Elt F))
    (x18 : (⟨S256, .f32⟩ : BufTy).Contents (Elt F)) (x19 : (⟨S256x256, .f32⟩ : BufTy).Contents (Elt F))
    (x20 : (⟨S256, .f32⟩ : BufTy).Contents (Elt F)) (x21 : (⟨S256x512, .f32⟩ : BufTy).Contents (Elt F))
    (x22 : (⟨S256, .f32⟩ : BufTy).Contents (Elt F)) (x23 : (⟨S3x256x256, .f32⟩ : BufTy).Contents (Elt F))
    (x24 : (⟨S3x256, .f32⟩ : BufTy).Contents (Elt F)) (x25 : (⟨S256, .f32⟩ : BufTy).Contents (Elt F))
    (x26 : (⟨S256, .f32⟩ : BufTy).Contents (Elt F)) (x27 : (⟨S256, .f32⟩ : BufTy).Contents (Elt F))
    (x28 : (⟨S256x256, .f32⟩ : BufTy).Contents (Elt F)) (x29 : (⟨S256, .f32⟩ : BufTy).Contents (Elt F))
    (h0 : V (Proc.devRef .tc main_arg0) = x0) (h1 : V (Proc.devRef .tc main_arg1) = x1)
    (h2 : V (Proc.devRef .tc main_arg2) = x2) (h3 : V (Proc.devRef .tc main_arg3) = x3)
    (h4 : V (Proc.devRef .tc main_arg4) = x4) (h5 : V (Proc.devRef .tc main_arg5) = x5)
    (h6 : V (Proc.devRef .tc main_arg6) = x6) (h7 : V (Proc.devRef .tc main_arg7) = x7)
    (h8 : V (Proc.devRef .tc main_arg8) = x8) (h9 : V (Proc.devRef .tc main_arg9) = x9)
    (h10 : V (Proc.devRef .tc main_arg10) = x10) (h11 : V (Proc.devRef .tc main_arg11) = x11)
    (h12 : V (Proc.devRef .tc main_arg12) = x12) (h13 : V (Proc.devRef .tc main_arg13) = x13)
    (h14 : V (Proc.devRef .tc main_arg14) = x14) (h15 : V (Proc.devRef .tc main_arg15) = x15)
    (h16 : V (Proc.devRef .tc main_arg16) = x16) (h17 : V (Proc.devRef .tc main_arg17) = x17)
    (h18 : V (Proc.devRef .tc main_arg18) = x18) (h19 : V (Proc.devRef .tc main_arg19) = x19)
    (h20 : V (Proc.devRef .tc main_arg20) = x20) (h21 : V (Proc.devRef .tc main_arg21) = x21)
    (h22 : V (Proc.devRef .tc main_arg22) = x22) (h23 : V (Proc.devRef .tc main_arg23) = x23)
    (h24 : V (Proc.devRef .tc main_arg24) = x24) (h25 : V (Proc.devRef .tc main_arg25) = x25)
    (h26 : V (Proc.devRef .tc main_arg26) = x26) (h27 : V (Proc.devRef .tc main_arg27) = x27)
    (h28 : V (Proc.devRef .tc main_arg28) = x28) (h29 : V (Proc.devRef .tc main_arg29) = x29) :
    after (ops (F := F)) V (Proc.devRef .tc main_v193)
      = val_main_v193 (F := F) x0 x1 x2 x3 x4 x5 x6 x7 x8 x9 x10 x11 x12 x13 x14 x15 x16 x17 x18 x19 x20 x21 x22 x23 x24 x25 x26 x27 x28 x29 := by
  rw [stretch_eq]; simp only [after_append]
  -- piece 0
  have n_v1 := piece0_v1 V h3
  have n_v3 := piece0_v3 V h3
  have f_v1 := n_v1
  have f_v3 := n_v3
  have L0 : ∀ r ∈ argRefs, after (slice (ops (F := F)) 0 4) V (Proc.devRef .tc r) = V (Proc.devRef .tc r) :=
    fun r hr => keepR 0 4 V hr
  generalize after (slice (ops (F := F)) 0 4) V = V1 at f_v1 f_v3 L0 ⊢
  -- piece 1
  have n_v15 := piece1 V1 ((L0 _ (by decide)).trans h5) ((L0 _ (by decide)).trans h0) ((L0 _ (by decide)).trans h6)
  have f_v1 := (pass1_v1 V1).trans f_v1
  have f_v3 := (pass1_v3 V1).trans f_v3
  have f_v15 := n_v15
  have L1 : ∀ r ∈ argRefs, after (slice (ops (F := F)) 4 14) V1 (Proc.devRef .tc r) = V (Proc.devRef .tc r) :=
    fun r hr => (keepR 4 14 V1 hr).trans (L0 r hr)
  generalize after (slice (ops (F := F)) 4 14) V1 = V2 at f_v1 f_v3 f_v15 L1 ⊢
  -- piece 2
  have n_v30 := piece2 V2 ((L1 _ (by decide)).trans h7) ((L1 _ (by decide)).trans h1) ((L1 _ (by decide)).trans h8) f_v1 f_v15 f_v3
  have f_v1 := (pass2_v1 V2).trans f_v1
  have f_v3 := (pass2_v3 V2).trans f_v3
  have f_v15 := (pass2_v15 V2).trans f_v15
  have f_v30 := n_v30
  have L2 : ∀ r ∈ argRefs, after (slice (ops (F := F)) 18 18) V2 (Proc.devRef .tc r) = V (Proc.devRef .tc r) :=
    fun r hr => (keepR 18 18 V2 hr).trans (L1 r hr)
  generalize after (slice (ops (F := F)) 18 18) V2 = V3 at f_v1 f_v3 f_v15 f_v30 L2 ⊢
  -- piece 3
  have n_v43 := piece3 V3 ((L2 _ (by decide)).trans h11) f_v30 ((L2 _ (by decide)).trans h12) ((L2 _ (by decide)).trans h13) f_v15 ((L2 _ (by decide)).trans h17) ((L2 _ (by decide)).trans h18)
  have f_v1 := (pass3_v1 V3).trans f_v1
  have f_v3 := (pass3_v3 V3).trans f_v3
  have f_v15 := (pass3_v15 V3).trans f_v15
  have f_v43 := n_v43
  have L3 : ∀ r ∈ argRefs, after (slice (ops (F := F)) 36 13) V3 (Proc.devRef .tc r) = V (Proc.devRef .tc r) :=
    fun r hr => (keepR 36 13 V3 hr).trans (L2 r hr)
  generalize after (slice (ops (F := F)) 36 13) V3 = V4 at f_v1 f_v3 f_v15 f_v43 L3 ⊢
  -- piece 4
  have n_v50 := piece4 V4 f_v43
  have f_v1 := (pass4_v1 V4).trans f_v1
  have f_v3 := (pass4_v3 V4).trans f_v3
  have f_v15 := (pass4_v15 V4).trans f_v15
  have f_v50 := n_v50
  have L4 : ∀ r ∈ argRefs, after (slice (ops (F := F)) 49 9) V4 (Proc.devRef .tc r) = V (Proc.devRef .tc r) :=
    fun r hr => (keepR 49 9 V4 hr).trans (L3 r hr)
  generalize after (slice (ops (F := F)) 49 9) V4 = V5 at f_v1 f_v3 f_v15 f_v50 L4 ⊢
  -- piece 5
  have n_v65 := piece5 V5 ((L4 _ (by decide)).trans h9) ((L4 _ (by decide)).trans h2) ((L4 _ (by decide)).trans h10) f_v1 f_v15 f_v3
  have f_v15 := (pass5_v15 V5).trans f_v15
  have f_v50 := (pass5_v50 V5).trans f_v50
  have f_v65 := n_v65
  have L5 : ∀ r ∈ argRefs, after (slice (ops (F := F)) 58 18) V5 (Proc.devRef .tc r) = V (Proc.devRef .tc r) :=
    fun r hr => (keepR 58 18 V5 hr).trans (L4 r hr)
  generalize after (slice (ops (F := F)) 58 18) V5 = V6 at f_v15 f_v50 f_v65 L5 ⊢
  -- piece 6
  have n_v78 := piece6 V6 ((L5 _ (by decide)).trans h14) f_v65 ((L5 _ (by decide)).trans h15) ((L5 _ (by decide)).trans h16) f_v15 ((L5 _ (by decide)).trans h19) ((L5 _ (by decide)).trans h20)
  have f_v15 := (pass6_v15 V6).trans f_v15
  have f_v50 := (pass6_v50 V6).trans f_v50
  have f_v78 := n_v78
  have L6 : ∀ r ∈ argRefs, after (slice (ops (F := F)) 76 13) V6 (Proc.devRef .tc r) = V (Proc.devRef .tc r) :=
    fun r hr => (keepR 76 13 V6 hr).trans (L5 r hr)
  generalize after (slice (ops (F := F)) 76 13) V6 = V7 at f_v15 f_v50 f_v78 L6 ⊢
  -- piece 7
  have n_v85 := piece7 V7 f_v78
  have f_v15 := (pass7_v15 V7).trans f_v15
  have f_v50 := (pass7_v50 V7).trans f_v50
  have f_v85 := n_v85
  have L7 : ∀ r ∈ argRefs, after (slice (ops (F := F)) 89 9) V7 (Proc.devRef .tc r) = V (Proc.devRef .tc r) :=
    fun r hr => (keepR 89 9 V7 hr).trans (L6 r hr)
  generalize after (slice (ops (F := F)) 89 9) V7 = V8 at f_v15 f_v50 f_v85 L7 ⊢
  -- piece 8
  have n_v92 := piece8 V8 f_v50 f_v85 ((L7 _ (by decide)).trans h21) ((L7 _ (by decide)).trans h22) f_v15
  have f_v92 := n_v92
  have L8 : ∀ r ∈ argRefs, after (slice (ops (F := F)) 98 7) V8 (Proc.devRef .tc r) = V (Proc.devRef .tc r) :=
    fun r hr => (keepR 98 7 V8 hr).trans (L7 r hr)
  generalize after (slice (ops (F := F)) 98 7) V8 = V9 at f_v92 L8 ⊢
  -- piece 9
  have n_v101 := piece9 V9 ((L8 _ (by decide)).trans h23) f_v92 ((L8 _ (by decide)).trans h24)
  have f_v92 := (pass9_v92 V9).trans f_v92
  have f_v101 := n_v101
  have L9 : ∀ r ∈ argRefs, after (slice (ops (F := F)) 105 9) V9 (Proc.devRef .tc r) = V (Proc.devRef .tc r) :=
    fun r hr => (keepR 105 9 V9 hr).trans (L8 r hr)
  generalize after (slice (ops (F := F)) 105 9) V9 = V10 at f_v92 f_v101 L9 ⊢
  -- piece 10
  have n_v109 := piece10 V10 f_v101 f_v92
  have f_v109 := n_v109
  have L10 : ∀ r ∈ argRefs, after (slice (ops (F := F)) 114 10) V10 (Proc.devRef .tc r) = V (Proc.devRef .tc r) :=
    fun r hr => (keepR 114 10 V10 hr).trans (L9 r hr)
  generalize after (slice (ops (F := F)) 114 10) V10 = V11 at f_v109 L10 ⊢
  -- piece 11
  have n_v118 := piece11 V11 ((L10 _ (by decide)).trans h23) f_v109 ((L10 _ (by decide)).trans h24)
  have f_v109 := (pass11_v109 V11).trans f_v109
  have f_v118 := n_v118
  have L11 : ∀ r ∈ argRefs, after (slice (ops (F := F)) 124 9) V11 (Proc.devRef .tc r) = V (Proc.devRef .tc r) :=
    fun r hr => (keepR 124 9 V11 hr).trans (L10 r hr)
  generalize after (slice (ops (F := F)) 124 9) V11 = V12 at f_v109 f_v118 L11 ⊢
  -- piece 12
  have n_v126 := piece12 V12 f_v118 f_v109
  have f_v126 := n_v126
  have L12 : ∀ r ∈ argRefs, after (slice (ops (F := F)) 133 10) V12 (Proc.devRef .tc r) = V (Proc.devRef .tc r) :=
    fun r hr => (keepR 133 10 V12 hr).trans (L11 r hr)
  generalize after (slice (ops (F := F)) 133 10) V12 = V13 at f_v126 L12 ⊢
  -- piece 13
  have n_v135 := piece13 V13 ((L12 _ (by decide)).trans h23) f_v126 ((L12 _ (by decide)).trans h24)
  have f_v126 := (pass13_v126 V13).trans f_v126
  have f_v135 := n_v135
  have L13 : ∀ r ∈ argRefs, after (slice (ops (F := F)) 143 9) V13 (Proc.devRef .tc r) = V (Proc.devRef .tc r) :=
    fun r hr => (keepR 143 9 V13 hr).trans (L12 r hr)
  generalize after (slice (ops (F := F)) 143 9) V13 = V14 at f_v126 f_v135 L13 ⊢
  -- piece 14
  have n_v143 := piece14 V14 f_v135 f_v126
  have f_v143 := n_v143
  have L14 : ∀ r ∈ argRefs, after (slice (ops (F := F)) 152 10) V14 (Proc.devRef .tc r) = V (Proc.devRef .tc r) :=
    fun r hr => (keepR 152 10 V14 hr).trans (L13 r hr)
  generalize after (slice (ops (F := F)) 152 10) V14 = V15 at f_v143 L14 ⊢
  -- piece 15
  have n_v149 := piece15 V15 ((L14 _ (by decide)).trans h4)
  have f_v143 := (pass15_v143 V15).trans f_v143
  have f_v149 := n_v149
  have L15 : ∀ r ∈ argRefs, after (slice (ops (F := F)) 162 11) V15 (Proc.devRef .tc r) = V (Proc.devRef .tc r) :=
    fun r hr => (keepR 162 11 V15 hr).trans (L14 r hr)
  generalize after (slice (ops (F := F)) 162 11) V15 = V16 at f_v143 f_v149 L15 ⊢
  -- piece 16
  have n_v154 := piece16 V16 ((L15 _ (by decide)).trans h4) f_v143 f_v149
  have f_v143 := (pass16_v143 V16).trans f_v143
  have f_v149 := (pass16_v149 V16).trans f_v149
  have f_v154 := n_v154
  have L16 : ∀ r ∈ argRefs, after (slice (ops (F := F)) 173 6) V16 (Proc.devRef .tc r) = V (Proc.devRef .tc r) :=
    fun r hr => (keepR 173 6 V16 hr).trans (L15 r hr)
  generalize after (slice (ops (F := F)) 173 6) V16 = V17 at f_v143 f_v149 f_v154 L16 ⊢
  -- piece 17
  have n_v165 := piece17 V17 ((L16 _ (by decide)).trans h4) f_v154 ((L16 _ (by decide)).trans h27) f_v143
  have f_v149 := (pass17_v149 V17).trans f_v149
  have f_v165 := n_v165
  have L17 : ∀ r ∈ argRefs, after (slice (ops (F := F)) 179 13) V17 (Proc.devRef .tc r) = V (Proc.devRef .tc r) :=
    fun r hr => (keepR 179 13 V17 hr).trans (L16 r hr)
  generalize after (slice (ops (F := F)) 179 13) V17 = V18 at f_v149 f_v165 L17 ⊢
  -- piece 18
  have n_v174 := piece18 V18 f_v165 ((L17 _ (by decide)).trans h4) f_v149
  have f_v165 := (pass18_v165 V18).trans f_v165
  have f_v174 := n_v174
  have L18 : ∀ r ∈ argRefs, after (slice (ops (F := F)) 192 11) V18 (Proc.devRef .tc r) = V (Proc.devRef .tc r) :=
    fun r hr => (keepR 192 11 V18 hr).trans (L17 r hr)
  generalize after (slice (ops (F := F)) 192 11) V18 = V19 at f_v165 f_v174 L18 ⊢
  -- the last piece
  exact piece19 V19 ((L18 _ (by decide)).trans h4) f_v174 ((L18 _ (by decide)).trans h25) f_v165 ((L18 _ (by decide)).trans h26) ((L18 _ (by decide)).trans h28) ((L18 _ (by decide)).trans h29)

end Cert.EdgeMix.RefVal
-- ==== Proof.RefAsm.lean ====
/-
  The reference's run, read stage by stage.

  The reference is a straight line of host operations, so every weakly fair execution ends with each buffer at the
  fold of the operations over the launch contents; read one stage at a time (RefValue) the result buffer holds the
  reference's last stage of the thirty arguments, and no operation writes an argument.
-/
import proofs.«104348_j82652350644686_2_alg».proof.Proof.RefValue

noncomputable section

namespace Cert.EdgeMix.RefVal

open Idealize.ShloMosaic Idealize.ShloMosaic.TcCoe Idealize.ShloMosaic.StableHlo Idealize.SL.Sem
open Cert.ReferenceIdeal Cert.ReferenceIdeal.Read

/-- Every weakly fair execution of the reference at the extended reals terminates with the result buffer at the last
    stage of the arguments, and the arguments as launched. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v193) = val_main_v193 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
      ⟨(h c main_v193).trans (ref_value (F := Ideal) _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))
          rfl rfl rfl rfl rfl rfl rfl rfl rfl rfl rfl rfl rfl rfl rfl rfl rfl rfl rfl rfl rfl rfl rfl rfl rfl rfl rfl rfl rfl rfl),
        (h c main_arg0).trans (ref_args (F := Ideal) _ (r := main_arg0) (by decide)),
        (h c main_arg1).trans (ref_args (F := Ideal) _ (r := main_arg1) (by decide)),
        (h c main_arg2).trans (ref_args (F := Ideal) _ (r := main_arg2) (by decide)),
        (h c main_arg3).trans (ref_args (F := Ideal) _ (r := main_arg3) (by decide)),
        (h c main_arg4).trans (ref_args (F := Ideal) _ (r := main_arg4) (by decide)),
        (h c main_arg5).trans (ref_args (F := Ideal) _ (r := main_arg5) (by decide)),
        (h c main_arg6).trans (ref_args (F := Ideal) _ (r := main_arg6) (by decide)),
        (h c main_arg7).trans (ref_args (F := Ideal) _ (r := main_arg7) (by decide)),
        (h c main_arg8).trans (ref_args (F := Ideal) _ (r := main_arg8) (by decide)),
        (h c main_arg9).trans (ref_args (F := Ideal) _ (r := main_arg9) (by decide)),
        (h c main_arg10).trans (ref_args (F := Ideal) _ (r := main_arg10) (by decide)),
        (h c main_arg11).trans (ref_args (F := Ideal) _ (r := main_arg11) (by decide)),
        (h c main_arg12).trans (ref_args (F := Ideal) _ (r := main_arg12) (by decide)),
        (h c main_arg13).trans (ref_args (F := Ideal) _ (r := main_arg13) (by decide)),
        (h c main_arg14).trans (ref_args (F := Ideal) _ (r := main_arg14) (by decide)),
        (h c main_arg15).trans (ref_args (F := Ideal) _ (r := main_arg15) (by decide)),
        (h c main_arg16).trans (ref_args (F := Ideal) _ (r := main_arg16) (by decide)),
        (h c main_arg17).trans (ref_args (F := Ideal) _ (r := main_arg17) (by decide)),
        (h c main_arg18).trans (ref_args (F := Ideal) _ (r := main_arg18) (by decide)),
        (h c main_arg19).trans (ref_args (F := Ideal) _ (r := main_arg19) (by decide)),
        (h c main_arg20).trans (ref_args (F := Ideal) _ (r := main_arg20) (by decide)),
        (h c main_arg21).trans (ref_args (F := Ideal) _ (r := main_arg21) (by decide)),
        (h c main_arg22).trans (ref_args (F := Ideal) _ (r := main_arg22) (by decide)),
        (h c main_arg23).trans (ref_args (F := Ideal) _ (r := main_arg23) (by decide)),
        (h c main_arg24).trans (ref_args (F := Ideal) _ (r := main_arg24) (by decide)),
        (h c main_arg25).trans (ref_args (F := Ideal) _ (r := main_arg25) (by decide)),
        (h c main_arg26).trans (ref_args (F := Ideal) _ (r := main_arg26) (by decide)),
        (h c main_arg27).trans (ref_args (F := Ideal) _ (r := main_arg27) (by decide)),
        (h c main_arg28).trans (ref_args (F := Ideal) _ (r := main_arg28) (by decide)),
        (h c main_arg29).trans (ref_args (F := Ideal) _ (r := main_arg29) (by decide))⟩)
    (Cert.ReferenceIdeal.Value.run (F := Ideal) m ρ)

end Cert.EdgeMix.RefVal

end
-- ==== Proof.KFrameBits.lean ====
import proofs.«104348_j82652350644686_2_alg».proof.Proof.Gen.Kernel.Launch
import proofs.«104348_j82652350644686_2_alg».proof.Proof.Gen.Kernel.Skeleton
import proofs.«104348_j82652350644686_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch memory after the host operations
    that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is host operations, the region, then three stretches of host operations: it reduces to the region
    continued by the three stretches, entered at the contents the first stretch leaves. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-! ## Which buffers the host operations write

Buffers are numbered in program order: the thirty arguments first (indices 0 to 29), then the results of the
operations before the region (30 to 64), the region's result (65), then the results of the operations after it
(66 and up). Every operation writes its own result only, so a bound on the index separates what a stretch writes
from everything defined before it. -/

/-- An operation before the region writes a buffer of index at least 30: no argument. -/
theorem hostOps0_writes : (hostOps0 : List (HloOp τ sig (Elt F))).Forall fun op =>
    ∀ b : Ref sig .tc, Proc.devRef .tc b ∈ op.writes → 30 ≤ b.idx.val := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)

set_option maxHeartbeats 4000000 in
/-- An operation after the region writes a buffer of index at least 66: no argument, no array of the pipeline. -/
theorem hostOps1_writes : (hostOps1 : List (HloOp τ sig (Elt F))).Forall fun op =>
    ∀ b : Ref sig .tc, Proc.devRef .tc b ∈ op.writes → 66 ≤ b.idx.val := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)
theorem hostOps1_1_writes : (hostOps1_1 : List (HloOp τ sig (Elt F))).Forall fun op =>
    ∀ b : Ref sig .tc, Proc.devRef .tc b ∈ op.writes → 66 ≤ b.idx.val := by
  simp only [hostOps1_1, StableHlo.TRef.unary, StableHlo.TRef.binary, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)
theorem hostOps1_2_writes : (hostOps1_2 : List (HloOp τ sig (Elt F))).Forall fun op =>
    ∀ b : Ref sig .tc, Proc.devRef .tc b ∈ op.writes → 66 ≤ b.idx.val := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)

/-- The three stretches after the region together. -/
theorem tail_writes : ∀ ops ∈ ([hostOps1, hostOps1_1, hostOps1_2] : List (List (HloOp τ sig (Elt F)))), ∀ op ∈ ops,
    ∀ b : Ref sig .tc, Proc.devRef .tc b ∈ op.writes → 66 ≤ b.idx.val := by
  intro ops hops op hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

/-- A buffer of index below 66 is written by no operation after the region. -/
theorem tail_not_writes (b : Ref sig .tc) (hb : b.idx.val < 66) :
    ∀ op ∈ List.flatten ([hostOps1, hostOps1_1, hostOps1_2] : List (List (HloOp τ sig (Elt F)))), Proc.devRef .tc b ∉ op.writes := by
  intro op hop hw
  obtain ⟨ops, hops, hop'⟩ := List.mem_flatten.mp hop
  exact absurd (tail_writes ops hops op hop' b hw) (Nat.not_le.mpr hb)

/-- Every array of the pipeline has index below 66. -/
theorem arrRef_lt : ∀ w, (Pipeline.arrRef spec0 w).idx.val < 66 := by decide

/-! ## The three facts the launch asks of the stretches after the region -/

/-- They touch the pipeline's arrays and the bypassing buffers only (each operation's buffers are unscoped
    TensorCore references, and with nothing prefetched every such reference is one or the other). -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w hw => absurd (tail_writes ops hops op hop _ hw) (Nat.not_le.mpr (arrRef_lt w))

/-! ## The arguments at the region's entry and at the program's end -/

/-- An argument (a buffer of index below 30) is as launched when the region is entered: every operation before the
    region writes a buffer of index at least 30. -/
theorem V_arg (c : Dev nD) (b : Ref sig .tc) (hb : b.idx.val < 30) : V m c b = m ((c : Thread nD τ).loc b) :=
  StableHlo.after_of_forall_not_mem (b := Proc.devRef .tc b) _ _ (fun op hop hw => by
    rw [List.flatten_cons, List.flatten_nil, List.append_nil] at hop
    exact absurd ((List.forall_iff_forall_mem.mp hostOps0_writes) op hop b hw) (Nat.not_le.mpr hb))

/-- An argument that no window stages ends as launched: the operations after the region write buffers of index at
    least 66, the region leaves every buffer that is no array of its pipeline alone, and the operations before the
    region write no argument. -/
theorem W_arg (dats : (p : Fin 1) → (c : Dev nD) → Dat τ (Elt F) Unit ℕ (UR sig nD τ) ℕ (cfgs p) c) (c : Dev nD)
    (b : Ref sig .tc) (hb : b.idx.val < 30) (hne : ∀ w, Pipeline.arrRef spec0 w ≠ b) :
    Pipeline.afterTail₀ cfgs dats 0 (V0 m) [hostOps1, hostOps1_1, hostOps1_2] c b = m ((c : Thread nD τ).loc b) := by
  unfold Pipeline.afterTail₀
  rw [StableHlo.after_of_forall_not_mem (b := Proc.devRef .tc b) _ _ (tail_not_writes b (Nat.lt_of_lt_of_le hb (by decide))),
    Pipeline.withArrays_of_ne _ c (V0 m c) _ b hne]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched
    it there or not (a window whose block index does not move is fetched at the first point only, and its buffer
    keeps that block): for any proof data whose array is the region-entry contents and whose body leaves the block
    in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents: a final state with every array of the pipeline
    at what the proof data computes and every other unscoped buffer as the operations after the region leave it has
    the thirty arguments as launched, on every core. The two staged arguments are input arrays, never written back;
    the other twenty-eight are no array of the pipeline. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1, hostOps1_2]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  ⟨((h c).2 main_arg0 (Pipeline.mem_restRefs_of main_arg0 (by decide) (by decide))).trans (W_arg m dats c main_arg0 (by decide) (by decide)),
      ((h c).1 0).trans (((dats 0 c).arrAt_in 0 rfl _).trans ((hA c 0).trans (V_arg m c main_arg1 (by decide)))),
      ((h c).1 1).trans (((dats 0 c).arrAt_in 1 rfl _).trans ((hA c 1).trans (V_arg m c main_arg2 (by decide)))),
      ((h c).2 main_arg3 (Pipeline.mem_restRefs_of main_arg3 (by decide) (by decide))).trans (W_arg m dats c main_arg3 (by decide) (by decide)),
      ((h c).2 main_arg4 (Pipeline.mem_restRefs_of main_arg4 (by decide) (by decide))).trans (W_arg m dats c main_arg4 (by decide) (by decide)),
      ((h c).2 main_arg5 (Pipeline.mem_restRefs_of main_arg5 (by decide) (by decide))).trans (W_arg m dats c main_arg5 (by decide) (by decide)),
      ((h c).2 main_arg6 (Pipeline.mem_restRefs_of main_arg6 (by decide) (by decide))).trans (W_arg m dats c main_arg6 (by decide) (by decide)),
      ((h c).2 main_arg7 (Pipeline.mem_restRefs_of main_arg7 (by decide) (by decide))).trans (W_arg m dats c main_arg7 (by decide) (by decide)),
      ((h c).2 main_arg8 (Pipeline.mem_restRefs_of main_arg8 (by decide) (by decide))).trans (W_arg m dats c main_arg8 (by decide) (by decide)),
      ((h c).2 main_arg9 (Pipeline.mem_restRefs_of main_arg9 (by decide) (by decide))).trans (W_arg m dats c main_arg9 (by decide) (by decide)),
      ((h c).2 main_arg10 (Pipeline.mem_restRefs_of main_arg10 (by decide) (by decide))).trans (W_arg m dats c main_arg10 (by decide) (by decide)),
      ((h c).2 main_arg11 (Pipeline.mem_restRefs_of main_arg11 (by decide) (by decide))).trans (W_arg m dats c main_arg11 (by decide) (by decide)),
      ((h c).2 main_arg12 (Pipeline.mem_restRefs_of main_arg12 (by decide) (by decide))).trans (W_arg m dats c main_arg12 (by decide) (by decide)),
      ((h c).2 main_arg13 (Pipeline.mem_restRefs_of main_arg13 (by decide) (by decide))).trans (W_arg m dats c main_arg13 (by decide) (by decide)),
      ((h c).2 main_arg14 (Pipeline.mem_restRefs_of main_arg14 (by decide) (by decide))).trans (W_arg m dats c main_arg14 (by decide) (by decide)),
      ((h c).2 main_arg15 (Pipeline.mem_restRefs_of main_arg15 (by decide) (by decide))).trans (W_arg m dats c main_arg15 (by decide) (by decide)),
      ((h c).2 main_arg16 (Pipeline.mem_restRefs_of main_arg16 (by decide) (by decide))).trans (W_arg m dats c main_arg16 (by decide) (by decide)),
      ((h c).2 main_arg17 (Pipeline.mem_restRefs_of main_arg17 (by decide) (by decide))).trans (W_arg m dats c main_arg17 (by decide) (by decide)),
      ((h c).2 main_arg18 (Pipeline.mem_restRefs_of main_arg18 (by decide) (by decide))).trans (W_arg m dats c main_arg18 (by decide) (by decide)),
      ((h c).2 main_arg19 (Pipeline.mem_restRefs_of main_arg19 (by decide) (by decide))).trans (W_arg m dats c main_arg19 (by decide) (by decide)),
      ((h c).2 main_arg20 (Pipeline.mem_restRefs_of main_arg20 (by decide) (by decide))).trans (W_arg m dats c main_arg20 (by decide) (by decide)),
      ((h c).2 main_arg21 (Pipeline.mem_restRefs_of main_arg21 (by decide) (by decide))).trans (W_arg m dats c main_arg21 (by decide) (by decide)),
      ((h c).2 main_arg22 (Pipeline.mem_restRefs_of main_arg22 (by decide) (by decide))).trans (W_arg m dats c main_arg22 (by decide) (by decide)),
      ((h c).2 main_arg23 (Pipeline.mem_restRefs_of main_arg23 (by decide) (by decide))).trans (W_arg m dats c main_arg23 (by decide) (by decide)),
      ((h c).2 main_arg24 (Pipeline.mem_restRefs_of main_arg24 (by decide) (by decide))).trans (W_arg m dats c main_arg24 (by decide) (by decide)),
      ((h c).2 main_arg25 (Pipeline.mem_restRefs_of main_arg25 (by decide) (by decide))).trans (W_arg m dats c main_arg25 (by decide) (by decide)),
      ((h c).2 main_arg26 (Pipeline.mem_restRefs_of main_arg26 (by decide) (by decide))).trans (W_arg m dats c main_arg26 (by decide) (by decide)),
      ((h c).2 main_arg27 (Pipeline.mem_restRefs_of main_arg27 (by decide) (by decide))).trans (W_arg m dats c main_arg27 (by decide) (by decide)),
      ((h c).2 main_arg28 (Pipeline.mem_restRefs_of main_arg28 (by decide) (by decide))).trans (W_arg m dats c main_arg28 (by decide) (by decide)),
      ((h c).2 main_arg29 (Pipeline.mem_restRefs_of main_arg29 (by decide) (by decide))).trans (W_arg m dats c main_arg29 (by decide) (by decide))⟩

/-- So a run to such final states is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => args_kept m dats hA r h c) h

/-! ## The body's accesses

The body loads each input buffer whole, and stores the output buffer's left 256 columns and then its right 256
columns. (It also loads each half of the output buffer just before storing it; those values are not used.) -/

abbrev rI0 : Rect S1024x1568 := Rect.unit (s := S1024x1568) ![0, 0] S1024x1568.size inb_S1024x1568_S1024x1568_0_0
abbrev rI1 : Rect S1024x224 := Rect.unit (s := S1024x224) ![0, 0] S1024x224.size inb_S1024x224_S1024x224_0_0
abbrev rI2 : Rect S1024x256 := Rect.unit (s := S1024x256) ![0, 0] S1024x256.size inb_S1024x256_S1024x256_0_0
abbrev rI3 : Rect S1568x256 := Rect.unit (s := S1568x256) ![0, 0] S1568x256.size inb_S1568x256_S1568x256_0_0
abbrev rI4 : Rect S256x256 := Rect.unit (s := S256x256) ![0, 0] S256x256.size inb_S256x256_S256x256_0_0
abbrev rI5 : Rect S224x256 := Rect.unit (s := S224x256) ![0, 0] S224x256.size inb_S224x256_S224x256_0_0
/-- The left half of the output block, -/
abbrev rL : Rect S1024x512 := Rect.unit (s := S1024x512) ![0, 0] S1024x256.size inb_S1024x512_S1024x256_0_0
/-- and its right half. -/
abbrev rR : Rect S1024x512 := Rect.unit (s := S1024x512) ![0, 256] S1024x256.size inb_S1024x512_S1024x256_0_256

/-! ## What the body leaves in the output window's buffer -/

/-- The output buffer after the body, from the seven input blocks: the right half's store laid over the left half's
    (the later store first). The left half is the first chain of two products (edge features by the first weight pair)
    gated by the third block; the right half the second chain, gated by the same block. -/
def out0_7 (x0 : Vec F S1024x1568 .f32) (x1 : Vec F S1024x224 .f32) (x2 : Vec F S1024x256 .f32) (x3 : Vec F S1568x256 .bf16)
    (x4 : Vec F S256x256 .bf16) (x5 : Vec F S224x256 .bf16) (x6 : Vec F S256x256 .bf16) : Vec F S1024x512 .bf16 :=
  View.canon [⟨rR, k0_pay3 (View.ld x1 rI1) (View.ld x5 rI5) (View.ld x6 rI4) (View.ld x2 rI2)⟩,
    ⟨rL, k0_pay2 (View.ld x0 rI0) (View.ld x3 rI3) (View.ld x4 rI4) (View.ld x2 rI2)⟩]

/-- The two halves tile the block (by evaluation), so they cover it. -/
theorem cover0_7 (p0 : Vec F S1024x256 .bf16) (p1 : Vec F S1024x256 .bf16) (y : S1024x512.Idx) :
    ∃ pc ∈ ([⟨rR, p0⟩, ⟨rL, p1⟩] : List (View.Piece (Elt F) S1024x512 .bf16)), y ∈ pc.1.set :=
  View.cover_of_tiled [⟨rR, p0⟩, ⟨rL, p1⟩] S1024x256.size (by rfl) y

/-! ## The body's triple -/

set_option maxHeartbeats 4000000 in
/-- The body on whole staging memrefs, the seven inputs' at read contents `x0 … x6` and the output's at anything, runs
    to the continuation holding the inputs' as they were and the output's at `out0_7` of them. -/
theorem sound_kernel (c : Dev nD) (E : Set ℕ) (i : grid0.Coords)
    (arg1 : Memref sig .tc .vmem S1024x1568 .f32) (harg1 : arg1.IsWhole)
    (arg2 : Memref sig .tc .vmem S1024x224 .f32) (harg2 : arg2.IsWhole)
    (arg3 : Memref sig .tc .vmem S1024x256 .f32) (harg3 : arg3.IsWhole)
    (arg4 : Memref sig .tc .vmem S1568x256 .bf16) (harg4 : arg4.IsWhole)
    (arg5 : Memref sig .tc .vmem S256x256 .bf16) (harg5 : arg5.IsWhole)
    (arg6 : Memref sig .tc .vmem S224x256 .bf16) (harg6 : arg6.IsWhole)
    (arg7 : Memref sig .tc .vmem S256x256 .bf16) (harg7 : arg7.IsWhole)
    (arg8 : Memref sig .tc .vmem S1024x512 .bf16) (harg8 : arg8.IsWhole)
    (x0 : Vec F S1024x1568 .f32) (x1 : Vec F S1024x224 .f32) (x2 : Vec F S1024x256 .f32) (x3 : Vec F S1568x256 .bf16) (x4 : Vec F S256x256 .bf16) (x5 : Vec F S224x256 .bf16) (x6 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _)

/-! ## The pipeline's proof data -/

/-- The proof data of the pipeline on core `c`: the arrays as the region finds them; after the body at point `t` each
    input's buffer at its block and the output's at `out0_7` of the seven blocks; the invariant that leaves the
    scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, the contents never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program
    on the TensorCores terminates, and every final state has every array of the pipeline at what the proof data
    computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs, and its thirty arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.Kernel.Fr

end
-- ==== Proof.KFrameIdeal.lean ====
import proofs.«104348_j82652350644686_2_alg».proof.Proof.Gen.KernelIdeal.Launch
import proofs.«104348_j82652350644686_2_alg».proof.Proof.Gen.KernelIdeal.Skeleton
import proofs.«104348_j82652350644686_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents of core `c` when the region is entered: the launch memory after the host operations
    that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is host operations, the region, then three stretches of host operations: it reduces to the region
    continued by the three stretches, entered at the contents the first stretch leaves. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-! ## Which buffers the host operations write

Buffers are numbered in program order: the thirty arguments first (indices 0 to 29), then the results of the
operations before the region (30 to 64), the region's result (65), then the results of the operations after it
(66 and up). Every operation writes its own result only, so a bound on the index separates what a stretch writes
from everything defined before it. -/

/-- An operation before the region writes a buffer of index at least 30: no argument. -/
theorem hostOps0_writes : (hostOps0 : List (HloOp τ sig (Elt F))).Forall fun op =>
    ∀ b : Ref sig .tc, Proc.devRef .tc b ∈ op.writes → 30 ≤ b.idx.val := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)

set_option maxHeartbeats 4000000 in
/-- An operation after the region writes a buffer of index at least 66: no argument, no array of the pipeline. -/
theorem hostOps1_writes : (hostOps1 : List (HloOp τ sig (Elt F))).Forall fun op =>
    ∀ b : Ref sig .tc, Proc.devRef .tc b ∈ op.writes → 66 ≤ b.idx.val := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)
theorem hostOps1_1_writes : (hostOps1_1 : List (HloOp τ sig (Elt F))).Forall fun op =>
    ∀ b : Ref sig .tc, Proc.devRef .tc b ∈ op.writes → 66 ≤ b.idx.val := by
  simp only [hostOps1_1, StableHlo.TRef.unary, StableHlo.TRef.binary, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)
theorem hostOps1_2_writes : (hostOps1_2 : List (HloOp τ sig (Elt F))).Forall fun op =>
    ∀ b : Ref sig .tc, Proc.devRef .tc b ∈ op.writes → 66 ≤ b.idx.val := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b h; obtain rfl := Proc.devRef_injective _ h; decide)

/-- The three stretches after the region together. -/
theorem tail_writes : ∀ ops ∈ ([hostOps1, hostOps1_1, hostOps1_2] : List (List (HloOp τ sig (Elt F)))), ∀ op ∈ ops,
    ∀ b : Ref sig .tc, Proc.devRef .tc b ∈ op.writes → 66 ≤ b.idx.val := by
  intro ops hops op hop
  simp only [List.mem_cons, List.mem_nil_iff, or_false] at hops
  rcases hops with rfl | rfl | rfl
  · exact (List.forall_iff_forall_mem.mp hostOps1_writes) op hop
  · exact (List.forall_iff_forall_mem.mp hostOps1_1_writes) op hop
  · exact (List.forall_iff_forall_mem.mp hostOps1_2_writes) op hop

/-- A buffer of index below 66 is written by no operation after the region. -/
theorem tail_not_writes (b : Ref sig .tc) (hb : b.idx.val < 66) :
    ∀ op ∈ List.flatten ([hostOps1, hostOps1_1, hostOps1_2] : List (List (HloOp τ sig (Elt F)))), Proc.devRef .tc b ∉ op.writes := by
  intro op hop hw
  obtain ⟨ops, hops, hop'⟩ := List.mem_flatten.mp hop
  exact absurd (tail_writes ops hops op hop' b hw) (Nat.not_le.mpr hb)

/-- Every array of the pipeline has index below 66. -/
theorem arrRef_lt : ∀ w, (Pipeline.arrRef spec0 w).idx.val < 66 := by decide

/-! ## The three facts the launch asks of the stretches after the region -/

/-- They touch the pipeline's arrays and the bypassing buffers only (each operation's buffers are unscoped
    TensorCore references, and with nothing prefetched every such reference is one or the other). -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- And they write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w hw => absurd (tail_writes ops hops op hop _ hw) (Nat.not_le.mpr (arrRef_lt w))

/-! ## The arguments at the region's entry and at the program's end -/

/-- An argument (a buffer of index below 30) is as launched when the region is entered: every operation before the
    region writes a buffer of index at least 30. -/
theorem V_arg (c : Dev nD) (b : Ref sig .tc) (hb : b.idx.val < 30) : V m c b = m ((c : Thread nD τ).loc b) :=
  StableHlo.after_of_forall_not_mem (b := Proc.devRef .tc b) _ _ (fun op hop hw => by
    rw [List.flatten_cons, List.flatten_nil, List.append_nil] at hop
    exact absurd ((List.forall_iff_forall_mem.mp hostOps0_writes) op hop b hw) (Nat.not_le.mpr hb))

/-- An argument that no window stages ends as launched: the operations after the region write buffers of index at
    least 66, the region leaves every buffer that is no array of its pipeline alone, and the operations before the
    region write no argument. -/
theorem W_arg (dats : (p : Fin 1) → (c : Dev nD) → Dat τ (Elt F) Unit ℕ (UR sig nD τ) ℕ (cfgs p) c) (c : Dev nD)
    (b : Ref sig .tc) (hb : b.idx.val < 30) (hne : ∀ w, Pipeline.arrRef spec0 w ≠ b) :
    Pipeline.afterTail₀ cfgs dats 0 (V0 m) [hostOps1, hostOps1_1, hostOps1_2] c b = m ((c : Thread nD τ).loc b) := by
  unfold Pipeline.afterTail₀
  rw [StableHlo.after_of_forall_not_mem (b := Proc.devRef .tc b) _ _ (tail_not_writes b (Nat.lt_of_lt_of_le hb (by decide))),
    Pipeline.withArrays_of_ne _ c (V0 m c) _ b hne]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched
    it there or not (a window whose block index does not move is fetched at the first point only, and its buffer
    keeps that block): for any proof data whose array is the region-entry contents and whose body leaves the block
    in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents: a final state with every array of the pipeline
    at what the proof data computes and every other unscoped buffer as the operations after the region leave it has
    the thirty arguments as launched, on every core. The two staged arguments are input arrays, never written back;
    the other twenty-eight are no array of the pipeline. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1, hostOps1_2]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  ⟨((h c).2 main_arg0 (Pipeline.mem_restRefs_of main_arg0 (by decide) (by decide))).trans (W_arg m dats c main_arg0 (by decide) (by decide)),
      ((h c).1 0).trans (((dats 0 c).arrAt_in 0 rfl _).trans ((hA c 0).trans (V_arg m c main_arg1 (by decide)))),
      ((h c).1 1).trans (((dats 0 c).arrAt_in 1 rfl _).trans ((hA c 1).trans (V_arg m c main_arg2 (by decide)))),
      ((h c).2 main_arg3 (Pipeline.mem_restRefs_of main_arg3 (by decide) (by decide))).trans (W_arg m dats c main_arg3 (by decide) (by decide)),
      ((h c).2 main_arg4 (Pipeline.mem_restRefs_of main_arg4 (by decide) (by decide))).trans (W_arg m dats c main_arg4 (by decide) (by decide)),
      ((h c).2 main_arg5 (Pipeline.mem_restRefs_of main_arg5 (by decide) (by decide))).trans (W_arg m dats c main_arg5 (by decide) (by decide)),
      ((h c).2 main_arg6 (Pipeline.mem_restRefs_of main_arg6 (by decide) (by decide))).trans (W_arg m dats c main_arg6 (by decide) (by decide)),
      ((h c).2 main_arg7 (Pipeline.mem_restRefs_of main_arg7 (by decide) (by decide))).trans (W_arg m dats c main_arg7 (by decide) (by decide)),
      ((h c).2 main_arg8 (Pipeline.mem_restRefs_of main_arg8 (by decide) (by decide))).trans (W_arg m dats c main_arg8 (by decide) (by decide)),
      ((h c).2 main_arg9 (Pipeline.mem_restRefs_of main_arg9 (by decide) (by decide))).trans (W_arg m dats c main_arg9 (by decide) (by decide)),
      ((h c).2 main_arg10 (Pipeline.mem_restRefs_of main_arg10 (by decide) (by decide))).trans (W_arg m dats c main_arg10 (by decide) (by decide)),
      ((h c).2 main_arg11 (Pipeline.mem_restRefs_of main_arg11 (by decide) (by decide))).trans (W_arg m dats c main_arg11 (by decide) (by decide)),
      ((h c).2 main_arg12 (Pipeline.mem_restRefs_of main_arg12 (by decide) (by decide))).trans (W_arg m dats c main_arg12 (by decide) (by decide)),
      ((h c).2 main_arg13 (Pipeline.mem_restRefs_of main_arg13 (by decide) (by decide))).trans (W_arg m dats c main_arg13 (by decide) (by decide)),
      ((h c).2 main_arg14 (Pipeline.mem_restRefs_of main_arg14 (by decide) (by decide))).trans (W_arg m dats c main_arg14 (by decide) (by decide)),
      ((h c).2 main_arg15 (Pipeline.mem_restRefs_of main_arg15 (by decide) (by decide))).trans (W_arg m dats c main_arg15 (by decide) (by decide)),
      ((h c).2 main_arg16 (Pipeline.mem_restRefs_of main_arg16 (by decide) (by decide))).trans (W_arg m dats c main_arg16 (by decide) (by decide)),
      ((h c).2 main_arg17 (Pipeline.mem_restRefs_of main_arg17 (by decide) (by decide))).trans (W_arg m dats c main_arg17 (by decide) (by decide)),
      ((h c).2 main_arg18 (Pipeline.mem_restRefs_of main_arg18 (by decide) (by decide))).trans (W_arg m dats c main_arg18 (by decide) (by decide)),
      ((h c).2 main_arg19 (Pipeline.mem_restRefs_of main_arg19 (by decide) (by decide))).trans (W_arg m dats c main_arg19 (by decide) (by decide)),
      ((h c).2 main_arg20 (Pipeline.mem_restRefs_of main_arg20 (by decide) (by decide))).trans (W_arg m dats c main_arg20 (by decide) (by decide)),
      ((h c).2 main_arg21 (Pipeline.mem_restRefs_of main_arg21 (by decide) (by decide))).trans (W_arg m dats c main_arg21 (by decide) (by decide)),
      ((h c).2 main_arg22 (Pipeline.mem_restRefs_of main_arg22 (by decide) (by decide))).trans (W_arg m dats c main_arg22 (by decide) (by decide)),
      ((h c).2 main_arg23 (Pipeline.mem_restRefs_of main_arg23 (by decide) (by decide))).trans (W_arg m dats c main_arg23 (by decide) (by decide)),
      ((h c).2 main_arg24 (Pipeline.mem_restRefs_of main_arg24 (by decide) (by decide))).trans (W_arg m dats c main_arg24 (by decide) (by decide)),
      ((h c).2 main_arg25 (Pipeline.mem_restRefs_of main_arg25 (by decide) (by decide))).trans (W_arg m dats c main_arg25 (by decide) (by decide)),
      ((h c).2 main_arg26 (Pipeline.mem_restRefs_of main_arg26 (by decide) (by decide))).trans (W_arg m dats c main_arg26 (by decide) (by decide)),
      ((h c).2 main_arg27 (Pipeline.mem_restRefs_of main_arg27 (by decide) (by decide))).trans (W_arg m dats c main_arg27 (by decide) (by decide)),
      ((h c).2 main_arg28 (Pipeline.mem_restRefs_of main_arg28 (by decide) (by decide))).trans (W_arg m dats c main_arg28 (by decide) (by decide)),
      ((h c).2 main_arg29 (Pipeline.mem_restRefs_of main_arg29 (by decide) (by decide))).trans (W_arg m dats c main_arg29 (by decide) (by decide))⟩

/-- So a run to such final states is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => args_kept m dats hA r h c) h

/-! ## The body's accesses

The body loads each input buffer whole, and stores the output buffer's left 256 columns and then its right 256
columns. (It also loads each half of the output buffer just before storing it; those values are not used.) -/

abbrev rI0 : Rect S1024x1568 := Rect.unit (s := S1024x1568) ![0, 0] S1024x1568.size inb_S1024x1568_S1024x1568_0_0
abbrev rI1 : Rect S1024x224 := Rect.unit (s := S1024x224) ![0, 0] S1024x224.size inb_S1024x224_S1024x224_0_0
abbrev rI2 : Rect S1024x256 := Rect.unit (s := S1024x256) ![0, 0] S1024x256.size inb_S1024x256_S1024x256_0_0
abbrev rI3 : Rect S1568x256 := Rect.unit (s := S1568x256) ![0, 0] S1568x256.size inb_S1568x256_S1568x256_0_0
abbrev rI4 : Rect S256x256 := Rect.unit (s := S256x256) ![0, 0] S256x256.size inb_S256x256_S256x256_0_0
abbrev rI5 : Rect S224x256 := Rect.unit (s := S224x256) ![0, 0] S224x256.size inb_S224x256_S224x256_0_0
/-- The left half of the output block, -/
abbrev rL : Rect S1024x512 := Rect.unit (s := S1024x512) ![0, 0] S1024x256.size inb_S1024x512_S1024x256_0_0
/-- and its right half. -/
abbrev rR : Rect S1024x512 := Rect.unit (s := S1024x512) ![0, 256] S1024x256.size inb_S1024x512_S1024x256_0_256

/-! ## What the body leaves in the output window's buffer -/

/-- The output buffer after the body, from the seven input blocks: the right half's store laid over the left half's
    (the later store first). The left half is the first chain of two products (edge features by the first weight pair)
    gated by the third block; the right half the second chain, gated by the same block. -/
def out0_7 (x0 : Vec F S1024x1568 .f32) (x1 : Vec F S1024x224 .f32) (x2 : Vec F S1024x256 .f32) (x3 : Vec F S1568x256 .bf16)
    (x4 : Vec F S256x256 .bf16) (x5 : Vec F S224x256 .bf16) (x6 : Vec F S256x256 .bf16) : Vec F S1024x512 .bf16 :=
  View.canon [⟨rR, k0_pay3 (View.ld x1 rI1) (View.ld x5 rI5) (View.ld x6 rI4) (View.ld x2 rI2)⟩,
    ⟨rL, k0_pay2 (View.ld x0 rI0) (View.ld x3 rI3) (View.ld x4 rI4) (View.ld x2 rI2)⟩]

/-- The two halves tile the block (by evaluation), so they cover it. -/
theorem cover0_7 (p0 : Vec F S1024x256 .bf16) (p1 : Vec F S1024x256 .bf16) (y : S1024x512.Idx) :
    ∃ pc ∈ ([⟨rR, p0⟩, ⟨rL, p1⟩] : List (View.Piece (Elt F) S1024x512 .bf16)), y ∈ pc.1.set :=
  View.cover_of_tiled [⟨rR, p0⟩, ⟨rL, p1⟩] S1024x256.size (by rfl) y

/-! ## The body's triple -/

set_option maxHeartbeats 4000000 in
/-- The body on whole staging memrefs, the seven inputs' at read contents `x0 … x6` and the output's at anything, runs
    to the continuation holding the inputs' as they were and the output's at `out0_7` of them. -/
theorem sound_kernel (c : Dev nD) (E : Set ℕ) (i : grid0.Coords)
    (arg1 : Memref sig .tc .vmem S1024x1568 .f32) (harg1 : arg1.IsWhole)
    (arg2 : Memref sig .tc .vmem S1024x224 .f32) (harg2 : arg2.IsWhole)
    (arg3 : Memref sig .tc .vmem S1024x256 .f32) (harg3 : arg3.IsWhole)
    (arg4 : Memref sig .tc .vmem S1568x256 .bf16) (harg4 : arg4.IsWhole)
    (arg5 : Memref sig .tc .vmem S256x256 .bf16) (harg5 : arg5.IsWhole)
    (arg6 : Memref sig .tc .vmem S224x256 .bf16) (harg6 : arg6.IsWhole)
    (arg7 : Memref sig .tc .vmem S256x256 .bf16) (harg7 : arg7.IsWhole)
    (arg8 : Memref sig .tc .vmem S1024x512 .bf16) (harg8 : arg8.IsWhole)
    (x0 : Vec F S1024x1568 .f32) (x1 : Vec F S1024x224 .f32) (x2 : Vec F S1024x256 .f32) (x3 : Vec F S1568x256 .bf16) (x4 : Vec F S256x256 .bf16) (x5 : Vec F S224x256 .bf16) (x6 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _)

/-! ## The pipeline's proof data -/

/-- The proof data of the pipeline on core `c`: the arrays as the region finds them; after the body at point `t` each
    input's buffer at its block and the output's at `out0_7` of the seven blocks; the invariant that leaves the
    scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, the contents never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program
    on the TensorCores terminates, and every final state has every array of the pipeline at what the proof data
    computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: the program runs, and its thirty arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.KernelIdeal.Fr

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.EdgeSpec.lean ====
/-
  One edge's message, as a function of whole arrays, and the kernel body's two stored values read at an index.

  For edge features `f : [E, K]`, two weight matrices `a : [K, H]`, `b : [H, H]` and the gathered source-node features
  `xs : [E, H]`, the message of edge `e` in channel `q` is

      edgeAt f a b xs e q = (∑ k, (∑ l, f (e, l) · a (l, k)) · b (k, q)) · xs (e, q)

  on the extended reals: the features projected twice, then multiplied entrywise by the source node's features. The
  kernel body computes, on a block of 1024 edges, exactly this for the first feature set (stored in the left 256
  columns of its output block) and for the second (the right 256 columns): a change of float format is the identity
  on the extended reals, a cast between equal shapes is the identity, and a matrix product into a zero accumulator is
  the plain sum over the contracted axis.
-/
import proofs.«104348_j82652350644686_2_alg».proof.Proof.Gen.KernelIdeal.Skeleton
import proofs.«104348_j82652350644686_2_alg».proof.Proof.LibPlainDot
import Idealize.ShloMosaic.Lib.Pipeline.Value
import Idealize.ShloMosaic.Lib.ValueIdx

noncomputable section

namespace Cert.EdgeMix

open Idealize.ShloMosaic Idealize.ShloMosaic.ValueIdx
open scoped BigOperators

/-- The message of edge `e` in channel `q`: the edge's features projected by `a` then by `b`, times the source node's
    feature. -/
def edgeAt {E K H : ℕ} (f : (⟨2, ![E, K]⟩ : Shape).Idx → EReal) (a : (⟨2, ![K, H]⟩ : Shape).Idx → EReal)
    (b : (⟨2, ![H, H]⟩ : Shape).Idx → EReal) (xs : (⟨2, ![E, H]⟩ : Shape).Idx → EReal) (e : Fin E) (q : Fin H) : EReal :=
  (∑ k : Fin H, (∑ l : Fin K, f (ix2 e l) * a (ix2 l k)) * b (ix2 k q)) * xs (ix2 e q)

open Cert.KernelIdeal Cert.KernelIdeal.Gen

/-- The value the body stores in the left half of its output block, at row `p` and column `q`: the message of the
    block's edge `p` in channel `q`, from the first feature set. -/
theorem pay_left_apply (v0 : FVec Ideal S1024x1568 .f32) (v2 : FVec Ideal S1568x256 .bf16) (v6 : FVec Ideal S256x256 .bf16)
    (v18 : FVec Ideal S1024x256 .f32) (p : Fin 1024) (q : Fin 256) :
    k0_pay2 (F := Ideal) v0 v2 v6 v18 (ix2 p q) = edgeAt v0 v2 v6 v18 p q := by
  have h1 : ∀ (p' : Fin 1024) (k : Fin 256),
      (matmul dot_S1024x1568_S1568x256_S1024x256_1_0_0_1_n_n none (truncf .bf16 v0 bitsLt_bf16_f32)
        v2 (constant S1024x256 .f32 0x00000000#32) : FVec Ideal S1024x256 .f32) (ix2 p' k)
        = ∑ l : Fin 1568, v0 (ix2 p' l) * v2 (ix2 l k) := fun p' k =>
    Cert.LibPlainDot.matmul_plain_apply dot_S1024x1568_S1568x256_S1024x256_1_0_0_1_n_n rfl rfl rfl rfl rfl rfl none
      (truncf .bf16 v0 bitsLt_bf16_f32) v2 p' k
  unfold k0_pay2 k0_pay1 edgeAt
  dsimp only
  simp only [shapeCast_self]
  rw [truncf_apply, mulf_apply]
  refine congrArg₂ (fun a b : EReal => a * b) ?_ rfl
  refine (Cert.LibPlainDot.matmul_plain_apply dot_S1024x256_S256x256_S1024x256_1_0_0_1_n_n rfl rfl rfl rfl rfl rfl none _ v6 p q).trans ?_
  exact Finset.sum_congr rfl fun k _ => congrArg (· * v6 (ix2 k q)) (h1 p k)

/-- The value the body stores in the right half of its output block, at row `p` and column `q` of that half: the
    message of the block's edge `p` in channel `q`, from the second feature set. -/
theorem pay_right_apply (v9 : FVec Ideal S1024x224 .f32) (v11 : FVec Ideal S224x256 .bf16) (v15 : FVec Ideal S256x256 .bf16)
    (v18 : FVec Ideal S1024x256 .f32) (p : Fin 1024) (q : Fin 256) :
    k0_pay3 (F := Ideal) v9 v11 v15 v18 (ix2 p q) = edgeAt v9 v11 v15 v18 p q := by
  have h1 : ∀ (p' : Fin 1024) (k : Fin 256),
      (matmul dot_S1024x224_S224x256_S1024x256_1_0_0_1_n_n none (truncf .bf16 v9 bitsLt_bf16_f32)
        v11 (constant S1024x256 .f32 0x00000000#32) : FVec Ideal S1024x256 .f32) (ix2 p' k)
        = ∑ l : Fin 224, v9 (ix2 p' l) * v11 (ix2 l k) := fun p' k =>
    Cert.LibPlainDot.matmul_plain_apply dot_S1024x224_S224x256_S1024x256_1_0_0_1_n_n rfl rfl rfl rfl rfl rfl none
      (truncf .bf16 v9 bitsLt_bf16_f32) v11 p' k
  unfold k0_pay3 k0_pay1 edgeAt
  dsimp only
  simp only [shapeCast_self]
  rw [truncf_apply, mulf_apply]
  refine congrArg₂ (fun a b : EReal => a * b) ?_ rfl
  refine (Cert.LibPlainDot.matmul_plain_apply dot_S1024x256_S256x256_S1024x256_1_0_0_1_n_n rfl rfl rfl rfl rfl rfl none _ v15 p q).trans ?_
  exact Finset.sum_congr rfl fun k _ => congrArg (· * v15 (ix2 k q)) (h1 p k)

end Cert.EdgeMix

end
-- ==== Proof.KBlock.lean ====
/-
  The block the kernel body leaves in its output buffer, read at an index.

  The body stores two pieces into its output block of 1024 edges by 512 columns: the messages of the first feature
  set in columns 0 to 255, those of the second in columns 256 to 511. The two column ranges are disjoint and together
  they are every column, so at row `p` and column `j` the block holds the first piece's entry `(p, j)` when `j < 256`
  and the second piece's entry `(p, j - 256)` otherwise: two arrays of messages set side by side (`joinCols`).
-/
import proofs.«104348_j82652350644686_2_alg».proof.Proof.EdgeSpec
import Idealize.ShloMosaic.Lib.Pipeline.FrameBody
import Idealize.ShloMosaic.Lib.Pipeline.Value

noncomputable section

namespace Cert.EdgeMix

open Idealize.ShloMosaic Idealize.ShloMosaic.ValueIdx
open Cert.KernelIdeal Cert.KernelIdeal.Gen
open scoped BigOperators

/-- Two arrays of 256 columns set side by side: column `j` of the result is column `j` of the first for `j < 256` and
    column `j - 256` of the second otherwise. -/
def joinCols {E : ℕ} (a b : Fin E → Fin 256 → EReal) (e : Fin E) (j : Fin 512) : EReal :=
  if h : j.val < 256 then a e ⟨j.val, h⟩ else b e ⟨j.val - 256, by have := j.isLt; omega⟩

theorem joinCols_left {E : ℕ} (a b : Fin E → Fin 256 → EReal) (e : Fin E) (q : Fin 256) :
    joinCols a b e ⟨q.val, by have := q.isLt; omega⟩ = a e q := by
  unfold joinCols
  rw [dif_pos (show q.val < 256 from q.isLt)]

theorem joinCols_right {E : ℕ} (a b : Fin E → Fin 256 → EReal) (e : Fin E) (q : Fin 256) :
    joinCols a b e ⟨256 + q.val, by have := q.isLt; omega⟩ = b e q := by
  unfold joinCols
  rw [dif_neg (show ¬ (256 + q.val < 256) by omega)]
  exact congrArg (b e) (Fin.ext (by show 256 + q.val - 256 = q.val; omega))

/-- The joined array depends on its two parts entry by entry. -/
theorem joinCols_congr {E E' : ℕ} (a b : Fin E → Fin 256 → EReal) (a' b' : Fin E' → Fin 256 → EReal) (e : Fin E) (e' : Fin E')
    (ha : ∀ q, a e q = a' e' q) (hb : ∀ q, b e q = b' e' q) (j j' : Fin 512) (hj : j = j') : joinCols a b e j = joinCols a' b' e' j' := by
  subst hj
  unfold joinCols
  split
  · exact ha _
  · exact hb _

/-- An edge's message depends only on that edge's row of the features and of the source-node features. -/
theorem edgeAt_congr {E E' K H : ℕ} (f : (⟨2, ![E, K]⟩ : Shape).Idx → EReal) (f' : (⟨2, ![E', K]⟩ : Shape).Idx → EReal)
    (a a' : (⟨2, ![K, H]⟩ : Shape).Idx → EReal) (b b' : (⟨2, ![H, H]⟩ : Shape).Idx → EReal)
    (xs : (⟨2, ![E, H]⟩ : Shape).Idx → EReal) (xs' : (⟨2, ![E', H]⟩ : Shape).Idx → EReal) (e : Fin E) (e' : Fin E') (q : Fin H)
    (hf : ∀ l : Fin K, f (ix2 e l) = f' (ix2 e' l)) (ha : ∀ (l : Fin K) (k : Fin H), a (ix2 l k) = a' (ix2 l k))
    (hb : ∀ (k : Fin H) (k' : Fin H), b (ix2 k k') = b' (ix2 k k')) (hx : xs (ix2 e q) = xs' (ix2 e' q)) :
    edgeAt f a b xs e q = edgeAt f' a' b' xs' e' q := by
  unfold edgeAt
  rw [hx]
  refine congrArg (· * _) (Finset.sum_congr rfl fun k _ => ?_)
  rw [hb k q]
  exact congrArg (· * _) (Finset.sum_congr rfl fun l _ => by rw [hf l, ha l k])

/-- The left 256 columns of a block of width 512. -/
abbrev rectL : Rect S1024x512 := Rect.unit (s := S1024x512) ![0, 0] S1024x256.size inb_S1024x512_S1024x256_0_0
/-- The right 256 columns. -/
abbrev rectR : Rect S1024x512 := Rect.unit (s := S1024x512) ![0, 256] S1024x256.size inb_S1024x512_S1024x256_0_256

/-- A block written by a store into its left half and then a store into its right half holds the two stored
    arrays side by side. -/
theorem canon_halves (pL pR : Vec Ideal S1024x256 .bf16) (p : Fin 1024) (j : Fin 512) :
    View.canon [(⟨rectR, pR⟩ : View.Piece (Elt Ideal) S1024x512 .bf16), ⟨rectL, pL⟩] (ix2 p j)
      = joinCols (fun p q => pL (ix2 p q)) (fun p q => pR (ix2 p q)) p j := by
  unfold joinCols
  split
  · rename_i h
    have hnot : (ix2 p j : S1024x512.Idx) ∉ rectR.set := fun hm => by
      have h1 := (Rect.mem_set_unit.mp hm (1 : Fin 2)).1
      have h2 : 256 ≤ j.val := h1
      omega
    rw [View.canon_cons_of_not_mem (⟨rectR, pR⟩ : View.Piece (Elt Ideal) S1024x512 .bf16) _ hnot]
    have e : (ix2 p j : S1024x512.Idx) = rectL.emb (ix2 p (⟨j.val, h⟩ : Fin 256)) := funext fun a => Fin.ext (by
      match a with
      | ⟨0, _⟩ => show p.val = 0 + 1 * p.val; omega
      | ⟨1, _⟩ => show j.val = 0 + 1 * j.val; omega)
    rw [e]
    exact View.canon_cons_emb rectL pL [] (ix2 p (⟨j.val, h⟩ : Fin 256))
  · rename_i h
    have e : (ix2 p j : S1024x512.Idx) = rectR.emb (ix2 p (⟨j.val - 256, by have := j.isLt; omega⟩ : Fin 256)) := funext fun a => Fin.ext (by
      match a with
      | ⟨0, _⟩ => show p.val = 0 + 1 * p.val; omega
      | ⟨1, _⟩ => show j.val = 256 + 1 * (j.val - 256); omega)
    rw [e]
    exact View.canon_cons_emb rectR pR _ (ix2 p (⟨j.val - 256, by have := j.isLt; omega⟩ : Fin 256))

/-- The block the body leaves, at row `p` and column `j`: the message of the block's edge `p`, from the first
    feature set in the left half and from the second in the right half. -/
theorem out_block_apply (x0 : Vec Ideal S1024x1568 .f32) (x1 : Vec Ideal S1024x224 .f32) (x2 : Vec Ideal S1024x256 .f32)
    (x3 : Vec Ideal S1568x256 .bf16) (x4 : Vec Ideal S256x256 .bf16) (x5 : Vec Ideal S224x256 .bf16) (x6 : Vec Ideal S256x256 .bf16)
    (p : Fin 1024) (j : Fin 512) :
    View.canon [(⟨rectR, k0_pay3 (F := Ideal) x1 x5 x6 x2⟩ : View.Piece (Elt Ideal) S1024x512 .bf16), ⟨rectL, k0_pay2 (F := Ideal) x0 x3 x4 x2⟩] (ix2 p j)
      = joinCols (edgeAt x0 x3 x4 x2) (edgeAt x1 x5 x6 x2) p j := by
  rw [canon_halves]
  exact joinCols_congr _ _ _ _ p p (fun q => pay_left_apply x0 x3 x4 x2 p q) (fun q => pay_right_apply x1 x5 x6 x2 p q) j j rfl

end Cert.EdgeMix

end
-- ==== Proof.KValue.lean ====
/-
  From the blocks to the array: what the region leaves in its result array.

  At grid point `t` the pipeline hands the body rows `1024 t … 1024 t + 1023` of the two edge-feature arrays and of the
  gathered source-node features, and the four weight matrices whole; the body leaves in its output block the messages
  of those 1024 edges, the first feature set's in the left 256 columns and the second's in the right 256 (KBlock); the
  block is written back to rows `1024 t … 1024 t + 1023` of the result array. The fifty blocks tile the 51200 rows, so
  after the region the result array is the array of all edges' messages, the two feature sets side by side (`msgs`).
-/
import proofs.«104348_j82652350644686_2_alg».proof.Proof.KFrameIdeal
import proofs.«104348_j82652350644686_2_alg».proof.Proof.KBlock
import Idealize.ShloMosaic.Lib.Pipeline.Value

noncomputable section

namespace Cert.EdgeMix.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.EdgeMix
open scoped BigOperators

variable (m : (ℓ : Loc nD τ sig) → Buf (Elt Ideal) ℓ) (ρ : Dev nD → PrngReg)

/-- The messages of all edges, the first feature set's in columns 0 to 255 and the second's in columns 256 to 511,
    from the arrays as the region finds them: the two edge-feature arrays, the two pairs of weight matrices and the
    gathered source-node features. -/
def msgs (c : Dev nD) : S51200x512.Idx → EReal := fun i =>
  joinCols
    (edgeAt (E := 51200) (K := 1568) (H := 256) (V m c main_arg1) (V m c main_v24) (V m c main_v26) (V m c main_v22))
    (edgeAt (E := 51200) (K := 224) (H := 256) (V m c main_arg2) (V m c main_v28) (V m c main_v30) (V m c main_v22))
    (i 0) (i 1)

theorem hz : (![0, 0] : Fin 2 → Nat) = fun _ => 0 := funext fun a => by fin_cases a <;> rfl

/-- The printed index maps over the fifty grid points: the three edge-indexed inputs and the output move down one
    block of rows per point, and the four weight matrices stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks as parts of their arrays -/

/-- Row `p` of the first feature array's block at point `t` is row `1024 t + p` of the array. -/
theorem iblk0_at (c : Dev nD) (t : Fin cfg0.N) (p : Fin 1024) (l : Fin 1568) (e : Fin 51200) (he : e.val = 1024 * t.val + p.val) :
    (iblk m c 0 t : S1024x1568.Idx → EReal) (ix2 p l) = (V m c main_arg1 : S51200x1568.Idx → EReal) (ix2 e l) := by
  obtain ⟨e0, e1, -⟩ := idx_facts t
  unfold iblk
  rw [View.read_apply]
  show V m c main_arg1 _ = V m c main_arg1 _
  refine congrArg (V m c main_arg1) (funext fun a => Fin.ext ?_)
  match a with
  | ⟨0, _⟩ => show win0_0.index t (0 : Fin 2) * 1024 + 1 * p.val = e.val; rw [e0, he]; omega
  | ⟨1, _⟩ => show win0_0.index t (1 : Fin 2) * 1568 + 1 * l.val = l.val; rw [e1]; omega

/-- Row `p` of the second feature array's block at point `t` is row `1024 t + p` of the array. -/
theorem iblk1_at (c : Dev nD) (t : Fin cfg0.N) (p : Fin 1024) (l : Fin 224) (e : Fin 51200) (he : e.val = 1024 * t.val + p.val) :
    (iblk m c 1 t : S1024x224.Idx → EReal) (ix2 p l) = (V m c main_arg2 : S51200x224.Idx → EReal) (ix2 e l) := by
  obtain ⟨-, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 2) * 1024 + 1 * p.val = e.val; rw [e0, he]; omega
  | ⟨1, _⟩ => show win0_1.index t (1 : Fin 2) * 224 + 1 * l.val = l.val; rw [e1]; omega

/-- Row `p` of the source-node features' block at point `t` is row `1024 t + p` of the array. -/
theorem iblk2_at (c : Dev nD) (t : Fin cfg0.N) (p : Fin 1024) (q : Fin 256) (e : Fin 51200) (he : e.val = 1024 * t.val + p.val) :
    (iblk m c 2 t : S1024x256.Idx → EReal) (ix2 p q) = (V m c main_v22 : S51200x256.Idx → EReal) (ix2 e q) := by
  obtain ⟨-, -, -, -, e0, e1, -⟩ := idx_facts t
  unfold iblk
  rw [View.read_apply]
  show V m c main_v22 _ = V m c main_v22 _
  refine congrArg (V m c main_v22) (funext fun a => Fin.ext ?_)
  match a with
  | ⟨0, _⟩ => show win0_2.index t (0 : Fin 2) * 1024 + 1 * p.val = e.val; rw [e0, he]; omega
  | ⟨1, _⟩ => show win0_2.index t (1 : Fin 2) * 256 + 1 * q.val = q.val; rw [e1]; omega

/-- The block of a weight matrix is the whole matrix, at every point. -/
theorem iblk3_at (c : Dev nD) (t : Fin cfg0.N) (l : Fin 1568) (k : Fin 256) :
    (iblk m c 3 t : S1568x256.Idx → EReal) (ix2 l k) = (V m c main_v24 : S1568x256.Idx → EReal) (ix2 l k) := by
  obtain ⟨-, -, -, -, -, -, e0, e1, -⟩ := idx_facts t
  unfold iblk
  rw [View.read_apply]
  show V m c main_v24 _ = V m c main_v24 _
  refine congrArg (V m c main_v24) (funext fun a => Fin.ext ?_)
  match a with
  | ⟨0, _⟩ => show win0_3.index t (0 : Fin 2) * 1568 + 1 * l.val = l.val; rw [e0]; omega
  | ⟨1, _⟩ => show win0_3.index t (1 : Fin 2) * 256 + 1 * k.val = k.val; rw [e1]; omega

theorem iblk4_at (c : Dev nD) (t : Fin cfg0.N) (l : Fin 256) (k : Fin 256) :
    (iblk m c 4 t : S256x256.Idx → EReal) (ix2 l k) = (V m c main_v26 : S256x256.Idx → EReal) (ix2 l k) := by
  obtain ⟨-, -, -, -, -, -, -, -, e0, e1, -⟩ := idx_facts t
  unfold iblk
  rw [View.read_apply]
  show V m c main_v26 _ = V m c main_v26 _
  refine congrArg (V m c main_v26) (funext fun a => Fin.ext ?_)
  match a with
  | ⟨0, _⟩ => show win0_4.index t (0 : Fin 2) * 256 + 1 * l.val = l.val; rw [e0]; omega
  | ⟨1, _⟩ => show win0_4.index t (1 : Fin 2) * 256 + 1 * k.val = k.val; rw [e1]; omega

theorem iblk5_at (c : Dev nD) (t : Fin cfg0.N) (l : Fin 224) (k : Fin 256) :
    (iblk m c 5 t : S224x256.Idx → EReal) (ix2 l k) = (V m c main_v28 : S224x256.Idx → EReal) (ix2 l k) := by
  obtain ⟨-, -, -, -, -, -, -, -, -, -, e0, e1, -⟩ := idx_facts t
  unfold iblk
  rw [View.read_apply]
  show V m c main_v28 _ = V m c main_v28 _
  refine congrArg (V m c main_v28) (funext fun a => Fin.ext ?_)
  match a with
  | ⟨0, _⟩ => show win0_5.index t (0 : Fin 2) * 224 + 1 * l.val = l.val; rw [e0]; omega
  | ⟨1, _⟩ => show win0_5.index t (1 : Fin 2) * 256 + 1 * k.val = k.val; rw [e1]; omega

theorem iblk6_at (c : Dev nD) (t : Fin cfg0.N) (l : Fin 256) (k : Fin 256) :
    (iblk m c 6 t : S256x256.Idx → EReal) (ix2 l k) = (V m c main_v30 : S256x256.Idx → EReal) (ix2 l k) := by
  obtain ⟨-, -, -, -, -, -, -, -, -, -, -, -, e0, e1, -⟩ := idx_facts t
  unfold iblk
  rw [View.read_apply]
  show V m c main_v30 _ = V m c main_v30 _
  refine congrArg (V m c main_v30) (funext fun a => Fin.ext ?_)
  match a with
  | ⟨0, _⟩ => show win0_6.index t (0 : Fin 2) * 256 + 1 * l.val = l.val; rw [e0]; omega
  | ⟨1, _⟩ => show win0_6.index t (1 : Fin 2) * 256 + 1 * k.val = k.val; rw [e1]; omega

/-! ## What a point writes back -/

/-- The block the body leaves at point `t`, at an index `y`, is the array of messages at the index of the result array
    that `y` is written back to. -/
theorem out_at (c : Dev nD) (t : Fin cfg0.N) (y : S1024x512.Idx) :
    out0_7 (F := Ideal) (iblk m c 0 t) (iblk m c 1 t) (iblk m c 2 t) (iblk m c 3 t) (iblk m c 4 t) (iblk m c 5 t) (iblk m c 6 t) y
      = msgs m c (((cfg0.win 7).blk t).view.emb y) := by
  obtain ⟨p, j, rfl⟩ : ∃ (p : Fin 1024) (j : Fin 512), y = ix2 p j := ⟨y 0, y 1, eq_ix2 y⟩
  obtain ⟨-, -, -, -, -, -, -, -, -, -, -, -, -, -, e0, e1⟩ := idx_facts t
  have hN : cfg0.N = 50 := N_0
  have ht : t.val < 50 := hN ▸ t.isLt
  have he0 : ((((cfg0.win 7).blk t).view.emb (ix2 p j) : S51200x512.Idx) 0).val = 1024 * t.val + p.val := by
    show win0_7.index t (0 : Fin 2) * 1024 + 1 * p.val = _
    rw [e0]; omega
  have he1 : ((((cfg0.win 7).blk t).view.emb (ix2 p j) : S51200x512.Idx) 1).val = j.val := by
    show win0_7.index t (1 : Fin 2) * 512 + 1 * j.val = _
    rw [e1]; omega
  unfold out0_7
  simp only [View.ld_unit_zero (S := S1024x1568) hz, View.ld_unit_zero (S := S1024x224) hz, View.ld_unit_zero (S := S1024x256) hz,
    View.ld_unit_zero (S := S1568x256) hz, View.ld_unit_zero (S := S256x256) hz, View.ld_unit_zero (S := S224x256) hz]
  refine (out_block_apply _ _ _ _ _ _ _ p j).trans ?_
  unfold msgs
  refine joinCols_congr _ _ _ _ p _ (fun q => ?_) (fun q => ?_) j _ (Fin.ext he1.symm)
  · exact edgeAt_congr _ _ _ _ _ _ _ _ p _ q (fun l => iblk0_at m c t p l _ he0) (fun l k => iblk3_at m c t l k)
      (fun l k => iblk4_at m c t l k) (iblk2_at m c t p q _ he0)
  · exact edgeAt_congr _ _ _ _ _ _ _ _ p _ q (fun l => iblk1_at m c t p l _ he0) (fun l k => iblk5_at m c t l k)
      (fun l k => iblk6_at m c t l k) (iblk2_at m c t p q _ he0)

/-- What point `t` writes back is block `t` of the array of messages. -/
theorem flushed_eq (c : Dev nD) (t : Fin cfg0.N) :
    (dats m 0 c).flushed 7 t = ((cfg0.win 7).blk t).view.read (Elt Ideal) (msgs m c) := by
  show (cfg0.win 7).cut (grid0.coords t) ((dats m 0 c).after 7 t) = _
  rw [after0_7]
  funext y
  exact out_at m c t y

/-! ## The blocks tile the array -/

/-- An index of the result array is in point `t`'s block iff each coordinate is in the block's range on its axis. -/
theorem mem_blk (t : Fin cfg0.N) (i : S51200x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v31).slice (win0_7.rect t)).set ↔ _
  rw [View.set_slice_whole, Rect.mem_set_unit]
  exact Iff.rfl

/-- Row `r` of the result array is in the block of point `r / 1024`. -/
theorem cover (i : S51200x512.Idx) : ∃ t : Fin cfg0.N, (cfg0.win 7).flush t = true ∧ i ∈ ((cfg0.win 7).blk t).view.set := by
  have h0 : (i 0).val < 51200 := (i 0).isLt
  have h1 : (i 1).val < 512 := (i 1).isLt
  have hN : cfg0.N = 50 := N_0
  have hlt : (i 0).val / 1024 < cfg0.N := by rw [hN]; omega
  obtain ⟨-, -, -, -, -, -, -, -, -, -, -, -, -, -, e0, e1⟩ := idx_facts ⟨(i 0).val / 1024, hlt⟩
  refine ⟨⟨(i 0).val / 1024, hlt⟩, flush0_7 _, ?_⟩
  rw [mem_blk]
  intro a
  match a with
  | ⟨0, _⟩ =>
    show win0_7.index ⟨(i 0).val / 1024, hlt⟩ (0 : Fin 2) * 1024 ≤ (i 0).val ∧ (i 0).val < win0_7.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, hlt⟩ (1 : Fin 2) * 512 ≤ (i 1).val ∧ (i 1).val < win0_7.index ⟨(i 0).val / 1024, hlt⟩ (1 : Fin 2) * 512 + 512
    rw [e1]
    omega

/-- After the region the result array is the array of messages. -/
theorem final (c : Dev nD) : (dats m 0 c).arrAt 7 cfg0.N = msgs m c :=
  (dats m 0 c).arrAt_eq_of_cover 7 (msgs m c) (fun t _ => flushed_eq m c t) cover

end Cert.EdgeMix.KVal

end
-- ==== Proof.LibRows.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.LibRowSum.lean ====
/-
  A scatter that adds rows onto a matrix, read at one entry as a sum over the rows that land there.

  Update row `e` of `u : [R, C]` lands on row `idx[e, 0]` (read signed, not clamped) of the operand `[N, C]`, its
  columns kept. So update entry `(e, c')` lands on operand entry `(p, c)` exactly when `idx[e, 0] = p` and `c' = c`,
  and the scattered sum at `(p, c)` is the operand's entry plus the sum, over the update rows `e` whose row number is
  `p`, of `u[e, c]`. The set of those rows does not depend on the column nor on the number of columns: two scatters of
  different widths at the same row numbers sum over the same rows.
-/
import proofs.«104348_j82652350644686_2_alg».proof.Proof.LibRows
import Idealize.ShloMosaic.PureOps.Ideal.Laws

noncomputable section

namespace Cert.LibRowSum

open Idealize.ShloMosaic Idealize.ShloMosaic.ValueIdx Cert.LibRows
open scoped BigOperators

/-- The update rows whose row number, read signed, is `p`. -/
def rowsAt {R w : ℕ} (idx : IVec ⟨2, ![R, 1]⟩ w) (p : ℕ) : Finset (Fin R) :=
  Finset.univ.filter fun e : Fin R => (idx (ix2 e 0)).toInt = (p : Int)

/-- WHERE A SCATTERED ROW LANDS, both ways: update entry `j` lands at operand index `i` exactly when `j`'s row number,
    read signed, is `i`'s row and the columns agree. -/
theorem rowsScatter_lands_iff {N R C w : ℕ} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowsScatter N R C wf).resultIdx? j idx = some i
      ↔ (idx (ix2 (j 0) 0)).toInt = ((i 0).val : Int) ∧ (j 1).val = (i 1).val := by
  constructor
  · intro h
    have := scatter_rows_result wf idx j i h
    exact ⟨this.1, this.2.symm⟩
  · rintro ⟨h0, h1⟩
    have hi0 := (i 0).isLt
    have hi1 := (i 1).isLt
    have hs0 := rowsScatter_start_row wf idx j
    have hw0 := rowsScatter_window_row wf j
    have hs1 := rowsScatter_start_col wf idx j
    have hw1 := rowsScatter_window_col wf j
    have hin : ∀ a, 0 ≤ (rowsScatter N R C wf).start j idx a + ((rowsScatter N R C wf).window j a : Int)
        ∧ (rowsScatter N R C wf).start j idx a + ((rowsScatter N R C wf).window j a : Int)
            < ((⟨2, ![N, C]⟩ : Shape).size a : Int) := by
      refine Fin.forall_fin_two.mpr ⟨?_, ?_⟩
      · rw [hs0, hw0, h0]; constructor <;> omega
      · rw [hs1, hw1, h1]; constructor <;> omega
    unfold ScatterDims.resultIdx?
    rw [dif_pos hin]
    refine congrArg some (funext (Fin.forall_fin_two.mpr ⟨Fin.ext ?_, Fin.ext ?_⟩))
    · show ((rowsScatter N R C wf).start j idx 0 + ((rowsScatter N R C wf).window j 0 : Int)).toNat = (i 0).val
      rw [hs0, hw0, h0]; omega
    · show ((rowsScatter N R C wf).start j idx 1 + ((rowsScatter N R C wf).window j 1 : Int)).toNat = (i 1).val
      rw [hs1, hw1, h1]; omega

/-- THE ROW SCATTER-ADD READ AT `(p, c)`: the operand's entry plus the sum over the update rows whose row number is `p`
    of their entry in column `c`. -/
theorem scatterAdd_rows_apply {N R C w : ℕ} (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (c : Fin C) :
    Host.scatterAdd (F := Ideal) (φ := .f32) (rowsScatter N R C wf) z idx upd (ix2 p c)
      = z (ix2 p c) + ∑ e ∈ rowsAt idx p.val, upd (ix2 e c) := by
  show z (ix2 p c) + ∑ j ∈ Finset.univ.filter (fun j => (rowsScatter N R C wf).resultIdx? j idx = some (ix2 p c)), upd j = _
  congr 1
  rw [Finset.filter_congr (fun j _ => rowsScatter_lands_iff wf idx j (ix2 p c)), Finset.sum_filter, sum_idx2]
  unfold rowsAt
  rw [Finset.sum_filter]
  refine Finset.sum_congr rfl fun e _ => ?_
  by_cases he : (idx (ix2 e 0)).toInt = (p.val : Int)
  · rw [if_pos he]
    rw [Finset.sum_eq_single c]
    · rw [if_pos ⟨he, rfl⟩]
    · intro b _ hb
      rw [if_neg]
      rintro ⟨_, h⟩
      exact hb (Fin.ext h)
    · intro h; exact absurd (Finset.mem_univ c) h
  · rw [if_neg he]
    refine Finset.sum_eq_zero fun b _ => ?_
    rw [if_neg]
    rintro ⟨h, _⟩
    exact he h

end Cert.LibRowSum

end
-- ==== Proof.LibScatterCols.lean ====
/-
  A scatter that adds rows onto a matrix, read one column at a time.

  Update row `e` of `u : [R, C]` lands on row `idx[e, 0]` of the operand `[N, C]` with its columns kept, so the result's
  column `c` is the operand's column `c` plus, row by row, the sum of the entries in column `c` of the update rows
  landing there: it does not see any other column, nor the number of columns. Hence two such scatters of different
  widths at the same row numbers agree at every pair of columns where their operands and their updates agree; in
  particular a scatter of two matrices joined along the columns, cut back to one of the two parts, is the scatter of
  that part alone.
-/
import proofs.«104348_j82652350644686_2_alg».proof.Proof.LibRowSum

noncomputable section

namespace Cert.LibScatterCols

open Idealize.ShloMosaic Idealize.ShloMosaic.ValueIdx Cert.LibRows Cert.LibRowSum
open scoped BigOperators

/-- Two row scatter-adds at the same row numbers, of widths `C` and `C'`, agree at `(p, c)` and `(p, c')` as soon as
    the operands agree there and the updates agree on the columns `c` and `c'`: both are the operand's entry plus the
    sum over the update rows landing on row `p` of the update's entry in that column. -/
theorem scatterAdd_rows_col_congr {N R C C' w : ℕ}
    (wf : ScatterDims.WF ⟨2, ![N, C]⟩ ⟨2, ![R, 1]⟩ ⟨2, ![R, C]⟩ [1] [0] [0] 1)
    (wf' : ScatterDims.WF ⟨2, ![N, C']⟩ ⟨2, ![R, 1]⟩ ⟨2, ![R, C']⟩ [1] [0] [0] 1)
    (z : (⟨2, ![N, C]⟩ : Shape).Idx → EReal) (z' : (⟨2, ![N, C']⟩ : Shape).Idx → EReal) (idx : IVec ⟨2, ![R, 1]⟩ w)
    (u : (⟨2, ![R, C]⟩ : Shape).Idx → EReal) (u' : (⟨2, ![R, C']⟩ : Shape).Idx → EReal)
    (p : Fin N) (c : Fin C) (c' : Fin C') (hz : z (ix2 p c) = z' (ix2 p c'))
    (hu : ∀ e : Fin R, u (ix2 e c) = u' (ix2 e c')) :
    Host.scatterAdd (F := Ideal) (φ := .f32) (rowsScatter N R C wf) z idx u (ix2 p c)
      = Host.scatterAdd (F := Ideal) (φ := .f32) (rowsScatter N R C' wf') z' idx u' (ix2 p c') := by
  rw [scatterAdd_rows_apply wf z idx u p c, scatterAdd_rows_apply wf' z' idx u' p c', hz]
  exact congrArg _ (Finset.sum_congr rfl fun e _ => hu e)

end Cert.LibScatterCols

end
-- ==== Proof.RefEdge.lean ====
/-
  The reference's two aggregates, and the kernel program's aggregate cut in two.

  The reference scatters, for each of the two feature sets, the message array `[51200, 256]` (`edgeAt`, EdgeSpec) onto a
  zero matrix `[12800, 256]` at the target-node column. The kernel program scatters ONE array `[51200, 512]` — the two
  message arrays side by side — onto a zero matrix `[12800, 512]` at the same column and cuts the result into its left
  and right 256 columns. A row scatter-add acts on each column by itself (LibScatterCols), so each cut is the
  reference's aggregate of the corresponding message array, whatever the row numbers are.
-/
import proofs.«104348_j82652350644686_2_alg».proof.Proof.ReadP
import proofs.«104348_j82652350644686_2_alg».proof.Proof.EdgeSpec
import proofs.«104348_j82652350644686_2_alg».proof.Proof.LibScatterCols

noncomputable section

namespace Cert.EdgeMix.Ref

open Idealize.ShloMosaic Idealize.ShloMosaic.ValueIdx Cert.EdgeMix
open Cert.ReferenceIdeal Cert.ReferenceIdeal.Read
open scoped BigOperators

/-- The reference's message array read at edge `e` and channel `q`: its two projections are sums over the contracted
    axes and its last operation an entrywise product with the gathered source features. -/
theorem msg1_apply (x0 : (⟨S12800x256, .f32⟩ : BufTy).Contents (Elt Ideal)) (x1 : (⟨S51200x1568, .f32⟩ : BufTy).Contents (Elt Ideal)) (x3 : (⟨S2x51200, .i32⟩ : BufTy).Contents (Elt Ideal)) (x5 : (⟨S256x256, .f32⟩ : BufTy).Contents (Elt Ideal)) (x6 : (⟨S256, .f32⟩ : BufTy).Contents (Elt Ideal)) (x7 : (⟨S256x1568, .f32⟩ : BufTy).Contents (Elt Ideal)) (x8 : (⟨S256x256, .f32⟩ : BufTy).Contents (Elt Ideal)) (e : Fin 51200) (q : Fin 256) :
    val_main_v27 (F := Ideal) x0 x1 x3 x5 x6 x7 x8 (ix2 e q)
      = edgeAt x1 (val_main_v16 (F := Ideal) x7) (val_main_v18 (F := Ideal) x8) (val_main_v26 (F := Ideal) x0 x3 x5 x6) e q := by
  unfold edgeAt
  rw [val_main_v27_apply, Ideal.mulf_def, val_main_v19_apply]
  refine congrArg₂ (· * ·) ?_ rfl
  refine Finset.sum_congr rfl fun k _ => ?_
  rw [val_main_v17_apply]
  have el : ∀ l : Fin 1568, lidx_main_v17 (lidx_main_v19 (ix2 e q) k) l = ix2 e l := fun l =>
    funext fun a => Fin.ext (by match a with | ⟨0, _⟩ => rfl | ⟨1, _⟩ => rfl)
  have er : ∀ l : Fin 1568, ridx_main_v17 (lidx_main_v19 (ix2 e q) k) l = ix2 l k := fun l =>
    funext fun a => Fin.ext (by match a with | ⟨0, _⟩ => rfl | ⟨1, _⟩ => rfl)
  have ek : ridx_main_v19 (ix2 e q) k = ix2 k q :=
    funext fun a => Fin.ext (by match a with | ⟨0, _⟩ => rfl | ⟨1, _⟩ => rfl)
  rw [ek]
  exact congrArg (· * _) (Finset.sum_congr rfl fun l _ => by rw [el l, er l])

/-- The reference's message array read at edge `e` and channel `q`: its two projections are sums over the contracted
    axes and its last operation an entrywise product with the gathered source features. -/
theorem msg2_apply (x0 : (⟨S12800x256, .f32⟩ : BufTy).Contents (Elt Ideal)) (x2 : (⟨S51200x224, .f32⟩ : BufTy).Contents (Elt Ideal)) (x3 : (⟨S2x51200, .i32⟩ : BufTy).Contents (Elt Ideal)) (x5 : (⟨S256x256, .f32⟩ : BufTy).Contents (Elt Ideal)) (x6 : (⟨S256, .f32⟩ : BufTy).Contents (Elt Ideal)) (x9 : (⟨S256x224, .f32⟩ : BufTy).Contents (Elt Ideal)) (x10 : (⟨S256x256, .f32⟩ : BufTy).Contents (Elt Ideal)) (e : Fin 51200) (q : Fin 256) :
    val_main_v62 (F := Ideal) x0 x2 x3 x5 x6 x9 x10 (ix2 e q)
      = edgeAt x2 (val_main_v51 (F := Ideal) x9) (val_main_v53 (F := Ideal) x10) (val_main_v61 (F := Ideal) x0 x3 x5 x6) e q := by
  unfold edgeAt
  rw [val_main_v62_apply, Ideal.mulf_def, val_main_v54_apply]
  refine congrArg₂ (· * ·) ?_ rfl
  refine Finset.sum_congr rfl fun k _ => ?_
  rw [val_main_v52_apply]
  have el : ∀ l : Fin 224, lidx_main_v52 (lidx_main_v54 (ix2 e q) k) l = ix2 e l := fun l =>
    funext fun a => Fin.ext (by match a with | ⟨0, _⟩ => rfl | ⟨1, _⟩ => rfl)
  have er : ∀ l : Fin 224, ridx_main_v52 (lidx_main_v54 (ix2 e q) k) l = ix2 l k := fun l =>
    funext fun a => Fin.ext (by match a with | ⟨0, _⟩ => rfl | ⟨1, _⟩ => rfl)
  have ek : ridx_main_v54 (ix2 e q) k = ix2 k q :=
    funext fun a => Fin.ext (by match a with | ⟨0, _⟩ => rfl | ⟨1, _⟩ => rfl)
  rw [ek]
  exact congrArg (· * _) (Finset.sum_congr rfl fun l _ => by rw [el l, er l])

/-- The left 256 columns cut from the scatter-add of a [51200, 512] array of updates are the scatter-add of those
    columns alone: a row scatter-add acts column by column, and the zero operands agree. Stated over the kernel
    program's printed operations (the array widened from bf16, scattered onto zeros at the target-node column, cut)
    and the reference's aggregate. -/
theorem aggLeft_eq (w : FVec Ideal Cert.KernelIdeal.S51200x512 .bf16) (i3 : IVec Cert.KernelIdeal.S51200 32) (x0 : (⟨S12800x256, .f32⟩ : BufTy).Contents (Elt Ideal)) (x1 : (⟨S51200x1568, .f32⟩ : BufTy).Contents (Elt Ideal)) (x3 : (⟨S2x51200, .i32⟩ : BufTy).Contents (Elt Ideal)) (x5 : (⟨S256x256, .f32⟩ : BufTy).Contents (Elt Ideal)) (x6 : (⟨S256, .f32⟩ : BufTy).Contents (Elt Ideal)) (x7 : (⟨S256x1568, .f32⟩ : BufTy).Contents (Elt Ideal)) (x8 : (⟨S256x256, .f32⟩ : BufTy).Contents (Elt Ideal))
    (hw : ∀ (e : Fin 51200) (q : Fin 256), w (ix2 e ⟨q.val, by have := q.isLt; omega⟩) = val_main_v27 (F := Ideal) x0 x1 x3 x5 x6 x7 x8 (ix2 e q))
    (hi : i3 = val_main_v3 (F := Ideal) x3) :
    (extractStridedSlice Cert.KernelIdeal.S12800x256 ![0, 0]
      (Host.scatterAdd (F := Ideal) Cert.KernelIdeal.scatter_S12800x512_S51200x1_S51200x512_1_0_0_1
        (broadcastInDim Cert.KernelIdeal.S12800x512 ![] Cert.KernelIdeal.Gen.bcast_S_S12800x512 (constant (F := Ideal) Cert.KernelIdeal.S_ .f32 0x00000000#32))
        (broadcastInDim Cert.KernelIdeal.S51200x1 ![0] Cert.KernelIdeal.Gen.bcast_S51200_S51200x1_0 i3)
        (extf .f32 w Cert.KernelIdeal.Gen.bitsLt_bf16_f32))
      Cert.KernelIdeal.Gen.slices_S12800x512_S12800x256_0_0 : FVec Ideal Cert.KernelIdeal.S12800x256 .f32)
    = val_main_v30 (F := Ideal) x0 x1 x3 x5 x6 x7 x8 := by
  subst hi
  funext i
  obtain ⟨p, q, rfl⟩ : ∃ (p : Fin 12800) (q : Fin 256), i = ix2 p q := ⟨i 0, i 1, eq_ix2 i⟩
  refine (extractStridedSlice_apply ![0, 0] _ Cert.KernelIdeal.Gen.slices_S12800x512_S12800x256_0_0 (ix2 p q)
    (ix2 p (⟨q.val, by have := q.isLt; omega⟩ : Fin 512)) (fun a => match a with
      | ⟨0, _⟩ => by show p.val = 0 + p.val; omega
      | ⟨1, _⟩ => by show q.val = 0 + q.val; omega)).trans ?_
  unfold val_main_v30
  exact Cert.LibScatterCols.scatterAdd_rows_col_congr
    Cert.KernelIdeal.Gen.scatter_S12800x512_S51200x1_S51200x512_1_0_0_1_wf Cert.ReferenceIdeal.Gen.scatter_S12800x256_S51200x1_S51200x256_1_0_0_1_wf
    _ _ _ _ _ p ⟨q.val, by have := q.isLt; omega⟩ q rfl (fun e => hw e q)

/-- The right 256 columns cut from the scatter-add of a [51200, 512] array of updates are the scatter-add of those
    columns alone: a row scatter-add acts column by column, and the zero operands agree. Stated over the kernel
    program's printed operations (the array widened from bf16, scattered onto zeros at the target-node column, cut)
    and the reference's aggregate. -/
theorem aggRight_eq (w : FVec Ideal Cert.KernelIdeal.S51200x512 .bf16) (i3 : IVec Cert.KernelIdeal.S51200 32) (x0 : (⟨S12800x256, .f32⟩ : BufTy).Contents (Elt Ideal)) (x2 : (⟨S51200x224, .f32⟩ : BufTy).Contents (Elt Ideal)) (x3 : (⟨S2x51200, .i32⟩ : BufTy).Contents (Elt Ideal)) (x5 : (⟨S256x256, .f32⟩ : BufTy).Contents (Elt Ideal)) (x6 : (⟨S256, .f32⟩ : BufTy).Contents (Elt Ideal)) (x9 : (⟨S256x224, .f32⟩ : BufTy).Contents (Elt Ideal)) (x10 : (⟨S256x256, .f32⟩ : BufTy).Contents (Elt Ideal))
    (hw : ∀ (e : Fin 51200) (q : Fin 256), w (ix2 e ⟨256 + q.val, by have := q.isLt; omega⟩) = val_main_v62 (F := Ideal) x0 x2 x3 x5 x6 x9 x10 (ix2 e q))
    (hi : i3 = val_main_v3 (F := Ideal) x3) :
    (extractStridedSlice Cert.KernelIdeal.S12800x256 ![0, 256]
      (Host.scatterAdd (F := Ideal) Cert.KernelIdeal.scatter_S12800x512_S51200x1_S51200x512_1_0_0_1
        (broadcastInDim Cert.KernelIdeal.S12800x512 ![] Cert.KernelIdeal.Gen.bcast_S_S12800x512 (constant (F := Ideal) Cert.KernelIdeal.S_ .f32 0x00000000#32))
        (broadcastInDim Cert.KernelIdeal.S51200x1 ![0] Cert.KernelIdeal.Gen.bcast_S51200_S51200x1_0 i3)
        (extf .f32 w Cert.KernelIdeal.Gen.bitsLt_bf16_f32))
      Cert.KernelIdeal.Gen.slices_S12800x512_S12800x256_0_256 : FVec Ideal Cert.KernelIdeal.S12800x256 .f32)
    = val_main_v65 (F := Ideal) x0 x2 x3 x5 x6 x9 x10 := by
  subst hi
  funext i
  obtain ⟨p, q, rfl⟩ : ∃ (p : Fin 12800) (q : Fin 256), i = ix2 p q := ⟨i 0, i 1, eq_ix2 i⟩
  refine (extractStridedSlice_apply ![0, 256] _ Cert.KernelIdeal.Gen.slices_S12800x512_S12800x256_0_256 (ix2 p q)
    (ix2 p (⟨256 + q.val, by have := q.isLt; omega⟩ : Fin 512)) (fun a => match a with
      | ⟨0, _⟩ => by show p.val = 0 + p.val; omega
      | ⟨1, _⟩ => by show 256 + q.val = 256 + q.val; omega)).trans ?_
  unfold val_main_v65
  exact Cert.LibScatterCols.scatterAdd_rows_col_congr
    Cert.KernelIdeal.Gen.scatter_S12800x512_S51200x1_S51200x512_1_0_0_1_wf Cert.ReferenceIdeal.Gen.scatter_S12800x256_S51200x1_S51200x256_1_0_0_1_wf
    _ _ _ _ _ p ⟨256 + q.val, by have := q.isLt; omega⟩ q rfl (fun e => hw e q)

end Cert.EdgeMix.Ref

end
-- ==== Proof.TailValue.lean ====
/-
  The operations the kernel program runs after its aggregation compute the reference's value.

  After the two aggregates (one per edge-feature set) both programs run the same text: each aggregate through its
  convolution's linear maps and the branch's own linear map, the activation u ↦ u · (1 / (1 + exp (-u))), the two
  branches joined and mapped, the entry projection added, three residual layers, the normalisation by graph (mean,
  centring, inverse deviation, scale and shift) and the final linear map. Operation by operation the two lists carry
  the same functions on the same operands, so the kernel program's result is the reference's last stage as soon as
  the aggregates, the entry projection and the arguments agree.

  As a tree over its leaves the result repeats the shared intermediate values hundreds of times (each residual layer
  reads its input three times, the normalisation reads the rows several more), so the line is cut at the values that
  are read more than once, and each cut value is carried by the name of the reference stage it equals: a piece is a
  dozen operations whose composed term, over those names, is the next stage by unfolding.
-/
import proofs.«104348_j82652350644686_2_alg».proof.Proof.Gen.KernelIdeal.Launch
import proofs.«104348_j82652350644686_2_alg».proof.Proof.ReadP
import Idealize.ShloMosaic.Lib.StableHlo.Run

set_option maxRecDepth 8192

noncomputable section

namespace Cert.EdgeMix.Tail

open Idealize.ShloMosaic Idealize.ShloMosaic.StableHlo Idealize.ShloMosaic.TcCoe
open Cert.KernelIdeal Cert.KernelIdeal.Gen
open Cert.ReferenceIdeal.Read (val_main_v15 val_main_v30 val_main_v65 val_main_v43 val_main_v50 val_main_v78 val_main_v85 val_main_v92 val_main_v101 val_main_v109 val_main_v118 val_main_v126 val_main_v135 val_main_v143 val_main_v147 val_main_cst_18 val_main_v148 val_main_v149 val_main_v154 val_main_v165 val_main_v174 val_main_v193)

variable {F : FTy → Type} [FloatOps F]

/-! ## Cutting a line of operations -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The stretch of a line from position i, k operations long. -/
abbrev slice {α : Type} (l : List α) (i k : Nat) : List α := (l.drop i).take k

theorem mem_of_mem_slice {α : Type} {l : List α} {i k : Nat} {a : α} (h : a ∈ slice l i k) : a ∈ l :=
  List.mem_of_mem_drop (List.mem_of_mem_take h)

/-! ## The buffers the stretch reads and never writes -/

/-- The arguments the stretch reads, and the entry projection computed before the region. -/
abbrev leafRefs : List (Ref sig .tc) :=
  [main_arg4, main_arg11, main_arg12, main_arg13, main_arg14, main_arg15, main_arg16, main_arg17, main_arg18, main_arg19,
   main_arg20, main_arg21, main_arg22, main_arg23, main_arg24, main_arg25, main_arg26, main_arg27, main_arg28, main_arg29,
   main_v15]

/-- An operation whose one result buffer is none of them writes none of them. -/
theorem not_written {y : Ref sig .tc} (hy : y ∉ leafRefs) :
    ∀ r ∈ leafRefs, Proc.devRef (τ := τ) .tc r ∉ ({Proc.devRef .tc y} : Finset (DevRef τ sig)) :=
  fun r hr h => hy (Proc.devRef_injective _ (Finset.mem_singleton.mp h) ▸ hr)

set_option maxHeartbeats 4000000 in
theorem hostOps1_leaf : (hostOps1 : List (HloOp τ sig (Elt F))).Forall fun op =>
    ∀ r ∈ leafRefs, Proc.devRef (τ := τ) .tc r ∉ op.writes := by
  simp only [hostOps1, List.Forall, nullary_writes, unary_writes, binary_writes, ternary_writes, reshape_writes]
  repeat' apply And.intro
  all_goals exact not_written (by decide)

theorem hostOps1_1_leaf : (hostOps1_1 : List (HloOp τ sig (Elt F))).Forall fun op =>
    ∀ r ∈ leafRefs, Proc.devRef (τ := τ) .tc r ∉ op.writes := by
  simp only [hostOps1_1, StableHlo.TRef.unary, StableHlo.TRef.binary, List.Forall, nullary_writes, unary_writes, binary_writes, ternary_writes, reshape_writes]
  repeat' apply And.intro
  all_goals exact not_written (by decide)

set_option maxHeartbeats 4000000 in
theorem hostOps1_2_leaf : (hostOps1_2 : List (HloOp τ sig (Elt F))).Forall fun op =>
    ∀ r ∈ leafRefs, Proc.devRef (τ := τ) .tc r ∉ op.writes := by
  simp only [hostOps1_2, List.Forall, nullary_writes, unary_writes, binary_writes, ternary_writes, reshape_writes]
  repeat' apply And.intro
  all_goals exact not_written (by decide)

/-- A line drawn from one that writes none of those buffers leaves each of them as it was. -/
theorem keep_of_forall {l ops : List (HloOp τ sig (Elt F))}
    (hl : l.Forall fun op => ∀ r ∈ leafRefs, Proc.devRef (τ := τ) .tc r ∉ op.writes)
    (hsub : ∀ op ∈ ops, op ∈ l) (V : Valuation τ sig (Elt F)) {r : Ref sig .tc} (hr : r ∈ leafRefs) :
    after ops V (Proc.devRef .tc r) = V (Proc.devRef .tc r) :=
  after_of_forall_not_mem ops V fun op hop => (List.forall_iff_forall_mem.mp hl) op (hsub op hop) r hr

theorem keep1 (i k : Nat) (V : Valuation τ sig (Elt F)) {r : Ref sig .tc} (hr : r ∈ leafRefs) :
    after (slice (hostOps1 (F := F)) i k) V (no_index (Proc.devRef .tc r)) = V (Proc.devRef .tc r) :=
  keep_of_forall hostOps1_leaf (fun _ h => mem_of_mem_slice h) V hr
theorem keep11 (V : Valuation τ sig (Elt F)) {r : Ref sig .tc} (hr : r ∈ leafRefs) :
    after (hostOps1_1 (F := F)) V (no_index (Proc.devRef .tc r)) = V (Proc.devRef .tc r) :=
  keep_of_forall hostOps1_1_leaf (fun _ h => h) V hr
theorem keep12 (i k : Nat) (V : Valuation τ sig (Elt F)) {r : Ref sig .tc} (hr : r ∈ leafRefs) :
    after (slice (hostOps1_2 (F := F)) i k) V (no_index (Proc.devRef .tc r)) = V (Proc.devRef .tc r) :=
  keep_of_forall hostOps1_2_leaf (fun _ h => mem_of_mem_slice h) V hr

/-- The stretch, cut at the values that are used more than once. -/
theorem stretch_eq : List.drop 7 (hostOps1 (F := F)) ++ hostOps1_1 ++ hostOps1_2
    = slice hostOps1 7 13 ++ (slice hostOps1 20 9 ++ (slice hostOps1 29 13 ++ (slice hostOps1 42 9 ++ (slice hostOps1 51 7
      ++ (slice hostOps1 58 9 ++ (slice hostOps1 67 10 ++ (slice hostOps1 77 9 ++ (slice hostOps1 86 10 ++ (slice hostOps1 96 9
      ++ (slice hostOps1 105 10 ++ (slice hostOps1 115 7 ++ (hostOps1_1 ++ (slice hostOps1_2 0 7 ++ (slice hostOps1_2 7 13
      ++ (slice hostOps1_2 20 11 ++ slice hostOps1_2 31 21))))))))))))))) := rfl

/-! ## The pieces

Each piece is a short run of operations that reads the values computed before it through their reference names and
computes the next value used more than once; the two sides are then the same operations on the same operands. -/

section Pieces

variable {x0 : (⟨S12800x256, .f32⟩ : BufTy).Contents (Elt F)}
  {x1 : (⟨S51200x1568, .f32⟩ : BufTy).Contents (Elt F)}
  {x2 : (⟨S51200x224, .f32⟩ : BufTy).Contents (Elt F)}
  {x3 : (⟨S2x51200, .i32⟩ : BufTy).Contents (Elt F)}
  {x4 : (⟨S12800, .i32⟩ : BufTy).Contents (Elt F)}
  {x5 : (⟨S256x256, .f32⟩ : BufTy).Contents (Elt F)}
  {x6 : (⟨S256, .f32⟩ : BufTy).Contents (Elt F)}
  {x7 : (⟨S256x1568, .f32⟩ : BufTy).Contents (Elt F)}
  {x8 : (⟨S256x256, .f32⟩ : BufTy).Contents (Elt F)}
  {x9 : (⟨S256x224, .f32⟩ : BufTy).Contents (Elt F)}
  {x10 : (⟨S256x256, .f32⟩ : BufTy).Contents (Elt F)}
  {x11 : (⟨S256x256, .f32⟩ : BufTy).Contents (Elt F)}
  {x12 : (⟨S256, .f32⟩ : BufTy).Contents (Elt F)}
  {x13 : (⟨S256x256, .f32⟩ : BufTy).Contents (Elt F)}
  {x14 : (⟨S256x256, .f32⟩ : BufTy).Contents (Elt F)}
  {x15 : (⟨S256, .f32⟩ : BufTy).Contents (Elt F)}
  {x16 : (⟨S256x256, .f32⟩ : BufTy).Contents (Elt F)}
  {x17 : (⟨S256x256, .f32⟩ : BufTy).Contents (Elt F)}
  {x18 : (⟨S256, .f32⟩ : BufTy).Contents (Elt F)}
  {x19 : (⟨S256x256, .f32⟩ : BufTy).Contents (Elt F)}
  {x20 : (⟨S256, .f32⟩ : BufTy).Contents (Elt F)}
  {x21 : (⟨S256x512, .f32⟩ : BufTy).Contents (Elt F)}
  {x22 : (⟨S256, .f32⟩ : BufTy).Contents (Elt F)}
  {x23 : (⟨S3x256x256, .f32⟩ : BufTy).Contents (Elt F)}
  {x24 : (⟨S3x256, .f32⟩ : BufTy).Contents (Elt F)}
  {x25 : (⟨S256, .f32⟩ : BufTy).Contents (Elt F)}
  {x26 : (⟨S256, .f32⟩ : BufTy).Contents (Elt F)}
  {x27 : (⟨S256, .f32⟩ : BufTy).Contents (Elt F)}
  {x28 : (⟨S256x256, .f32⟩ : BufTy).Contents (Elt F)}
  {x29 : (⟨S256, .f32⟩ : BufTy).Contents (Elt F)}

/-- The first branch before its activation: the aggregate through the convolution's two linear maps, then the branch's own linear map. -/
theorem piece1 (V : Valuation τ sig (Elt F))
    (h11 : V (Proc.devRef .tc main_arg11) = x11) (h12 : V (Proc.devRef .tc main_arg12) = x12)
    (h13 : V (Proc.devRef .tc main_arg13) = x13) (h17 : V (Proc.devRef .tc main_arg17) = x17)
    (h18 : V (Proc.devRef .tc main_arg18) = x18) (hv15 : V (Proc.devRef .tc main_v15) = val_main_v15 (F := F) x0 x5 x6)
    (hv36 : V (Proc.devRef .tc main_v36) = val_main_v30 (F := F) x0 x1 x3 x5 x6 x7 x8) :
    after (slice (hostOps1 (F := F)) 7 13) V (Proc.devRef .tc main_v50)
      = val_main_v43 (F := F) x0 x1 x3 x5 x6 x7 x8 x11 x12 x13 x17 x18 := by
  simp only [slice, hostOps1, List.drop_succ_cons, List.drop_zero, List.take_succ_cons, List.take_zero]
  after_results_simp
  rw [h11, h12, h13, h17, h18, hv15, hv36]
  rfl

/-- The first branch's activation, u ↦ u · (1 / (1 + exp (-u))). -/
theorem piece2 (V : Valuation τ sig (Elt F))
    (hv50 : V (Proc.devRef .tc main_v50) = val_main_v43 (F := F) x0 x1 x3 x5 x6 x7 x8 x11 x12 x13 x17 x18) :
    after (slice (hostOps1 (F := F)) 20 9) V (Proc.devRef .tc main_v57)
      = val_main_v50 (F := F) x0 x1 x3 x5 x6 x7 x8 x11 x12 x13 x17 x18 := by
  simp only [slice, hostOps1, List.drop_succ_cons, List.drop_zero, List.take_succ_cons, List.take_zero]
  after_results_simp
  rw [hv50]
  rfl

/-- The second branch before its activation. -/
theorem piece3 (V : Valuation τ sig (Elt F))
    (h14 : V (Proc.devRef .tc main_arg14) = x14) (h15 : V (Proc.devRef .tc main_arg15) = x15)
    (h16 : V (Proc.devRef .tc main_arg16) = x16) (h19 : V (Proc.devRef .tc main_arg19) = x19)
    (h20 : V (Proc.devRef .tc main_arg20) = x20) (hv15 : V (Proc.devRef .tc main_v15) = val_main_v15 (F := F) x0 x5 x6)
    (hv37 : V (Proc.devRef .tc main_v37) = val_main_v65 (F := F) x0 x2 x3 x5 x6 x9 x10) :
    after (slice (hostOps1 (F := F)) 29 13) V (Proc.devRef .tc main_v70)
      = val_main_v78 (F := F) x0 x2 x3 x5 x6 x9 x10 x14 x15 x16 x19 x20 := by
  simp only [slice, hostOps1, List.drop_succ_cons, List.drop_zero, List.take_succ_cons, List.take_zero]
  after_results_simp
  rw [h14, h15, h16, h19, h20, hv15, hv37]
  rfl

/-- The second branch's activation. -/
theorem piece4 (V : Valuation τ sig (Elt F))
    (hv70 : V (Proc.devRef .tc main_v70) = val_main_v78 (F := F) x0 x2 x3 x5 x6 x9 x10 x14 x15 x16 x19 x20) :
    after (slice (hostOps1 (F := F)) 42 9) V (Proc.devRef .tc main_v77)
      = val_main_v85 (F := F) x0 x2 x3 x5 x6 x9 x10 x14 x15 x16 x19 x20 := by
  simp only [slice, hostOps1, List.drop_succ_cons, List.drop_zero, List.take_succ_cons, List.take_zero]
  after_results_simp
  rw [hv70]
  rfl

/-- The two branches joined side by side, through the joint linear map, plus the entry projection. -/
theorem piece5 (V : Valuation τ sig (Elt F))
    (h21 : V (Proc.devRef .tc main_arg21) = x21) (h22 : V (Proc.devRef .tc main_arg22) = x22)
    (hv15 : V (Proc.devRef .tc main_v15) = val_main_v15 (F := F) x0 x5 x6) (hv57 : V (Proc.devRef .tc main_v57) = val_main_v50 (F := F) x0 x1 x3 x5 x6 x7 x8 x11 x12 x13 x17 x18)
    (hv77 : V (Proc.devRef .tc main_v77) = val_main_v85 (F := F) x0 x2 x3 x5 x6 x9 x10 x14 x15 x16 x19 x20) :
    after (slice (hostOps1 (F := F)) 51 7) V (Proc.devRef .tc main_v84)
      = val_main_v92 (F := F) x0 x1 x2 x3 x5 x6 x7 x8 x9 x10 x11 x12 x13 x14 x15 x16 x17 x18 x19 x20 x21 x22 := by
  simp only [slice, hostOps1, List.drop_succ_cons, List.drop_zero, List.take_succ_cons, List.take_zero]
  after_results_simp
  rw [h21, h22, hv15, hv57, hv77]
  rfl

/-- Residual layer one before its activation: the layer's slice of the stacked weights and biases applied to the layer's input. -/
theorem piece6 (V : Valuation τ sig (Elt F))
    (h23 : V (Proc.devRef .tc main_arg23) = x23) (h24 : V (Proc.devRef .tc main_arg24) = x24)
    (hvin : V (Proc.devRef .tc main_v84) = val_main_v92 (F := F) x0 x1 x2 x3 x5 x6 x7 x8 x9 x10 x11 x12 x13 x14 x15 x16 x17 x18 x19 x20 x21 x22) :
    after (slice (hostOps1 (F := F)) 58 9) V (Proc.devRef .tc main_v93)
      = val_main_v101 (F := F) x0 x1 x2 x3 x5 x6 x7 x8 x9 x10 x11 x12 x13 x14 x15 x16 x17 x18 x19 x20 x21 x22 x23 x24 := by
  simp only [slice, hostOps1, List.drop_succ_cons, List.drop_zero, List.take_succ_cons, List.take_zero]
  after_results_simp
  rw [h23, h24, hvin]
  rfl

/-- Residual layer one: the activation of that value, plus the layer's input. -/
theorem piece7 (V : Valuation τ sig (Elt F))
    (hvpre : V (Proc.devRef .tc main_v93) = val_main_v101 (F := F) x0 x1 x2 x3 x5 x6 x7 x8 x9 x10 x11 x12 x13 x14 x15 x16 x17 x18 x19 x20 x21 x22 x23 x24) (hvin : V (Proc.devRef .tc main_v84) = val_main_v92 (F := F) x0 x1 x2 x3 x5 x6 x7 x8 x9 x10 x11 x12 x13 x14 x15 x16 x17 x18 x19 x20 x21 x22) :
    after (slice (hostOps1 (F := F)) 67 10) V (Proc.devRef .tc main_v101)
      = val_main_v109 (F := F) x0 x1 x2 x3 x5 x6 x7 x8 x9 x10 x11 x12 x13 x14 x15 x16 x17 x18 x19 x20 x21 x22 x23 x24 := by
  simp only [slice, hostOps1, List.drop_succ_cons, List.drop_zero, List.take_succ_cons, List.take_zero]
  after_results_simp
  rw [hvpre, hvin]
  rfl

/-- Residual layer two before its activation: the layer's slice of the stacked weights and biases applied to the layer's input. -/
theorem piece8 (V : Valuation τ sig (Elt F))
    (h23 : V (Proc.devRef .tc main_arg23) = x23) (h24 : V (Proc.devRef .tc main_arg24) = x24)
    (hvin : V (Proc.devRef .tc main_v101) = val_main_v109 (F := F) x0 x1 x2 x3 x5 x6 x7 x8 x9 x10 x11 x12 x13 x14 x15 x16 x17 x18 x19 x20 x21 x22 x23 x24) :
    after (slice (hostOps1 (F := F)) 77 9) V (Proc.devRef .tc main_v110)
      = val_main_v118 (F := F) x0 x1 x2 x3 x5 x6 x7 x8 x9 x10 x11 x12 x13 x14 x15 x16 x17 x18 x19 x20 x21 x22 x23 x24 := by
  simp only [slice, hostOps1, List.drop_succ_cons, List.drop_zero, List.take_succ_cons, List.take_zero]
  after_results_simp
  rw [h23, h24, hvin]
  rfl

/-- Residual layer two: the activation of that value, plus the layer's input. -/
theorem piece9 (V : Valuation τ sig (Elt F))
    (hvpre : V (Proc.devRef .tc main_v110) = val_main_v118 (F := F) x0 x1 x2 x3 x5 x6 x7 x8 x9 x10 x11 x12 x13 x14 x15 x16 x17 x18 x19 x20 x21 x22 x23 x24) (hvin : V (Proc.devRef .tc main_v101) = val_main_v109 (F := F) x0 x1 x2 x3 x5 x6 x7 x8 x9 x10 x11 x12 x13 x14 x15 x16 x17 x18 x19 x20 x21 x22 x23 x24) :
    after (slice (hostOps1 (F := F)) 86 10) V (Proc.devRef .tc main_v118)
      = val_main_v126 (F := F) x0 x1 x2 x3 x5 x6 x7 x8 x9 x10 x11 x12 x13 x14 x15 x16 x17 x18 x19 x20 x21 x22 x23 x24 := by
  simp only [slice, hostOps1, List.drop_succ_cons, List.drop_zero, List.take_succ_cons, List.take_zero]
  after_results_simp
  rw [hvpre, hvin]
  rfl

/-- Residual layer three before its activation: the layer's slice of the stacked weights and biases applied to the layer's input. -/
theorem piece10 (V : Valuation τ sig (Elt F))
    (h23 : V (Proc.devRef .tc main_arg23) = x23) (h24 : V (Proc.devRef .tc main_arg24) = x24)
    (hvin : V (Proc.devRef .tc main_v118) = val_main_v126 (F := F) x0 x1 x2 x3 x5 x6 x7 x8 x9 x10 x11 x12 x13 x14 x15 x16 x17 x18 x19 x20 x21 x22 x23 x24) :
    after (slice (hostOps1 (F := F)) 96 9) V (Proc.devRef .tc main_v127)
      = val_main_v135 (F := F) x0 x1 x2 x3 x5 x6 x7 x8 x9 x10 x11 x12 x13 x14 x15 x16 x17 x18 x19 x20 x21 x22 x23 x24 := by
  simp only [slice, hostOps1, List.drop_succ_cons, List.drop_zero, List.take_succ_cons, List.take_zero]
  after_results_simp
  rw [h23, h24, hvin]
  rfl

/-- Residual layer three: the activation of that value, plus the layer's input. -/
theorem piece11 (V : Valuation τ sig (Elt F))
    (hvpre : V (Proc.devRef .tc main_v127) = val_main_v135 (F := F) x0 x1 x2 x3 x5 x6 x7 x8 x9 x10 x11 x12 x13 x14 x15 x16 x17 x18 x19 x20 x21 x22 x23 x24) (hvin : V (Proc.devRef .tc main_v118) = val_main_v126 (F := F) x0 x1 x2 x3 x5 x6 x7 x8 x9 x10 x11 x12 x13 x14 x15 x16 x17 x18 x19 x20 x21 x22 x23 x24) :
    after (slice (hostOps1 (F := F)) 105 10) V (Proc.devRef .tc main_v135)
      = val_main_v143 (F := F) x0 x1 x2 x3 x5 x6 x7 x8 x9 x10 x11 x12 x13 x14 x15 x16 x17 x18 x19 x20 x21 x22 x23 x24 := by
  simp only [slice, hostOps1, List.drop_succ_cons, List.drop_zero, List.take_succ_cons, List.take_zero]
  after_results_simp
  rw [hvpre, hvin]
  rfl

/-- The number of nodes of each graph: ones added up by graph. -/
theorem piece12 (V : Valuation τ sig (Elt F))
    (h4 : V (Proc.devRef .tc main_arg4) = x4) :
    after (slice (hostOps1 (F := F)) 115 7) V (Proc.devRef .tc main_v139)
      = val_main_v147 (F := F) x4 := by
  simp only [slice, hostOps1, List.drop_succ_cons, List.drop_zero, List.take_succ_cons, List.take_zero]
  after_results_simp
  rw [h4]
  rfl

/-- The lower clamp's bound, one, as the scalar it is broadcast from. -/
theorem piece12_one (V : Valuation τ sig (Elt F)) :
    after (slice (hostOps1 (F := F)) 115 7) V (Proc.devRef .tc main_cst_15) = val_main_cst_18 (F := F) := by
  simp only [slice, hostOps1, List.drop_succ_cons, List.drop_zero, List.take_succ_cons, List.take_zero]
  after_results_simp
  rfl

/-- The counts clamped below by one. -/
theorem piece13 (V : Valuation τ sig (Elt F))
    (hone : V (Proc.devRef .tc main_cst_15) = val_main_cst_18 (F := F)) (hv139 : V (Proc.devRef .tc main_v139) = val_main_v147 (F := F) x4) :
    after (hostOps1_1 (F := F)) V (Proc.devRef .tc main_v140) = val_main_v148 (F := F) x4 := by
  simp only [hostOps1_1, StableHlo.TRef.unary, StableHlo.TRef.binary]
  after_results_simp
  rw [hone, hv139]
  rfl

/-- The clamped counts as a column. -/
theorem piece14_cnt (V : Valuation τ sig (Elt F))
    (hv140 : V (Proc.devRef .tc main_v140) = val_main_v148 (F := F) x4) :
    after (slice (hostOps1_2 (F := F)) 0 7) V (Proc.devRef .tc main_v141)
      = val_main_v149 (F := F) x4 := by
  simp only [slice, hostOps1_2, List.drop_succ_cons, List.drop_zero, List.take_succ_cons, List.take_zero]
  after_results_simp
  rw [hv140]
  rfl

/-- The mean of each graph: the rows added up by graph, over the count. -/
theorem piece14 (V : Valuation τ sig (Elt F))
    (h4 : V (Proc.devRef .tc main_arg4) = x4) (hv140 : V (Proc.devRef .tc main_v140) = val_main_v148 (F := F) x4)
    (hv135 : V (Proc.devRef .tc main_v135) = val_main_v143 (F := F) x0 x1 x2 x3 x5 x6 x7 x8 x9 x10 x11 x12 x13 x14 x15 x16 x17 x18 x19 x20 x21 x22 x23 x24) :
    after (slice (hostOps1_2 (F := F)) 0 7) V (Proc.devRef .tc main_v146)
      = val_main_v154 (F := F) x0 x1 x2 x3 x4 x5 x6 x7 x8 x9 x10 x11 x12 x13 x14 x15 x16 x17 x18 x19 x20 x21 x22 x23 x24 := by
  simp only [slice, hostOps1_2, List.drop_succ_cons, List.drop_zero, List.take_succ_cons, List.take_zero]
  after_results_simp
  rw [h4, hv140, hv135]
  rfl

/-- The rows centred: each row minus the scaled mean of its graph. -/
theorem piece15 (V : Valuation τ sig (Elt F))
    (h4 : V (Proc.devRef .tc main_arg4) = x4) (h27 : V (Proc.devRef .tc main_arg27) = x27)
    (hv135 : V (Proc.devRef .tc main_v135) = val_main_v143 (F := F) x0 x1 x2 x3 x5 x6 x7 x8 x9 x10 x11 x12 x13 x14 x15 x16 x17 x18 x19 x20 x21 x22 x23 x24) (hv146 : V (Proc.devRef .tc main_v146) = val_main_v154 (F := F) x0 x1 x2 x3 x4 x5 x6 x7 x8 x9 x10 x11 x12 x13 x14 x15 x16 x17 x18 x19 x20 x21 x22 x23 x24) :
    after (slice (hostOps1_2 (F := F)) 7 13) V (Proc.devRef .tc main_v157)
      = val_main_v165 (F := F) x0 x1 x2 x3 x4 x5 x6 x7 x8 x9 x10 x11 x12 x13 x14 x15 x16 x17 x18 x19 x20 x21 x22 x23 x24 x27 := by
  simp only [slice, hostOps1_2, List.drop_succ_cons, List.drop_zero, List.take_succ_cons, List.take_zero]
  after_results_simp
  rw [h4, h27, hv135, hv146]
  rfl

/-- The inverse deviation of each graph: the centred squares added up by graph, over the count, plus ε, under the inverse square root. -/
theorem piece16 (V : Valuation τ sig (Elt F))
    (h4 : V (Proc.devRef .tc main_arg4) = x4) (hv141 : V (Proc.devRef .tc main_v141) = val_main_v149 (F := F) x4)
    (hv157 : V (Proc.devRef .tc main_v157) = val_main_v165 (F := F) x0 x1 x2 x3 x4 x5 x6 x7 x8 x9 x10 x11 x12 x13 x14 x15 x16 x17 x18 x19 x20 x21 x22 x23 x24 x27) :
    after (slice (hostOps1_2 (F := F)) 20 11) V (Proc.devRef .tc main_v166)
      = val_main_v174 (F := F) x0 x1 x2 x3 x4 x5 x6 x7 x8 x9 x10 x11 x12 x13 x14 x15 x16 x17 x18 x19 x20 x21 x22 x23 x24 x27 := by
  simp only [slice, hostOps1_2, List.drop_succ_cons, List.drop_zero, List.take_succ_cons, List.take_zero]
  after_results_simp
  rw [h4, hv141, hv157]
  rfl

/-- The normalised rows, scaled and shifted, through the final linear map. -/
theorem piece17 (V : Valuation τ sig (Elt F))
    (h4 : V (Proc.devRef .tc main_arg4) = x4) (h25 : V (Proc.devRef .tc main_arg25) = x25)
    (h26 : V (Proc.devRef .tc main_arg26) = x26) (h28 : V (Proc.devRef .tc main_arg28) = x28)
    (h29 : V (Proc.devRef .tc main_arg29) = x29) (hv157 : V (Proc.devRef .tc main_v157) = val_main_v165 (F := F) x0 x1 x2 x3 x4 x5 x6 x7 x8 x9 x10 x11 x12 x13 x14 x15 x16 x17 x18 x19 x20 x21 x22 x23 x24 x27)
    (hv166 : V (Proc.devRef .tc main_v166) = val_main_v174 (F := F) x0 x1 x2 x3 x4 x5 x6 x7 x8 x9 x10 x11 x12 x13 x14 x15 x16 x17 x18 x19 x20 x21 x22 x23 x24 x27) :
    after (slice (hostOps1_2 (F := F)) 31 21) V (Proc.devRef .tc main_v185)
      = val_main_v193 (F := F) x0 x1 x2 x3 x4 x5 x6 x7 x8 x9 x10 x11 x12 x13 x14 x15 x16 x17 x18 x19 x20 x21 x22 x23 x24 x25 x26 x27 x28 x29 := by
  simp only [slice, hostOps1_2, List.drop_succ_cons, List.drop_zero, List.take_succ_cons, List.take_zero]
  after_results_simp
  rw [h4, h25, h26, h28, h29, hv157, hv166]
  rfl

end Pieces

/-! ## A value passes the pieces that do not write its buffer -/

theorem pass1_v37 (V : Valuation τ sig (Elt F)) :
    after (slice (hostOps1 (F := F)) 7 13) V (Proc.devRef .tc main_v37) = V (Proc.devRef .tc main_v37) := by
  simp only [slice, hostOps1, List.drop_succ_cons, List.drop_zero, List.take_succ_cons, List.take_zero]
  after_results_simp

theorem pass2_v37 (V : Valuation τ sig (Elt F)) :
    after (slice (hostOps1 (F := F)) 20 9) V (Proc.devRef .tc main_v37) = V (Proc.devRef .tc main_v37) := by
  simp only [slice, hostOps1, List.drop_succ_cons, List.drop_zero, List.take_succ_cons, List.take_zero]
  after_results_simp

theorem pass3_v57 (V : Valuation τ sig (Elt F)) :
    after (slice (hostOps1 (F := F)) 29 13) V (Proc.devRef .tc main_v57) = V (Proc.devRef .tc main_v57) := by
  simp only [slice, hostOps1, List.drop_succ_cons, List.drop_zero, List.take_succ_cons, List.take_zero]
  after_results_simp

theorem pass4_v57 (V : Valuation τ sig (Elt F)) :
    after (slice (hostOps1 (F := F)) 42 9) V (Proc.devRef .tc main_v57) = V (Proc.devRef .tc main_v57) := by
  simp only [slice, hostOps1, List.drop_succ_cons, List.drop_zero, List.take_succ_cons, List.take_zero]
  after_results_simp

theorem pass6_v84 (V : Valuation τ sig (Elt F)) :
    after (slice (hostOps1 (F := F)) 58 9) V (Proc.devRef .tc main_v84) = V (Proc.devRef .tc main_v84) := by
  simp only [slice, hostOps1, List.drop_succ_cons, List.drop_zero, List.take_succ_cons, List.take_zero]
  after_results_simp

theorem pass8_v101 (V : Valuation τ sig (Elt F)) :
    after (slice (hostOps1 (F := F)) 77 9) V (Proc.devRef .tc main_v101) = V (Proc.devRef .tc main_v101) := by
  simp only [slice, hostOps1, List.drop_succ_cons, List.drop_zero, List.take_succ_cons, List.take_zero]
  after_results_simp

theorem pass10_v118 (V : Valuation τ sig (Elt F)) :
    after (slice (hostOps1 (F := F)) 96 9) V (Proc.devRef .tc main_v118) = V (Proc.devRef .tc main_v118) := by
  simp only [slice, hostOps1, List.drop_succ_cons, List.drop_zero, List.take_succ_cons, List.take_zero]
  after_results_simp

theorem pass12_v135 (V : Valuation τ sig (Elt F)) :
    after (slice (hostOps1 (F := F)) 115 7) V (Proc.devRef .tc main_v135) = V (Proc.devRef .tc main_v135) := by
  simp only [slice, hostOps1, List.drop_succ_cons, List.drop_zero, List.take_succ_cons, List.take_zero]
  after_results_simp

theorem pass13_v135 (V : Valuation τ sig (Elt F)) :
    after (hostOps1_1 (F := F)) V (Proc.devRef .tc main_v135) = V (Proc.devRef .tc main_v135) := by
  simp only [hostOps1_1, StableHlo.TRef.unary, StableHlo.TRef.binary]
  after_results_simp

theorem pass14_v135 (V : Valuation τ sig (Elt F)) :
    after (slice (hostOps1_2 (F := F)) 0 7) V (Proc.devRef .tc main_v135) = V (Proc.devRef .tc main_v135) := by
  simp only [slice, hostOps1_2, List.drop_succ_cons, List.drop_zero, List.take_succ_cons, List.take_zero]
  after_results_simp

theorem pass15_v141 (V : Valuation τ sig (Elt F)) :
    after (slice (hostOps1_2 (F := F)) 7 13) V (Proc.devRef .tc main_v141) = V (Proc.devRef .tc main_v141) := by
  simp only [slice, hostOps1_2, List.drop_succ_cons, List.drop_zero, List.take_succ_cons, List.take_zero]
  after_results_simp

theorem pass16_v157 (V : Valuation τ sig (Elt F)) :
    after (slice (hostOps1_2 (F := F)) 20 11) V (Proc.devRef .tc main_v157) = V (Proc.devRef .tc main_v157) := by
  simp only [slice, hostOps1_2, List.drop_succ_cons, List.drop_zero, List.take_succ_cons, List.take_zero]
  after_results_simp

/-! ## The whole stretch -/

/-- The stretch of operations after the aggregation, run from any contents that hold the arguments, the entry
    projection and the two aggregates at the reference's values, ends with the program's result at the reference's. -/
theorem tail_value (W : Valuation τ sig (Elt F))
    (x0 : (⟨S12800x256, .f32⟩ : BufTy).Contents (Elt F)) (x1 : (⟨S51200x1568, .f32⟩ : BufTy).Contents (Elt F))
    (x2 : (⟨S51200x224, .f32⟩ : BufTy).Contents (Elt F)) (x3 : (⟨S2x51200, .i32⟩ : BufTy).Contents (Elt F))
    (x4 : (⟨S12800, .i32⟩ : BufTy).Contents (Elt F)) (x5 : (⟨S256x256, .f32⟩ : BufTy).Contents (Elt F))
    (x6 : (⟨S256, .f32⟩ : BufTy).Contents (Elt F)) (x7 : (⟨S256x1568, .f32⟩ : BufTy).Contents (Elt F))
    (x8 : (⟨S256x256, .f32⟩ : BufTy).Contents (Elt F)) (x9 : (⟨S256x224, .f32⟩ : BufTy).Contents (Elt F))
    (x10 : (⟨S256x256, .f32⟩ : BufTy).Contents (Elt F)) (x11 : (⟨S256x256, .f32⟩ : BufTy).Contents (Elt F))
    (x12 : (⟨S256, .f32⟩ : BufTy).Contents (Elt F)) (x13 : (⟨S256x256, .f32⟩ : BufTy).Contents (Elt F))
    (x14 : (⟨S256x256, .f32⟩ : BufTy).Contents (Elt F)) (x15 : (⟨S256, .f32⟩ : BufTy).Contents (Elt F))
    (x16 : (⟨S256x256, .f32⟩ : BufTy).Contents (Elt F)) (x17 : (⟨S256x256, .f32⟩ : BufTy).Contents (Elt F))
    (x18 : (⟨S256, .f32⟩ : BufTy).Contents (Elt F)) (x19 : (⟨S256x256, .f32⟩ : BufTy).Contents (Elt F))
    (x20 : (⟨S256, .f32⟩ : BufTy).Contents (Elt F)) (x21 : (⟨S256x512, .f32⟩ : BufTy).Contents (Elt F))
    (x22 : (⟨S256, .f32⟩ : BufTy).Contents (Elt F)) (x23 : (⟨S3x256x256, .f32⟩ : BufTy).Contents (Elt F))
    (x24 : (⟨S3x256, .f32⟩ : BufTy).Contents (Elt F)) (x25 : (⟨S256, .f32⟩ : BufTy).Contents (Elt F))
    (x26 : (⟨S256, .f32⟩ : BufTy).Contents (Elt F)) (x27 : (⟨S256, .f32⟩ : BufTy).Contents (Elt F))
    (x28 : (⟨S256x256, .f32⟩ : BufTy).Contents (Elt F)) (x29 : (⟨S256, .f32⟩ : BufTy).Contents (Elt F))
    (h4 : W (Proc.devRef .tc main_arg4) = x4) (h11 : W (Proc.devRef .tc main_arg11) = x11)
    (h12 : W (Proc.devRef .tc main_arg12) = x12) (h13 : W (Proc.devRef .tc main_arg13) = x13)
    (h14 : W (Proc.devRef .tc main_arg14) = x14) (h15 : W (Proc.devRef .tc main_arg15) = x15)
    (h16 : W (Proc.devRef .tc main_arg16) = x16) (h17 : W (Proc.devRef .tc main_arg17) = x17)
    (h18 : W (Proc.devRef .tc main_arg18) = x18) (h19 : W (Proc.devRef .tc main_arg19) = x19)
    (h20 : W (Proc.devRef .tc main_arg20) = x20) (h21 : W (Proc.devRef .tc main_arg21) = x21)
    (h22 : W (Proc.devRef .tc main_arg22) = x22) (h23 : W (Proc.devRef .tc main_arg23) = x23)
    (h24 : W (Proc.devRef .tc main_arg24) = x24) (h25 : W (Proc.devRef .tc main_arg25) = x25)
    (h26 : W (Proc.devRef .tc main_arg26) = x26) (h27 : W (Proc.devRef .tc main_arg27) = x27)
    (h28 : W (Proc.devRef .tc main_arg28) = x28) (h29 : W (Proc.devRef .tc main_arg29) = x29)
    (hv15 : W (Proc.devRef .tc main_v15) = val_main_v15 (F := F) x0 x5 x6) (hv36 : W (Proc.devRef .tc main_v36) = val_main_v30 (F := F) x0 x1 x3 x5 x6 x7 x8)
    (hv37 : W (Proc.devRef .tc main_v37) = val_main_v65 (F := F) x0 x2 x3 x5 x6 x9 x10) :
    after (List.drop 7 (hostOps1 (F := F)) ++ hostOps1_1 ++ hostOps1_2) W (Proc.devRef .tc main_v185)
      = val_main_v193 (F := F) x0 x1 x2 x3 x4 x5 x6 x7 x8 x9 x10 x11 x12 x13 x14 x15 x16 x17 x18 x19 x20 x21 x22 x23 x24 x25 x26 x27 x28 x29 := by
  rw [stretch_eq]; simp only [after_append]
  have L0 : ∀ r ∈ leafRefs, W (Proc.devRef .tc r) = W (Proc.devRef .tc r) := fun _ _ => rfl
  -- piece 1
  have a50 := piece1 W h11 h12 h13 h17 h18 hv15 hv36
  have c37 := (pass1_v37 W).trans hv37
  have L1 : ∀ r ∈ leafRefs, after (slice (hostOps1 (F := F)) 7 13) W (Proc.devRef .tc r) = W (Proc.devRef .tc r) :=
    fun r hr => (keep1 7 13 W hr).trans (L0 r hr)
  generalize after (slice (hostOps1 (F := F)) 7 13) W = V1 at a50 c37 L1 ⊢
  -- piece 2
  have a57 := piece2 V1 a50
  have c37' := (pass2_v37 V1).trans c37
  have L2 : ∀ r ∈ leafRefs, after (slice (hostOps1 (F := F)) 20 9) V1 (Proc.devRef .tc r) = W (Proc.devRef .tc r) :=
    fun r hr => (keep1 20 9 V1 hr).trans (L1 r hr)
  generalize after (slice (hostOps1 (F := F)) 20 9) V1 = V2 at a57 c37' L2 ⊢
  -- piece 3
  have a70 := piece3 V2 ((L2 _ (by decide)).trans h14) ((L2 _ (by decide)).trans h15) ((L2 _ (by decide)).trans h16) ((L2 _ (by decide)).trans h19) ((L2 _ (by decide)).trans h20) ((L2 _ (by decide)).trans hv15) c37'
  have c57 := (pass3_v57 V2).trans a57
  have L3 : ∀ r ∈ leafRefs, after (slice (hostOps1 (F := F)) 29 13) V2 (Proc.devRef .tc r) = W (Proc.devRef .tc r) :=
    fun r hr => (keep1 29 13 V2 hr).trans (L2 r hr)
  generalize after (slice (hostOps1 (F := F)) 29 13) V2 = V3 at a70 c57 L3 ⊢
  -- piece 4
  have a77 := piece4 V3 a70
  have c57' := (pass4_v57 V3).trans c57
  have L4 : ∀ r ∈ leafRefs, after (slice (hostOps1 (F := F)) 42 9) V3 (Proc.devRef .tc r) = W (Proc.devRef .tc r) :=
    fun r hr => (keep1 42 9 V3 hr).trans (L3 r hr)
  generalize after (slice (hostOps1 (F := F)) 42 9) V3 = V4 at a77 c57' L4 ⊢
  -- piece 5
  have a84 := piece5 V4 ((L4 _ (by decide)).trans h21) ((L4 _ (by decide)).trans h22) ((L4 _ (by decide)).trans hv15) c57' a77
  have L5 : ∀ r ∈ leafRefs, after (slice (hostOps1 (F := F)) 51 7) V4 (Proc.devRef .tc r) = W (Proc.devRef .tc r) :=
    fun r hr => (keep1 51 7 V4 hr).trans (L4 r hr)
  generalize after (slice (hostOps1 (F := F)) 51 7) V4 = V5 at a84 L5 ⊢
  -- piece 6
  have a93 := piece6 V5 ((L5 _ (by decide)).trans h23) ((L5 _ (by decide)).trans h24) a84
  have c84 := (pass6_v84 V5).trans a84
  have L6 : ∀ r ∈ leafRefs, after (slice (hostOps1 (F := F)) 58 9) V5 (Proc.devRef .tc r) = W (Proc.devRef .tc r) :=
    fun r hr => (keep1 58 9 V5 hr).trans (L5 r hr)
  generalize after (slice (hostOps1 (F := F)) 58 9) V5 = V6 at a93 c84 L6 ⊢
  -- piece 7
  have a101 := piece7 V6 a93 c84
  have L7 : ∀ r ∈ leafRefs, after (slice (hostOps1 (F := F)) 67 10) V6 (Proc.devRef .tc r) = W (Proc.devRef .tc r) :=
    fun r hr => (keep1 67 10 V6 hr).trans (L6 r hr)
  generalize after (slice (hostOps1 (F := F)) 67 10) V6 = V7 at a101 L7 ⊢
  -- piece 8
  have a110 := piece8 V7 ((L7 _ (by decide)).trans h23) ((L7 _ (by decide)).trans h24) a101
  have c101 := (pass8_v101 V7).trans a101
  have L8 : ∀ r ∈ leafRefs, after (slice (hostOps1 (F := F)) 77 9) V7 (Proc.devRef .tc r) = W (Proc.devRef .tc r) :=
    fun r hr => (keep1 77 9 V7 hr).trans (L7 r hr)
  generalize after (slice (hostOps1 (F := F)) 77 9) V7 = V8 at a110 c101 L8 ⊢
  -- piece 9
  have a118 := piece9 V8 a110 c101
  have L9 : ∀ r ∈ leafRefs, after (slice (hostOps1 (F := F)) 86 10) V8 (Proc.devRef .tc r) = W (Proc.devRef .tc r) :=
    fun r hr => (keep1 86 10 V8 hr).trans (L8 r hr)
  generalize after (slice (hostOps1 (F := F)) 86 10) V8 = V9 at a118 L9 ⊢
  -- piece 10
  have a127 := piece10 V9 ((L9 _ (by decide)).trans h23) ((L9 _ (by decide)).trans h24) a118
  have c118 := (pass10_v118 V9).trans a118
  have L10 : ∀ r ∈ leafRefs, after (slice (hostOps1 (F := F)) 96 9) V9 (Proc.devRef .tc r) = W (Proc.devRef .tc r) :=
    fun r hr => (keep1 96 9 V9 hr).trans (L9 r hr)
  generalize after (slice (hostOps1 (F := F)) 96 9) V9 = V10 at a127 c118 L10 ⊢
  -- piece 11
  have a135 := piece11 V10 a127 c118
  have L11 : ∀ r ∈ leafRefs, after (slice (hostOps1 (F := F)) 105 10) V10 (Proc.devRef .tc r) = W (Proc.devRef .tc r) :=
    fun r hr => (keep1 105 10 V10 hr).trans (L10 r hr)
  generalize after (slice (hostOps1 (F := F)) 105 10) V10 = V11 at a135 L11 ⊢
  -- piece 12
  have a139 := piece12 V11 ((L11 _ (by decide)).trans h4)
  have aone := piece12_one V11
  have c135 := (pass12_v135 V11).trans a135
  have L12 : ∀ r ∈ leafRefs, after (slice (hostOps1 (F := F)) 115 7) V11 (Proc.devRef .tc r) = W (Proc.devRef .tc r) :=
    fun r hr => (keep1 115 7 V11 hr).trans (L11 r hr)
  generalize after (slice (hostOps1 (F := F)) 115 7) V11 = V12 at a139 aone c135 L12 ⊢
  -- piece 13
  have a140 := piece13 V12 aone a139
  have c135' := (pass13_v135 V12).trans c135
  have L13 : ∀ r ∈ leafRefs, after (hostOps1_1 (F := F)) V12 (Proc.devRef .tc r) = W (Proc.devRef .tc r) :=
    fun r hr => (keep11 V12 hr).trans (L12 r hr)
  generalize after (hostOps1_1 (F := F)) V12 = V13 at a140 c135' L13 ⊢
  -- piece 14
  have a141 := piece14_cnt V13 a140
  have a146 := piece14 V13 ((L13 _ (by decide)).trans h4) a140 c135'
  have c135'' := (pass14_v135 V13).trans c135'
  have L14 : ∀ r ∈ leafRefs, after (slice (hostOps1_2 (F := F)) 0 7) V13 (Proc.devRef .tc r) = W (Proc.devRef .tc r) :=
    fun r hr => (keep12 0 7 V13 hr).trans (L13 r hr)
  generalize after (slice (hostOps1_2 (F := F)) 0 7) V13 = V14 at a141 a146 c135'' L14 ⊢
  -- piece 15
  have a157 := piece15 V14 ((L14 _ (by decide)).trans h4) ((L14 _ (by decide)).trans h27) c135'' a146
  have c141 := (pass15_v141 V14).trans a141
  have L15 : ∀ r ∈ leafRefs, after (slice (hostOps1_2 (F := F)) 7 13) V14 (Proc.devRef .tc r) = W (Proc.devRef .tc r) :=
    fun r hr => (keep12 7 13 V14 hr).trans (L14 r hr)
  generalize after (slice (hostOps1_2 (F := F)) 7 13) V14 = V15 at a157 c141 L15 ⊢
  -- piece 16
  have a166 := piece16 V15 ((L15 _ (by decide)).trans h4) c141 a157
  have c157 := (pass16_v157 V15).trans a157
  have L16 : ∀ r ∈ leafRefs, after (slice (hostOps1_2 (F := F)) 20 11) V15 (Proc.devRef .tc r) = W (Proc.devRef .tc r) :=
    fun r hr => (keep12 20 11 V15 hr).trans (L15 r hr)
  generalize after (slice (hostOps1_2 (F := F)) 20 11) V15 = V16 at a166 c157 L16 ⊢
  -- piece 17
  exact piece17 V16 ((L16 _ (by decide)).trans h4) ((L16 _ (by decide)).trans h25) ((L16 _ (by decide)).trans h26) ((L16 _ (by decide)).trans h28) ((L16 _ (by decide)).trans h29) c157 a166

end Cert.EdgeMix.Tail
-- ==== Proof.Agg.lean ====
/-
  The kernel program's value: the aggregation after the region, and the whole run.

  After the region the program widens the array of messages, scatter-adds its rows onto a zero matrix [12800, 512] at
  the target-node column and cuts the result into its left and right 256 columns. The array of messages is the two
  feature sets' messages side by side (KValue), each message the reference's (RefEdge), and a row scatter-add acts
  column by column, so the two cuts are the reference's two aggregates. Every later operation is the reference's own
  (TailValue), so the program's result is the reference's result stage of the same arguments.
-/
import proofs.«104348_j82652350644686_2_alg».proof.Proof.KValue
import proofs.«104348_j82652350644686_2_alg».proof.Proof.RefEdge
import proofs.«104348_j82652350644686_2_alg».proof.Proof.TailValue
import Idealize.ShloMosaic.Lib.StableHlo.Run

noncomputable section

namespace Cert.EdgeMix.Agg

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.KernelIdeal.Fr Cert.EdgeMix Cert.EdgeMix.KVal
open Cert.ReferenceIdeal.Read

variable (m : (ℓ : Loc nD τ sig) → Buf (Elt Ideal) ℓ) (ρ : Dev nD → PrngReg)

/-- Running two stretches of operations one after the other is running their concatenation. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op ops ih => rw [List.cons_append, StableHlo.after_cons, StableHlo.after_cons, ih]

/-- Three stretches in a row, the first cut after its seventh operation. -/
theorem split7 {α : Type} (a b c : List α) : [a, b, c].flatten = List.take 7 a ++ (List.drop 7 a ++ b ++ c) := by
  simp only [List.flatten_cons, List.flatten_nil, List.append_nil, List.append_assoc]
  conv_rhs => rw [← List.append_assoc, List.take_append_drop]

/-! ## What the operations before the region computed -/

/-- The target-node column, as the reference computes it. -/
theorem V_v3 (c : Dev nD) : V m c main_v3 = val_main_v3 (F := Ideal) (m ((c : Thread nD τ).loc main_arg3)) := by
  show StableHlo.after (List.flatten [hostOps0]) (fun b => m (c, b)) (Proc.devRef .tc main_v3) = _
  simp only [List.flatten_cons, List.flatten_nil, List.append_nil, hostOps0]
  after_results_simp
  rfl

/-- The entry projection's activation, as the reference computes it. -/
theorem V_v15 (c : Dev nD) : V m c main_v15 = val_main_v15 (F := Ideal) (m ((c : Thread nD τ).loc main_arg0)) (m ((c : Thread nD τ).loc main_arg5)) (m ((c : Thread nD τ).loc main_arg6)) := by
  show StableHlo.after (List.flatten [hostOps0]) (fun b => m (c, b)) (Proc.devRef .tc main_v15) = _
  simp only [List.flatten_cons, List.flatten_nil, List.append_nil, hostOps0]
  after_results_simp
  rfl

/-- The gathered source-node features, as the reference computes them. -/
theorem V_v22 (c : Dev nD) : V m c main_v22 = val_main_v26 (F := Ideal) (m ((c : Thread nD τ).loc main_arg0)) (m ((c : Thread nD τ).loc main_arg3)) (m ((c : Thread nD τ).loc main_arg5)) (m ((c : Thread nD τ).loc main_arg6)) := by
  show StableHlo.after (List.flatten [hostOps0]) (fun b => m (c, b)) (Proc.devRef .tc main_v22) = _
  simp only [List.flatten_cons, List.flatten_nil, List.append_nil, hostOps0]
  after_results_simp
  rfl

/-- The four transposed weight matrices: rounding to a narrower format is the identity on the extended reals. -/
theorem V_v24 (c : Dev nD) : (V m c main_v24 : S1568x256.Idx → EReal) = val_main_v16 (F := Ideal) (m ((c : Thread nD τ).loc main_arg7)) := by
  show StableHlo.after (List.flatten [hostOps0]) (fun b => m (c, b)) (Proc.devRef .tc main_v24) = _
  simp only [List.flatten_cons, List.flatten_nil, List.append_nil, hostOps0]
  after_results_simp
  rfl
theorem V_v26 (c : Dev nD) : (V m c main_v26 : S256x256.Idx → EReal) = val_main_v18 (F := Ideal) (m ((c : Thread nD τ).loc main_arg8)) := by
  show StableHlo.after (List.flatten [hostOps0]) (fun b => m (c, b)) (Proc.devRef .tc main_v26) = _
  simp only [List.flatten_cons, List.flatten_nil, List.append_nil, hostOps0]
  after_results_simp
  rfl
theorem V_v28 (c : Dev nD) : (V m c main_v28 : S224x256.Idx → EReal) = val_main_v51 (F := Ideal) (m ((c : Thread nD τ).loc main_arg9)) := by
  show StableHlo.after (List.flatten [hostOps0]) (fun b => m (c, b)) (Proc.devRef .tc main_v28) = _
  simp only [List.flatten_cons, List.flatten_nil, List.append_nil, hostOps0]
  after_results_simp
  rfl
theorem V_v30 (c : Dev nD) : (V m c main_v30 : S256x256.Idx → EReal) = val_main_v53 (F := Ideal) (m ((c : Thread nD τ).loc main_arg10)) := by
  show StableHlo.after (List.flatten [hostOps0]) (fun b => m (c, b)) (Proc.devRef .tc main_v30) = _
  simp only [List.flatten_cons, List.flatten_nil, List.append_nil, hostOps0]
  after_results_simp
  rfl

/-! ## The array of messages is the reference's two message arrays side by side -/

theorem msgs_left (c : Dev nD) (e : Fin 51200) (q : Fin 256) :
    msgs m c (ix2 e ⟨q.val, by have := q.isLt; omega⟩) = val_main_v27 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (ix2 e q) := by
  rw [Cert.EdgeMix.Ref.msg1_apply]
  unfold msgs
  refine (joinCols_left _ _ e q).trans ?_
  exact edgeAt_congr _ _ _ _ _ _ _ _ e e q (fun l => congrFun (V_arg m c main_arg1 (by decide)) _)
    (fun l k => congrFun (V_v24 m c) _) (fun k k' => congrFun (V_v26 m c) _) (congrFun (V_v22 m c) _)

theorem msgs_right (c : Dev nD) (e : Fin 51200) (q : Fin 256) :
    msgs m c (ix2 e ⟨256 + q.val, by have := q.isLt; omega⟩) = val_main_v62 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg9)) (m ((c : Thread nD τ).loc main_arg10)) (ix2 e q) := by
  rw [Cert.EdgeMix.Ref.msg2_apply]
  unfold msgs
  refine (joinCols_right _ _ e q).trans ?_
  exact edgeAt_congr _ _ _ _ _ _ _ _ e e q (fun l => congrFun (V_arg m c main_arg2 (by decide)) _)
    (fun l k => congrFun (V_v28 m c) _) (fun k k' => congrFun (V_v30 m c) _) (congrFun (V_v22 m c) _)

/-! ## The seven operations of the aggregation -/

/-- The contents the region leaves: its arrays as the proof data computes them, every other buffer as it was. -/
abbrev W0 (c : Dev nD) : Valuation τ sig (Elt Ideal) :=
  Pipeline.withArrays (cfgs 0).spec c (V0 m c) fun w => (dats m 0 c).arrAt w (cfgs 0).N

theorem W0_v31 (c : Dev nD) : W0 m c (Proc.devRef .tc main_v31) = msgs m c :=
  (Pipeline.withArrays_arr spec0 launch0.win.arr_inj c _ _ 7).trans (final m c)

/-- A buffer that is no array of the pipeline is as the operations before the region left it. -/
theorem W0_keep (c : Dev nD) (b : Ref sig .tc) (hne : ∀ w, Pipeline.arrRef spec0 w ≠ b) :
    W0 m c (Proc.devRef .tc b) = V m c b :=
  Pipeline.withArrays_of_ne _ c (V0 m c) _ b hne

/-- The left cut of the aggregate, as a term of the contents the seven operations start from. -/
theorem agg_left_term (W : Valuation τ sig (Elt Ideal)) :
    StableHlo.after (List.take 7 (hostOps1 (F := Ideal))) W (Proc.devRef .tc main_v36)
      = extractStridedSlice S12800x256 ![0, 0]
          (Host.scatterAdd (F := Ideal) scatter_S12800x512_S51200x1_S51200x512_1_0_0_1
            (broadcastInDim S12800x512 ![] bcast_S_S12800x512 (constant (F := Ideal) S_ .f32 0x00000000#32))
            (broadcastInDim S51200x1 ![0] bcast_S51200_S51200x1_0 (W (Proc.devRef .tc main_v3)))
            (extf .f32 (W (Proc.devRef .tc main_v31)) bitsLt_bf16_f32))
          slices_S12800x512_S12800x256_0_0 := by
  show StableHlo.after [_, _, _, _, _, _, _] W _ = _
  after_results

/-- The right cut. -/
theorem agg_right_term (W : Valuation τ sig (Elt Ideal)) :
    StableHlo.after (List.take 7 (hostOps1 (F := Ideal))) W (Proc.devRef .tc main_v37)
      = extractStridedSlice S12800x256 ![0, 256]
          (Host.scatterAdd (F := Ideal) scatter_S12800x512_S51200x1_S51200x512_1_0_0_1
            (broadcastInDim S12800x512 ![] bcast_S_S12800x512 (constant (F := Ideal) S_ .f32 0x00000000#32))
            (broadcastInDim S51200x1 ![0] bcast_S51200_S51200x1_0 (W (Proc.devRef .tc main_v3)))
            (extf .f32 (W (Proc.devRef .tc main_v31)) bitsLt_bf16_f32))
          slices_S12800x512_S12800x256_0_256 := by
  show StableHlo.after [_, _, _, _, _, _, _] W _ = _
  after_results

/-- A buffer defined before the operations after the region (index below 66) passes through the seven unchanged. -/
theorem W7_keep (c : Dev nD) (b : Ref sig .tc) (hb : b.idx.val < 66) (hne : ∀ w, Pipeline.arrRef spec0 w ≠ b) :
    StableHlo.after (List.take 7 (hostOps1 (F := Ideal))) (W0 m c) (Proc.devRef .tc b) = V m c b := by
  rw [StableHlo.after_of_forall_not_mem (b := Proc.devRef .tc b) _ _ (fun op hop =>
    tail_not_writes (F := Ideal) b hb op (List.mem_flatten.mpr ⟨hostOps1, List.mem_cons_self, List.mem_of_mem_take hop⟩))]
  exact W0_keep m c b hne

theorem W7_arg (c : Dev nD) (b : Ref sig .tc) (hb : b.idx.val < 30) (hne : ∀ w, Pipeline.arrRef spec0 w ≠ b) :
    StableHlo.after (List.take 7 (hostOps1 (F := Ideal))) (W0 m c) (Proc.devRef .tc b) = m ((c : Thread nD τ).loc b) :=
  (W7_keep m c b (by omega) hne).trans (V_arg m c b hb)

/-- The left cut of the kernel program's aggregate is the reference's first aggregate. -/
theorem W7_v36 (c : Dev nD) :
    StableHlo.after (List.take 7 (hostOps1 (F := Ideal))) (W0 m c) (Proc.devRef .tc main_v36)
      = val_main_v30 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) := by
  rw [agg_left_term, W0_v31, W0_keep m c main_v3 (by decide), V_v3]
  exact Cert.EdgeMix.Ref.aggLeft_eq (msgs m c) _ _ _ _ _ _ _ _ (fun e q => msgs_left m c e q) rfl

/-- The right cut is the reference's second aggregate. -/
theorem W7_v37 (c : Dev nD) :
    StableHlo.after (List.take 7 (hostOps1 (F := Ideal))) (W0 m c) (Proc.devRef .tc main_v37)
      = val_main_v65 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg9)) (m ((c : Thread nD τ).loc main_arg10)) := by
  rw [agg_right_term, W0_v31, W0_keep m c main_v3 (by decide), V_v3]
  exact Cert.EdgeMix.Ref.aggRight_eq (msgs m c) _ _ _ _ _ _ _ _ (fun e q => msgs_right m c e q) rfl

/-! ## The program's result -/

/-- The kernel program's result buffer, after the operations that follow the region, is the reference's result
    stage of the same arguments. -/
theorem tail_total (c : Dev nD) :
    Pipeline.afterTail₀ cfgs (dats m) 0 (V0 m) [hostOps1, hostOps1_1, hostOps1_2] c main_v185
      = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  unfold Pipeline.afterTail₀
  rw [split7, after_app]
  exact Cert.EdgeMix.Tail.tail_value (F := Ideal) _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))
    (W7_arg m c main_arg4 (by decide) (by decide))
    (W7_arg m c main_arg11 (by decide) (by decide))
    (W7_arg m c main_arg12 (by decide) (by decide))
    (W7_arg m c main_arg13 (by decide) (by decide))
    (W7_arg m c main_arg14 (by decide) (by decide))
    (W7_arg m c main_arg15 (by decide) (by decide))
    (W7_arg m c main_arg16 (by decide) (by decide))
    (W7_arg m c main_arg17 (by decide) (by decide))
    (W7_arg m c main_arg18 (by decide) (by decide))
    (W7_arg m c main_arg19 (by decide) (by decide))
    (W7_arg m c main_arg20 (by decide) (by decide))
    (W7_arg m c main_arg21 (by decide) (by decide))
    (W7_arg m c main_arg22 (by decide) (by decide))
    (W7_arg m c main_arg23 (by decide) (by decide))
    (W7_arg m c main_arg24 (by decide) (by decide))
    (W7_arg m c main_arg25 (by decide) (by decide))
    (W7_arg m c main_arg26 (by decide) (by decide))
    (W7_arg m c main_arg27 (by decide) (by decide))
    (W7_arg m c main_arg28 (by decide) (by decide))
    (W7_arg m c main_arg29 (by decide) (by decide))
    ((W7_keep m c main_v15 (by decide) (by decide)).trans (V_v15 m c))
    (W7_v36 m c) (W7_v37 m c)

/-- The kernel program's run at the extended reals: every weakly fair execution terminates with the result buffer at
    the reference's result stage of the arguments, and the arguments as launched. -/
theorem run : θ_run defs (onTc (τ := τ) (main (F := Ideal))) ⟨m, fun _ => 0, ρ⟩ (fun r => ∀ c : Dev nD,
      r.2.mem ((c.tc : Thread nD τ).loc main_v185) = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c =>
      ⟨((h c).2 main_v185 (Pipeline.mem_restRefs_of main_v185 (by decide) (by decide))).trans (tail_total m c),
        args_kept m (dats m) (A_eq m) r h c⟩)
    (run_main m ρ)

end Cert.EdgeMix.Agg

end
-- ==== Proof.lean ====
/-
  The certificate: a fused edge-message kernel followed by one scatter-add, against two scatter-adds of plain
  matrix products.

  Both programs compute a graph convolution with edge features. For each of two feature sets the message of edge
  `e` is the edge's features projected by two weight matrices, multiplied entrywise by the features of the edge's
  source node; the messages are summed into the edge's target node, and the two aggregates feed the same chain of
  linear layers, residual layers and a per-graph normalization. The reference computes each message array by two
  matrix products on the whole arrays and scatter-adds each into a zero matrix [12800, 256]. The kernel computes
  both message arrays block by block (1024 edges per grid point), writes them side by side into one array
  [51200, 512], and the program scatter-adds that array once into a zero matrix [12800, 512] and cuts the result
  into its two halves. On the extended reals a change of float format is the identity and a matrix product into a
  zero accumulator is the plain sum over the contracted axis, so each block holds the reference's messages; the fifty
  blocks tile the array; a row scatter-add acts on each column by itself, so the two halves of the one aggregate are
  the reference's two aggregates; and every later operation is the same on both sides. No algebraic law beyond this
  regrouping is used, so the precondition is never opened. The three frame claims: the kernel program's two
  instances by the pipeline's frame theorem over the body's run, the reference's from its run.
-/
import proofs.«104348_j82652350644686_2_alg».proof.Defs
import proofs.«104348_j82652350644686_2_alg».proof.Proof.Gen.Kernel
import proofs.«104348_j82652350644686_2_alg».proof.Proof.Gen.KernelIdeal
import proofs.«104348_j82652350644686_2_alg».proof.Proof.Gen.ReferenceIdeal
import proofs.«104348_j82652350644686_2_alg».proof.Proof.Gen.Pre_finite_inputs
import proofs.«104348_j82652350644686_2_alg».proof.Proof.RefAsm
import proofs.«104348_j82652350644686_2_alg».proof.Proof.KFrameBits
import proofs.«104348_j82652350644686_2_alg».proof.Proof.KFrameIdeal
import proofs.«104348_j82652350644686_2_alg».proof.Proof.Agg
import Idealize.ShloMosaic.Adequacy
import Idealize.ShloMosaic.Init

noncomputable section

namespace Cert.Proof

open Idealize.ShloMosaic Idealize.ShloMosaic.TcCoe Idealize.SL.Sem

/-- The kernel program at the word level runs to the end, faults nowhere and leaves its arguments unchanged. -/
theorem frame_k : Cert.frame_Kernel := fun m ρ _ => Cert.Kernel.Fr.frame m ρ

/-- The same at the extended reals. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.EdgeMix.RefVal.ref_run m ρ)

/-- The idealization rewrote nothing. -/
theorem preserves : Cert.preserves_Kernel_KernelIdeal := trivial

/-- At the extended reals, from memories agreeing on the arguments, both programs end with the reference's result
    stage of the arguments. -/
theorem algebraic : Cert.algebraic_KernelIdeal_ReferenceIdeal := by
  intro m ρ m' ρ' _ hagree
  refine ⟨_, Cert.EdgeMix.Agg.run m ρ, ?_⟩
  refine (θ_run Cert.ReferenceIdeal.defs _ _).mono (fun _ h c => ⟨(h c).1.trans ?_, (h c).2⟩)
    (Cert.EdgeMix.RefVal.ref_run m' ρ')
  obtain ⟨a0, a1, a2, a3, a4, a5, a6, a7, a8, a9, a10, a11, a12, a13, a14, a15, a16, a17, a18, a19, a20, a21, a22, a23, a24, a25, a26, a27, a28, a29⟩ := hagree c
  rw [a0, a1, a2, a3, a4, a5, a6, a7, a8, a9, a10, a11, a12, a13, a14, a15, a16, a17, a18, a19, a20, a21, a22, a23, a24, a25, a26, a27, a28, a29]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
